-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_arg6)) (v2 : (c : Dev Cert.KernelIdeal.nD) → Buf (Elt Ideal) ((c.tc : Thread Cert.KernelIdeal.nD Cert.KernelIdeal.τ).loc Cert.KernelIdeal.main_v70)) (v3 : (c : Dev Cert.KernelIdeal.nD) → Buf (Elt Ideal) ((c.tc : Thread Cert.KernelIdeal.nD Cert.KernelIdeal.τ).loc Cert.KernelIdeal.main_v79)) (v4 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg6) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_v79) = v3 c
          ∧ r.2.mem ((c.tc : Thread Cert.KernelIdeal.nD Cert.KernelIdeal.τ).loc Cert.KernelIdeal.main_v84) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg6) = v1 c
          ∧ r.2.mem ((c.tc : Thread Cert.ReferenceIdeal.nD Cert.ReferenceIdeal.τ).loc Cert.ReferenceIdeal.main_v258) = v2 c
          ∧ r.2.mem ((c.tc : Thread Cert.ReferenceIdeal.nD Cert.ReferenceIdeal.τ).loc Cert.ReferenceIdeal.main_v263) = v3 c
          ∧ r.2.mem ((c.tc : Thread Cert.ReferenceIdeal.nD Cert.ReferenceIdeal.τ).loc Cert.ReferenceIdeal.main_v268) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S4000000 : Shape := ⟨1, ![4000000]⟩
abbrev S4000000x2 : Shape := ⟨2, ![4000000, 2]⟩
abbrev S1 : Shape := ⟨1, ![1]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S4000000 .f32) (main_arg6 : FVec F S500000x3 .f32) (main_arg7 : FVec F S1 .f32) (main_arg8 : FVec F S1 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg4
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S500000x3 .f32 := Host.absf main_arg6
  let main_cst_8 : FVec F S_ .f32 := constant S_ .f32 0x7F800000#32
  let main_v25 : FVec F S500000x3 .f32 := broadcastInDim S500000x3 ![] bcast_S_S500000x3 main_cst_8
  let main_v26 : IVec S500000x3 1 := cmpf .olt main_v24 main_v25
  let main_c_9 : IVec S_ 1 := constantI S_ 1 1#1
  let main_v27 : IVec S_ 1 := (fun x v => Host.reduce IntOp.andi x v reducesTo_S500000x3_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_v33

def fn {F : FTy → Type} [FloatOps F] (main_arg0 : FVec F S500000x3 .f32) (main_arg1 : FVec F S500000x3 .f32) (main_arg2 : FVec F S4000000 .f32) (main_arg3 : FVec F S4000000 .f32) (main_arg4 : FVec F S4000000 .f32) (main_arg5 : IVec S4000000x2 32) (main_arg6 : FVec F S500000x3 .f32) (main_arg7 : FVec F S1 .f32) (main_arg8 : FVec F S1 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg3
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg4 main_arg6 main_arg7 main_arg8 main_v13 main_v16
-- ==== Kernel.lean ====
abbrev S500000x3 : Shape := ⟨2, ![500000, 3]⟩
abbrev S4000000 : Shape := ⟨1, ![4000000]⟩
abbrev S4000000x2 : Shape := ⟨2, ![4000000, 2]⟩
abbrev S1 : Shape := ⟨1, ![1]⟩
abbrev S4000000x1 : Shape := ⟨2, ![4000000, 1]⟩
abbrev S_ : Shape := ⟨0, ![]⟩
abbrev S4000000x3 : Shape := ⟨2, ![4000000, 3]⟩
abbrev S5000x3 : Shape := ⟨2, ![5000, 3]⟩
abbrev S5000x2 : Shape := ⟨2, ![5000, 2]⟩
abbrev S5000x1 : Shape := ⟨2, ![5000, 1]⟩
abbrev S5000 : Shape := ⟨1, ![5000]⟩
abbrev S500000x1 : Shape := ⟨2, ![500000, 1]⟩
abbrev S500000 : Shape := ⟨1, ![500000]⟩
abbrev S2 : Shape := ⟨1, ![2]⟩

abbrev nBuf : Space → Nat
  | .hbm => 113
  | .vmem => 16
  | .smem => 0
  | _ => 0

abbrev bufTy : (tb : Table) → Fin (tcTables nBuf tb) → BufTy
  | .hbm, ⟨0, _⟩ => ⟨S500000x3, .f32⟩
  | .hbm, ⟨1, _⟩ => ⟨S500000x3, .f32⟩
  | .hbm, ⟨2, _⟩ => ⟨S4000000, .f32⟩
  | .hbm, ⟨3, _⟩ => ⟨S4000000, .f32⟩
  | .hbm, ⟨4, _⟩ => ⟨S4000000, .f32⟩
  | .hbm, ⟨5, _⟩ => ⟨S4000000x2, .i32⟩
  | .hbm, ⟨6, _⟩ => ⟨S500000x3, .f32⟩
  | .hbm, ⟨7, _⟩ => ⟨S1, .f32⟩
  | .hbm, ⟨8, _⟩ => ⟨S1, .f32⟩
  | .hbm, ⟨9, _⟩ => ⟨S4000000x1, .i32⟩
  | .hbm, ⟨10, _⟩ => ⟨S4000000, .i32⟩
  | .hbm, ⟨11, _⟩ => ⟨S4000000x1, .i32⟩
  | .hbm, ⟨12, _⟩ => ⟨S4000000, .i32⟩
  | .hbm, ⟨13, _⟩ => ⟨S_, .i32⟩
  | .hbm, ⟨14, _⟩ => ⟨S4000000, .i32⟩
  | .hbm, ⟨15, _⟩ => ⟨S4000000, .i1⟩
  | .hbm, ⟨16, _⟩ => ⟨S_, .i32⟩
  | .hbm, ⟨17, _⟩ => ⟨S4000000, .i32⟩
  | .hbm, ⟨18, _⟩ => ⟨S4000000, .i32⟩
  | .hbm, ⟨19, _⟩ => ⟨S4000000, .i32⟩
  | .hbm, ⟨20, _⟩ => ⟨S4000000x1, .i32⟩
  | .hbm, ⟨21, _⟩ => ⟨S4000000x3, .f32⟩
  | .hbm, ⟨22, _⟩ => ⟨S_, .i32⟩
  | .hbm, ⟨23, _⟩ => ⟨S4000000, .i32⟩
  | .hbm, ⟨24, _⟩ => ⟨S4000000, .i1⟩
  | .hbm, ⟨25, _⟩ => ⟨S_, .i32⟩
  | .hbm, ⟨26, _⟩ => ⟨S4000000, .i32⟩
  | .hbm, ⟨27, _⟩ => ⟨S4000000, .i32⟩
  | .hbm, ⟨28, _⟩ => ⟨S4000000, .i32⟩
  | .hbm, ⟨29, _⟩ => ⟨S4000000x1, .i32⟩
  | .hbm, ⟨30, _⟩ => ⟨S4000000x3, .f32⟩
  | .hbm, ⟨31, _⟩ => ⟨S_, .i32⟩
  | .hbm, ⟨32, _⟩ => ⟨S4000000, .i32⟩
  | .hbm, ⟨33, _⟩ => ⟨S4000000, .i1⟩
  | .hbm, ⟨34, _⟩ => ⟨S_, .i32⟩
  | .hbm, ⟨35, _⟩ => ⟨S4000000, .i32⟩
  | .hbm, ⟨36, _⟩ => ⟨S4000000, .i32⟩
  | .hbm, ⟨37, _⟩ => ⟨S4000000, .i32⟩
  | .hbm, ⟨38, _⟩ => ⟨S4000000x1, .i32⟩
  | .hbm, ⟨39, _⟩ => ⟨S4000000x3, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x3, .f32⟩
  | .hbm, ⟨49, _⟩ => ⟨S4000000x1, .f32⟩
  | .hbm, ⟨50, _⟩ => ⟨S4000000x1, .f32⟩
  | .hbm, ⟨51, _⟩ => ⟨S4000000x1, .f32⟩
  | .hbm, ⟨52, _⟩ => ⟨S4000000x3, .f32⟩
  | .hbm, ⟨53, _⟩ => ⟨S4000000x3, .f32⟩
  | .hbm, ⟨54, _⟩ => ⟨S4000000x3, .f32⟩
  | .hbm, ⟨55, _⟩ => ⟨S4000000x2, .f32⟩
  | .hbm, ⟨56, _⟩ => ⟨S_, .f32⟩
  | .hbm, ⟨57, _⟩ => ⟨S500000x3, .f32⟩
  | .hbm, ⟨58, _⟩ => ⟨S_, .i32⟩
  | .hbm, ⟨59, _⟩ => ⟨S4000000, .i32⟩
  | .hbm, ⟨60, _⟩ => ⟨S4000000, .i1⟩
  | .hbm, ⟨61, _⟩ => ⟨S_, .i32⟩
  | .hbm, ⟨62, _⟩ => ⟨S4000000, .i32⟩
  | .hbm, ⟨63, _⟩ => ⟨S4000000, .i32⟩
  | .hbm, ⟨64, _⟩ => ⟨S4000000, .i32⟩
  | .hbm, ⟨65, _⟩ => ⟨S4000000x1, .i32⟩
  | .hbm, ⟨66, _⟩ => ⟨S500000x3, .f32⟩
  | .hbm, ⟨67, _⟩ => ⟨S_, .i32⟩
  | .hbm, ⟨68, _⟩ => ⟨S4000000, .i32⟩
  | .hbm, ⟨69, _⟩ => ⟨S4000000, .i1⟩
  | .hbm, ⟨70, _⟩ => ⟨S_, .i32⟩
  | .hbm, ⟨71, _⟩ => ⟨S4000000, .i32⟩
  | .hbm, ⟨72, _⟩ => ⟨S4000000, .i32⟩
  | .hbm, ⟨73, _⟩ => ⟨S4000000, .i32⟩
  | .hbm, ⟨74, _⟩ => ⟨S4000000x1, .i32⟩
  | .hbm, ⟨75, _⟩ => ⟨S500000x3, .f32⟩
  | .hbm, ⟨76, _⟩ => ⟨S500000x1, .f32⟩
  | .hbm, ⟨77, _⟩ => ⟨S500000, .f32⟩
  | .hbm, ⟨78, _⟩ => ⟨S_, .f32⟩
  | .hbm, ⟨79, _⟩ => ⟨S500000, .f32⟩
  | .hbm, ⟨80, _⟩ => ⟨S500000, .f32⟩
  | .hbm, ⟨81, _⟩ => ⟨S500000x1, .f32⟩
  | .hbm, ⟨82, _⟩ => ⟨S500000, .f32⟩
  | .hbm, ⟨83, _⟩ => ⟨S_, .f32⟩
  | .hbm, ⟨84, _⟩ => ⟨S500000, .f32⟩
  | .hbm, ⟨85, _⟩ => ⟨S500000, .f32⟩
  | .hbm, ⟨86, _⟩ => ⟨S500000x1, .f32⟩
  | .hbm, ⟨87, _⟩ => ⟨S500000, .f32⟩
  | .hbm, ⟨88, _⟩ => ⟨S_, .f32⟩
  | .hbm, ⟨89, _⟩ => ⟨S500000, .f32⟩
  | .hbm, ⟨90, _⟩ => ⟨S500000, .f32⟩
  | .hbm, ⟨91, _⟩ => ⟨S500000x1, .f32⟩
  | .hbm, ⟨92, _⟩ => ⟨S500000x1, .f32⟩
  | .hbm, ⟨93, _⟩ => ⟨S500000x1, .f32⟩
  | .hbm, ⟨94, _⟩ => ⟨S500000x3, .f32⟩
  | .hbm, ⟨95, _⟩ => ⟨S4000000x1, .f32⟩
  | .hbm, ⟨96, _⟩ => ⟨S4000000, .f32⟩
  | .hbm, ⟨97, _⟩ => ⟨S4000000x1, .f32⟩
  | .hbm, ⟨98, _⟩ => ⟨S4000000, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1, .f32⟩
  | .hbm, ⟨104, _⟩ => ⟨S1, .f32⟩
  | .hbm, ⟨105, _⟩ => ⟨S2, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1, .f32⟩
  | .hbm, ⟨111, _⟩ => ⟨S1, .f32⟩
  | .hbm, ⟨112, _⟩ => ⟨S2, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S5000x3, .f32⟩
  | .local _ .vmem, ⟨5, _⟩ => ⟨S5000x3, .f32⟩
  | .local _ .vmem, ⟨6, _⟩ => ⟨S5000x3, .f32⟩
  | .local _ .vmem, ⟨7, _⟩ => ⟨S5000x3, .f32⟩
  | .local _ .vmem, ⟨8, _⟩ => ⟨S5000x3, .f32⟩
  | .local _ .vmem, ⟨9, _⟩ => ⟨S5000x3, .f32⟩
  | .local _ .vmem, ⟨10, _⟩ => ⟨S5000x3, .f32⟩
  | .local _ .vmem, ⟨11, _⟩ => ⟨S5000x3, .f32⟩
  | .local _ .vmem, ⟨12, _⟩ => ⟨S5000x3, .f32⟩
  | .local _ .vmem, ⟨13, _⟩ => ⟨S5000x3, .f32⟩
  | .local _ .vmem, ⟨14, _⟩ => ⟨S5000x2, .f32⟩
  | .local _ .vmem, ⟨15, _⟩ => ⟨S5000x2, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_cst : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_cst_12 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x3_d1 : Shape.Concatenates [S4000000x1, S4000000x1, S4000000x1] S4000000x3 1
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  slices_S5000x3_o0_0_S5000x1 : S5000x3.Slices ![0, 0] S5000x1
  shapeCasts_S5000x1_S5000 : S5000x1.ShapeCasts S5000
  slices_S5000x3_o0_2_S5000x1 : S5000x3.Slices ![0, 2] S5000x1
  slices_S5000x3_o0_1_S5000x1 : S5000x3.Slices ![0, 1] S5000x1
  shapeCasts_S5000_S5000x1 : S5000.ShapeCasts S5000x1
  concatenates_S5000x1_S5000x1_S5000x1_S5000x3_d1 : Shape.Concatenates [S5000x1, S5000x1, S5000x1] S5000x3 1
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  bcast_S_S500000x3 : S_.BroadcastsInDim S500000x3 (![] : Fin 0 → Fin S500000x3.rank)
  slices_S500000x3_S500000x1_0_0 : S500000x3.Slices ![0, 0] S500000x1
  shapeCasts_S500000x1_S500000 : S500000x1.ShapeCasts S500000
  shapeCasts_S1_S_ : S1.ShapeCasts S_
  bcast_S_S500000 : S_.BroadcastsInDim S500000 (![] : Fin 0 → Fin S500000.rank)
  slices_S500000x3_S500000x1_0_1 : S500000x3.Slices ![0, 1] S500000x1
  slices_S500000x3_S500000x1_0_2 : S500000x3.Slices ![0, 2] S500000x1
  bcast_S500000_S500000x1_0 : S500000.BroadcastsInDim S500000x1 (![0] : Fin 1 → Fin S500000x1.rank)
  concatenates_S500000x1_S500000x1_S500000x1_S500000x3_d1 : Shape.Concatenates [S500000x1, S500000x1, S500000x1] S500000x3 1
  reducesTo_S4000000_S_d0 : S4000000.ReducesTo [0] S_
  h_S_ : 0 < S_.numel
  bcast_S_S1 : S_.BroadcastsInDim S1 (![] : Fin 0 → Fin S1.rank)
  concatenates_S1_S1_S2_d0 : Shape.Concatenates [S1, S1] S2 0
  gather_S500000x3_S4000000x1_S4000000x3_1_0_n_n_0_1_13_wf : GatherDims.WF S500000x3 S4000000x1 S4000000x3 [1] [0] [] [0] [] 1 ![1, 3]
  scatter_S500000x3_S4000000x1_S4000000x3_1_0_0_1_wf : ScatterDims.WF S500000x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S4000000x3.size a
  hwx0_0 : ∀ i : grid0.Coords, EltTy.bits .f32 = 32 ∨ (Rect.block (s := S4000000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S4000000x3.size a
  hwx0_1 : ∀ i : grid0.Coords, EltTy.bits .f32 = 32 ∨ (Rect.block (s := S4000000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S4000000x3.size a
  hwx0_2 : ∀ i : grid0.Coords, EltTy.bits .f32 = 32 ∨ (Rect.block (s := S4000000x3) S5000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S4000000x3.size a
  hwx0_3 : ∀ i : grid0.Coords, EltTy.bits .f32 = 32 ∨ (Rect.block (s := S4000000x3) S5000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x3.size a ≤ S4000000x3.size a
  hwx0_4 : ∀ i : grid0.Coords, EltTy.bits .f32 = 32 ∨ (Rect.block (s := S4000000x3) S5000x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x3.size a ≤ S4000000x3.size a
  hwx0_5 : ∀ i : grid0.Coords, EltTy.bits .f32 = 32 ∨ (Rect.block (s := S4000000x3) S5000x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x3.size a ≤ S4000000x3.size a
  hwx0_6 : ∀ i : grid0.Coords, EltTy.bits .f32 = 32 ∨ (Rect.block (s := S4000000x3) S5000x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x2.size a ≤ S4000000x2.size a
  hwx0_7 : ∀ i : grid0.Coords, EltTy.bits .f32 = 32 ∨ (Rect.block (s := S4000000x2) S5000x2.size (cc0_transform_7 i) (hinb0_7 i)).WholeWords (EltTy.packing .f32)

variable [Facts₀]

def gather_S500000x3_S4000000x1_S4000000x3_1_0_n_n_0_1_13 : GatherDims S500000x3 S4000000x1 S4000000x3 where
  offsetDims := [1]
  collapsedSliceDims := [0]
  operandBatchingDims := []
  startIndicesBatchingDims := []
  startIndexMap := [0]
  indexVectorDim := 1
  sliceSizes := ![1, 3]
  wf := gather_S500000x3_S4000000x1_S4000000x3_1_0_n_n_0_1_13_wf
def scatter_S500000x3_S4000000x1_S4000000x3_1_0_0_1 : ScatterDims S500000x3 S4000000x1 S4000000x3 where
  updateWindowDims := [1]
  insertedWindowDims := [0]
  scatterDimsToOperandDims := [0]
  indexVectorDim := 1
  wf := scatter_S500000x3_S4000000x1_S4000000x3_1_0_0_1_wf

abbrev win0_0 : Pipeline.Window sig grid0 :=
  Pipeline.Window.ofSpec (Memref.whole main_v10) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S5000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36_0) S5000x3.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36_1) S5000x3.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v36_2) S5000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x3 : Shape := ⟨2, ![500000, 3]⟩
abbrev S4000000 : Shape := ⟨1, ![4000000]⟩
abbrev S4000000x2 : Shape := ⟨2, ![4000000, 2]⟩
abbrev S1 : Shape := ⟨1, ![1]⟩
abbrev S4000000x1 : Shape := ⟨2, ![4000000, 1]⟩
abbrev S_ : Shape := ⟨0, ![]⟩
abbrev S4000000x3 : Shape := ⟨2, ![4000000, 3]⟩
abbrev S500000x1 : Shape := ⟨2, ![500000, 1]⟩
abbrev S500000 : Shape := ⟨1, ![500000]⟩
abbrev S2 : Shape := ⟨1, ![2]⟩

abbrev nBuf : Space → Nat
  | .hbm => 334
  | .vmem => 0
  | .smem => 0
  | _ => 0

abbrev hbmTy0_0 (i : Nat) : BufTy := match i % 128 with
  | 0 => ⟨S500000x3, .f32⟩
  | 1 => ⟨S500000x3, .f32⟩
  | 2 => ⟨S4000000, .f32⟩
  | 3 => ⟨S4000000, .f32⟩
  | 4 => ⟨S4000000, .f32⟩
  | 5 => ⟨S4000000x2, .i32⟩
  | 6 => ⟨S500000x3, .f32⟩
  | 7 => ⟨S1, .f32⟩
  | 8 => ⟨S1, .f32⟩
  | 9 => ⟨S4000000x1, .i32⟩
  | 10 => ⟨S4000000, .i32⟩
  | 11 => ⟨S4000000x1, .i32⟩
  | 12 => ⟨S4000000, .i32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S_, .i32⟩
  | 21 => ⟨S4000000, .i32⟩
  | 22 => ⟨S4000000, .i32⟩
  | 23 => ⟨S4000000x1, .i32⟩
  | 24 => ⟨S4000000x1, .i32⟩
  | 25 => ⟨S4000000x2, .i32⟩
  | 26 => ⟨S4000000, .f32⟩
  | 27 => ⟨S_, .i32⟩
  | 28 => ⟨S4000000, .i32⟩
  | 29 => ⟨S4000000, .i1⟩
  | 30 => ⟨S_, .i32⟩
  | 31 => ⟨S4000000, .i32⟩
  | 32 => ⟨S4000000, .i32⟩
  | 33 => ⟨S4000000, .i32⟩
  | 34 => ⟨S_, .i32⟩
  | 35 => ⟨S4000000, .i32⟩
  | 36 => ⟨S4000000, .i32⟩
  | 37 => ⟨S4000000x1, .i32⟩
  | 38 => ⟨S4000000x1, .i32⟩
  | 39 => ⟨S4000000x2, .i32⟩
  | 40 => ⟨S4000000, .f32⟩
  | 41 => ⟨S4000000, .f32⟩
  | 42 => ⟨S_, .i32⟩
  | 43 => ⟨S4000000, .i32⟩
  | 44 => ⟨S4000000, .i1⟩
  | 45 => ⟨S_, .i32⟩
  | 46 => ⟨S4000000, .i32⟩
  | 47 => ⟨S4000000, .i32⟩
  | 48 => ⟨S4000000, .i32⟩
  | 49 => ⟨S_, .i32⟩
  | 50 => ⟨S4000000, .i32⟩
  | 51 => ⟨S4000000, .i32⟩
  | 52 => ⟨S4000000x1, .i32⟩
  | 53 => ⟨S4000000x1, .i32⟩
  | 54 => ⟨S4000000x2, .i32⟩
  | 55 => ⟨S4000000, .f32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S_, .i32⟩
  | 64 => ⟨S4000000, .i32⟩
  | 65 => ⟨S4000000, .i32⟩
  | 66 => ⟨S4000000x1, .i32⟩
  | 67 => ⟨S4000000x1, .i32⟩
  | 68 => ⟨S4000000x2, .i32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S_, .f32⟩
  | 75 => ⟨S4000000, .f32⟩
  | 76 => ⟨S4000000, .f32⟩
  | 77 => ⟨S4000000, .f32⟩
  | 78 => ⟨S_, .f32⟩
  | 79 => ⟨S4000000, .f32⟩
  | 80 => ⟨S4000000, .f32⟩
  | 81 => ⟨S4000000, .f32⟩
  | 82 => ⟨S_, .f32⟩
  | 83 => ⟨S4000000, .f32⟩
  | 84 => ⟨S4000000, .f32⟩
  | 85 => ⟨S4000000, .f32⟩
  | 86 => ⟨S4000000, .f32⟩
  | 87 => ⟨S4000000, .f32⟩
  | 88 => ⟨S_, .f32⟩
  | 89 => ⟨S4000000, .f32⟩
  | 90 => ⟨S4000000, .f32⟩
  | 91 => ⟨S4000000, .f32⟩
  | 92 => ⟨S_, .f32⟩
  | 93 => ⟨S4000000, .f32⟩
  | 94 => ⟨S4000000, .f32⟩
  | 95 => ⟨S4000000, .f32⟩
  | 96 => ⟨S4000000, .f32⟩
  | 97 => ⟨S_, .f32⟩
  | 98 => ⟨S4000000, .f32⟩
  | 99 => ⟨S4000000, .f32⟩
  | 100 => ⟨S4000000, .f32⟩
  | 101 => ⟨S4000000, .f32⟩
  | 102 => ⟨S4000000, .f32⟩
  | 103 => ⟨S_, .f32⟩
  | 104 => ⟨S4000000, .f32⟩
  | 105 => ⟨S4000000, .f32⟩
  | 106 => ⟨S4000000, .f32⟩
  | 107 => ⟨S_, .i32⟩
  | 108 => ⟨S4000000, .i32⟩
  | 109 => ⟨S4000000, .i1⟩
  | 110 => ⟨S_, .i32⟩
  | 111 => ⟨S4000000, .i32⟩
  | 112 => ⟨S4000000, .i32⟩
  | 113 => ⟨S4000000, .i32⟩
  | 114 => ⟨S_, .i32⟩
  | 115 => ⟨S4000000, .i32⟩
  | 116 => ⟨S4000000, .i32⟩
  | 117 => ⟨S4000000x1, .i32⟩
  | 118 => ⟨S4000000x1, .i32⟩
  | 119 => ⟨S4000000x2, .i32⟩
  | 120 => ⟨S4000000, .f32⟩
  | 121 => ⟨S_, .i32⟩
  | 122 => ⟨S4000000, .i32⟩
  | 123 => ⟨S4000000, .i1⟩
  | 124 => ⟨S_, .i32⟩
  | 125 => ⟨S4000000, .i32⟩
  | 126 => ⟨S4000000, .i32⟩
  | 127 => ⟨S4000000, .i32⟩
  | _ => ⟨S500000x3, .f32⟩

abbrev hbmTy0_1 (i : Nat) : BufTy := match i % 128 with
  | 0 => ⟨S_, .i32⟩
  | 1 => ⟨S4000000, .i32⟩
  | 2 => ⟨S4000000, .i32⟩
  | 3 => ⟨S4000000x1, .i32⟩
  | 4 => ⟨S4000000x1, .i32⟩
  | 5 => ⟨S4000000x2, .i32⟩
  | 6 => ⟨S4000000, .f32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S4000000, .i32⟩
  | 16 => ⟨S4000000, .i32⟩
  | 17 => ⟨S4000000x1, .i32⟩
  | 18 => ⟨S4000000x1, .i32⟩
  | 19 => ⟨S4000000x2, .i32⟩
  | 20 => ⟨S4000000, .f32⟩
  | 21 => ⟨S4000000, .f32⟩
  | 22 => ⟨S_, .i32⟩
  | 23 => ⟨S4000000, .i32⟩
  | 24 => ⟨S4000000, .i1⟩
  | 25 => ⟨S_, .i32⟩
  | 26 => ⟨S4000000, .i32⟩
  | 27 => ⟨S4000000, .i32⟩
  | 28 => ⟨S4000000, .i32⟩
  | 29 => ⟨S_, .i32⟩
  | 30 => ⟨S4000000, .i32⟩
  | 31 => ⟨S4000000, .i32⟩
  | 32 => ⟨S4000000x1, .i32⟩
  | 33 => ⟨S4000000x1, .i32⟩
  | 34 => ⟨S4000000x2, .i32⟩
  | 35 => ⟨S4000000, .f32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S_, .i32⟩
  | 44 => ⟨S4000000, .i32⟩
  | 45 => ⟨S4000000, .i32⟩
  | 46 => ⟨S4000000x1, .i32⟩
  | 47 => ⟨S4000000x1, .i32⟩
  | 48 => ⟨S4000000x2, .i32⟩
  | 49 => ⟨S4000000, .f32⟩
  | 50 => ⟨S_, .i32⟩
  | 51 => ⟨S4000000, .i32⟩
  | 52 => ⟨S4000000, .i1⟩
  | 53 => ⟨S_, .i32⟩
  | 54 => ⟨S4000000, .i32⟩
  | 55 => ⟨S4000000, .i32⟩
  | 56 => ⟨S4000000, .i32⟩
  | 57 => ⟨S_, .i32⟩
  | 58 => ⟨S4000000, .i32⟩
  | 59 => ⟨S4000000, .i32⟩
  | 60 => ⟨S4000000x1, .i32⟩
  | 61 => ⟨S4000000x1, .i32⟩
  | 62 => ⟨S4000000x2, .i32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S_, .f32⟩
  | 84 => ⟨S4000000, .f32⟩
  | 85 => ⟨S4000000, .f32⟩
  | 86 => ⟨S4000000, .f32⟩
  | 87 => ⟨S4000000, .f32⟩
  | 88 => ⟨S_, .f32⟩
  | 89 => ⟨S4000000, .f32⟩
  | 90 => ⟨S4000000, .f32⟩
  | 91 => ⟨S4000000, .f32⟩
  | 92 => ⟨S4000000, .f32⟩
  | 93 => ⟨S4000000, .f32⟩
  | 94 => ⟨S_, .f32⟩
  | 95 => ⟨S4000000, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S4000000, .f32⟩
  | 105 => ⟨S_, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S_, .f32⟩
  | 114 => ⟨S4000000, .f32⟩
  | 115 => ⟨S4000000, .f32⟩
  | 116 => ⟨S4000000, .f32⟩
  | 117 => ⟨S4000000, .f32⟩
  | 118 => ⟨S4000000, .f32⟩
  | 119 => ⟨S_, .f32⟩
  | 120 => ⟨S4000000, .f32⟩
  | 121 => ⟨S4000000, .f32⟩
  | 122 => ⟨S4000000, .f32⟩
  | 123 => ⟨S4000000, .f32⟩
  | 124 => ⟨S_, .f32⟩
  | 125 => ⟨S4000000, .f32⟩
  | 126 => ⟨S4000000, .f32⟩
  | 127 => ⟨S_, .f32⟩
  | _ => ⟨S500000x3, .f32⟩

abbrev hbmTy0_2 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .f32⟩
  | 9 => ⟨S4000000, .f32⟩
  | 10 => ⟨S4000000, .f32⟩
  | 11 => ⟨S4000000x1, .f32⟩
  | 12 => ⟨S4000000x1, .f32⟩
  | 13 => ⟨S4000000x1, .f32⟩
  | 14 => ⟨S4000000x3, .f32⟩
  | 15 => ⟨S4000000, .f32⟩
  | 16 => ⟨S4000000, .f32⟩
  | 17 => ⟨S4000000, .f32⟩
  | 18 => ⟨S4000000, .f32⟩
  | 19 => ⟨S4000000, .f32⟩
  | 20 => ⟨S4000000, .f32⟩
  | 21 => ⟨S4000000x1, .f32⟩
  | 22 => ⟨S4000000x1, .f32⟩
  | 23 => ⟨S4000000x1, .f32⟩
  | 24 => ⟨S4000000x3, .f32⟩
  | 25 => ⟨S_, .f32⟩
  | 26 => ⟨S500000x3, .f32⟩
  | 27 => ⟨S_, .i32⟩
  | 28 => ⟨S4000000, .i32⟩
  | 29 => ⟨S4000000, .i1⟩
  | 30 => ⟨S_, .i32⟩
  | 31 => ⟨S4000000, .i32⟩
  | 32 => ⟨S4000000, .i32⟩
  | 33 => ⟨S4000000, .i32⟩
  | 34 => ⟨S4000000x1, .i32⟩
  | 35 => ⟨S500000x3, .f32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S4000000x1, .i32⟩
  | 44 => ⟨S500000x3, .f32⟩
  | 45 => ⟨S500000x1, .f32⟩
  | 46 => ⟨S500000, .f32⟩
  | 47 => ⟨S_, .f32⟩
  | 48 => ⟨S500000, .f32⟩
  | 49 => ⟨S500000, .f32⟩
  | 50 => ⟨S500000x1, .f32⟩
  | 51 => ⟨S500000, .f32⟩
  | 52 => ⟨S_, .f32⟩
  | 53 => ⟨S500000, .f32⟩
  | 54 => ⟨S500000, .f32⟩
  | 55 => ⟨S500000x1, .f32⟩
  | 56 => ⟨S500000, .f32⟩
  | 57 => ⟨S_, .f32⟩
  | 58 => ⟨S500000, .f32⟩
  | 59 => ⟨S500000, .f32⟩
  | 60 => ⟨S500000x1, .f32⟩
  | 61 => ⟨S500000x1, .f32⟩
  | 62 => ⟨S500000x1, .f32⟩
  | 63 => ⟨S500000x3, .f32⟩
  | 64 => ⟨S_, .f32⟩
  | 65 => ⟨S_, .f32⟩
  | 66 => ⟨S_, .f32⟩
  | 67 => ⟨S_, .f32⟩
  | 68 => ⟨S1, .f32⟩
  | 69 => ⟨S1, .f32⟩
  | 70 => ⟨S2, .f32⟩
  | 71 => ⟨S_, .f32⟩
  | 72 => ⟨S_, .f32⟩
  | 73 => ⟨S_, .f32⟩
  | 74 => ⟨S_, .f32⟩
  | 75 => ⟨S1, .f32⟩
  | 76 => ⟨S1, .f32⟩
  | 77 => ⟨S2, .f32⟩
  | _ => ⟨S500000x3, .f32⟩

abbrev hbmTy (i : Nat) : BufTy := match i / 128 with
  | 0 => hbmTy0_0 i
  | 1 => hbmTy0_1 i
  | 2 => hbmTy0_2 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_20 : Ref sig .tc := ⟨.hbm, 121, rfl⟩
abbrev main_v90 : Ref sig .tc := ⟨.hbm, 122, rfl⟩
abbrev main_v91 : Ref sig .tc := ⟨.hbm, 123, rfl⟩
abbrev main_c_21 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_23 : Ref sig .tc := ⟨.hbm, 135, rfl⟩
abbrev main_v101 : Ref sig .tc := ⟨.hbm, 136, rfl⟩
abbrev main_v102 : Ref sig .tc := ⟨.hbm, 137, rfl⟩
abbrev main_c_24 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_25 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_26 : Ref sig .tc := ⟨.hbm, 150, rfl⟩
abbrev main_v113 : Ref sig .tc := ⟨.hbm, 151, rfl⟩
abbrev main_v114 : Ref sig .tc := ⟨.hbm, 152, rfl⟩
abbrev main_c_27 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_28 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_29 : Ref sig .tc := ⟨.hbm, 164, rfl⟩
abbrev main_v124 : Ref sig .tc := ⟨.hbm, 165, rfl⟩
abbrev main_v125 : Ref sig .tc := ⟨.hbm, 166, rfl⟩
abbrev main_c_30 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_31 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_c_32 : Ref sig .tc := ⟨.hbm, 178, rfl⟩
abbrev main_v135 : Ref sig .tc := ⟨.hbm, 179, rfl⟩
abbrev main_v136 : Ref sig .tc := ⟨.hbm, 180, rfl⟩
abbrev main_c_33 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_34 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_35 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_36 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_37 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_38 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_cst_39 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_cst_40 : Ref sig .tc := ⟨.hbm, 238, rfl⟩
abbrev main_v187 : Ref sig .tc := ⟨.hbm, 239, rfl⟩
abbrev main_v188 : Ref sig .tc := ⟨.hbm, 240, rfl⟩
abbrev main_cst_41 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_cst_42 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_43 : Ref sig .tc := ⟨.hbm, 252, rfl⟩
abbrev main_v198 : Ref sig .tc := ⟨.hbm, 253, rfl⟩
abbrev main_v199 : Ref sig .tc := ⟨.hbm, 254, rfl⟩
abbrev main_cst_44 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_cst_45 : Ref sig .tc := ⟨.hbm, 281, rfl⟩
abbrev main_v225 : Ref sig .tc := ⟨.hbm, 282, rfl⟩
abbrev main_c_46 : Ref sig .tc := ⟨.hbm, 283, rfl⟩
abbrev main_v226 : Ref sig .tc := ⟨.hbm, 284, rfl⟩
abbrev main_v227 : Ref sig .tc := ⟨.hbm, 285, rfl⟩
abbrev main_c_47 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_c_48 : Ref sig .tc := ⟨.hbm, 292, rfl⟩
abbrev main_v233 : Ref sig .tc := ⟨.hbm, 293, rfl⟩
abbrev main_v234 : Ref sig .tc := ⟨.hbm, 294, rfl⟩
abbrev main_c_49 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_cst_50 : Ref sig .tc := ⟨.hbm, 320, rfl⟩
abbrev main_v259 : Ref sig .tc := ⟨.hbm, 321, rfl⟩
abbrev main_cst_51 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_cst_52 : Ref sig .tc := ⟨.hbm, 327, rfl⟩
abbrev main_v264 : Ref sig .tc := ⟨.hbm, 328, rfl⟩
abbrev main_cst_53 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩

abbrev nD : Nat := 1
abbrev τ : Topo := Topo.v7x

variable {F : FTy → Type} [FloatOps F]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  concatenates_S4000000x1_S4000000x1_S4000000x1_S4000000x3_d1 : Shape.Concatenates [S4000000x1, S4000000x1, S4000000x1] S4000000x3 1
  bcast_S_S500000x3 : S_.BroadcastsInDim S500000x3 (![] : Fin 0 → Fin S500000x3.rank)
  slices_S500000x3_S500000x1_0_0 : S500000x3.Slices ![0, 0] S500000x1
  shapeCasts_S500000x1_S500000 : S500000x1.ShapeCasts S500000
  shapeCasts_S1_S_ : S1.ShapeCasts S_
  bcast_S_S500000 : S_.BroadcastsInDim S500000 (![] : Fin 0 → Fin S500000.rank)
  slices_S500000x3_S500000x1_0_1 : S500000x3.Slices ![0, 1] S500000x1
  slices_S500000x3_S500000x1_0_2 : S500000x3.Slices ![0, 2] S500000x1
  bcast_S500000_S500000x1_0 : S500000.BroadcastsInDim S500000x1 (![0] : Fin 1 → Fin S500000x1.rank)
  concatenates_S500000x1_S500000x1_S500000x1_S500000x3_d1 : Shape.Concatenates [S500000x1, S500000x1, S500000x1] S500000x3 1
  reducesTo_S4000000_S_d0 : S4000000.ReducesTo [0] S_
  h_S_ : 0 < S_.numel
  bcast_S_S1 : S_.BroadcastsInDim S1 (![] : Fin 0 → Fin S1.rank)
  concatenates_S1_S1_S2_d0 : Shape.Concatenates [S1, S1] S2 0
  gather_S500000x3_S4000000x2_S4000000_n_01_n_n_01_1_11_wf : GatherDims.WF S500000x3 S4000000x2 S4000000 [] [0, 1] [] [0, 1] [] 1 ![1, 1]
  scatter_S500000x3_S4000000x1_S4000000x3_1_0_0_1_wf : ScatterDims.WF S500000x3 S4000000x1 S4000000x3 [1] [0] [0] 1

variable [Facts₀]

def gather_S500000x3_S4000000x2_S4000000_n_01_n_n_01_1_11 : GatherDims S500000x3 S4000000x2 S4000000 where
  offsetDims := []
  collapsedSliceDims := [0, 1]
  operandBatchingDims := []
  startIndicesBatchingDims := []
  startIndexMap := [0, 1]
  indexVectorDim := 1
  sliceSizes := ![1, 1]
  wf := gather_S500000x3_S4000000x2_S4000000_n_01_n_n_01_1_11_wf
def scatter_S500000x3_S4000000x1_S4000000x3_1_0_0_1 : ScatterDims S500000x3 S4000000x1 S4000000x3 where
  updateWindowDims := [1]
  insertedWindowDims := [0]
  scatterDimsToOperandDims := [0]
  indexVectorDim := 1
  wf := scatter_S500000x3_S4000000x1_S4000000x3_1_0_0_1_wf

class Facts : Prop extends Facts₀ where

variable [Facts]
-- ==== Proof.EdgeHostBits.lean ====
/-
  The host program around the one region that computes the per-edge beam forces.

  The lines before the region build, from the node tables and the edge list, the five edge-indexed arrays the
  region reads: the displacement rows and the coordinate rows of each edge's two end nodes, and the three
  material properties of each edge side by side. The lines after it add the per-edge end forces into the
  node table, scale the node displacements, and take the extreme values of the two stiffness columns.
  None of these lines writes an argument array, and none of the later lines writes an array the region reads
  or writes: so every argument ends as it was launched, and the region's arrays are still what the region
  left when the later lines read them.
-/
import proofs.«101908_j42734924595228_2_alg».proof.Proof.Gen.Kernel.Launch
import Idealize.ShloMosaic.Lib.Pipeline.FrameBody
import Idealize.ShloMosaic.Lib.Pipeline.FrameSuffix

set_option maxRecDepth 16384
set_option maxHeartbeats 4000000

noncomputable section

namespace Cert.Kernel.Edge

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## The buffers as the region finds them -/

/-- The buffers of core `c` when the region is entered: the launch contents after the lines before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No line before the region allocates. -/
theorem prefix_fresh : (hostOps0 : List (HloOp τ sig (Elt F))).Forall fun op => op.fresh = ∅ := by
  simp only [List.Forall]; repeat' constructor
/-- No line after the region allocates. -/
theorem tail_fresh : (hostOps1 : List (HloOp τ sig (Elt F))).Forall fun op => op.fresh = ∅ := by
  simp only [List.Forall]; repeat' constructor

/-- The whole program is: the earlier lines, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-! ## The later lines and the region's arrays -/

/-- The later lines touch only buffers that outlive the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases List.mem_singleton.mp hops with rfl
  exact Pipeline.sub_ucRefs op ((List.forall_iff_forall_mem.mp hostOps1_sub) op hop)

/-- They allocate nothing. -/
theorem tail_alloc : ∀ ops ∈ ([hostOps1] : List (List (HloOp τ sig (Elt F)))), ∀ op ∈ ops, op.fresh = ∅ := by
  intro ops hops op hop
  rcases List.mem_singleton.mp hops with rfl
  exact (List.forall_iff_forall_mem.mp tail_fresh) op hop

/-- Each later line writes its own result buffer, and no result buffer is one of the region's eight arrays. -/
theorem tail_keeps_all : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))

theorem tail_keeps : ∀ ops ∈ ([hostOps1] : List (List (HloOp τ sig (Elt F)))), ∀ op ∈ ops,
    ∀ w, Proc.devRef .tc (Pipeline.arrRef spec0 w) ∉ op.writes := by
  intro ops hops op hop
  rcases List.mem_singleton.mp hops with rfl
  exact (List.forall_iff_forall_mem.mp tail_keeps_all) op hop

/-! ## The argument arrays are written by no line -/

/-- No line before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 0, and it is none of the region's arrays: it ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No line before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 1, and it is none of the region's arrays: it ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No line before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 2, and it is none of the region's arrays: it ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No line before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 3, and it is none of the region's arrays: it ends as launched. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-- No line before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 4, and it is none of the region's arrays: it ends as launched. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- No line before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 5, and it is none of the region's arrays: it ends as launched. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c

/-- No line before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 6, and it is none of the region's arrays: it ends as launched. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c

/-- No line before the region writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 7, and it is none of the region's arrays: it ends as launched. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_arg7 m c

/-- No line before the region writes argument 8: the region finds it as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 8, and it is none of the region's arrays: it ends as launched. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_arg8 m c

end Cert.Kernel.Edge

end
-- ==== Proof.EdgeBodyBits.lean ====
import proofs.«101908_j42734924595228_2_alg».proof.Proof.Gen.Kernel.Launch
import proofs.«101908_j42734924595228_2_alg».proof.Proof.Gen.Kernel.Skeleton
import proofs.«101908_j42734924595228_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes

At a grid point the body is handed five blocks of 5000 edges — the displacement rows of the edges' first and second
end nodes, the coordinate rows of the two ends, and the three properties side by side — and stores three blocks: the
force on each edge's first node, the force on its second node, and the pair (axial, bending) of stiffnesses. Nothing
is kept from one point to the next. The steps of that arithmetic are the definitions below, in the order the quantities depend on one another. -/

theorem hz : (![0, 0] : Fin 2 → Nat) = fun _ => 0 := funext fun a => by fin_cases a <;> rfl

section Steps
variable (x0 x1 x2 x3 x4 : Vec F S5000x3 .f32)

/-- The edges' lengths. -/
def lenV : FVec F S5000 .f32 := k0_pay10 x2 x3
/-- Their direction cosines and sines. -/
def cosV : FVec F S5000 .f32 := k0_pay11 x2 x3
def sinV : FVec F S5000 .f32 := k0_pay12 x2 x3
/-- Modulus times second moment. -/
def eiV : FVec F S5000 .f32 := k0_pay14 x4
/-- The four stiffnesses. -/
def kAxV : FVec F S5000 .f32 := k0_pay15 x2 x3 x4
def kBendV : FVec F S5000 .f32 := k0_pay17 (lenV x2 x3) (eiV x4) (k0_pay16 (F := F))
def kSwV : FVec F S5000 .f32 := k0_pay18 (lenV x2 x3) (eiV x4)
def kTrV : FVec F S5000 .f32 := k0_pay19 (lenV x2 x3) (eiV x4)
/-- The end rotations. -/
def rotAV : FVec F S5000 .f32 := k0_pay22 (k0_pay3 x0)
def rotBV : FVec F S5000 .f32 := k0_pay25 (k0_pay4 x1)
/-- The end displacements across the edge. -/
def crossAV : FVec F S5000 .f32 := k0_pay27 (k0_pay3 x0) (cosV x2 x3) (sinV x2 x3)
def crossBV : FVec F S5000 .f32 := k0_pay29 (k0_pay4 x1) (cosV x2 x3) (sinV x2 x3)
/-- The axial end forces. -/
def axialAV : FVec F S5000 .f32 := k0_pay30 (k0_pay3 x0) (k0_pay4 x1) (cosV x2 x3) (sinV x2 x3) (kAxV x2 x3 x4)
def axialBV : FVec F S5000 .f32 := k0_pay31 (k0_pay3 x0) (k0_pay4 x1) (cosV x2 x3) (sinV x2 x3) (kAxV x2 x3 x4)
/-- The translational part of the first shear force. -/
def shearTV : FVec F S5000 .f32 := k0_pay32 (k0_pay3 x0) (k0_pay4 x1) (lenV x2 x3) (cosV x2 x3) (sinV x2 x3) (eiV x4)
/-- The second node's shear force and moment. -/
def shearBV : FVec F S5000 .f32 :=
  k0_pay34 (kSwV x2 x3 x4) (kTrV x2 x3 x4) (rotAV x0) (rotBV x1) (crossAV x0 x2 x3) (crossBV x1 x2 x3)
def momentBV : FVec F S5000 .f32 :=
  k0_pay35 (kBendV x2 x3 x4) (kSwV x2 x3 x4) (rotAV x0) (rotBV x1) (crossAV x0 x2 x3) (crossBV x1 x2 x3)
/-- The first global component of the second node's force. -/
def forceB0V : FVec F S5000 .f32 :=
  k0_pay37 (cosV x2 x3) (sinV x2 x3) (kSwV x2 x3 x4) (kTrV x2 x3 x4) (rotAV x0) (rotBV x1) (crossAV x0 x2 x3) (crossBV x1 x2 x3)
    (axialBV x0 x1 x2 x3 x4)

/-- The block of forces on the edges' first nodes. -/
def blockA : Vec F S5000x3 .f32 :=
  k0_pay36 (cosV x2 x3) (sinV x2 x3) (kBendV x2 x3 x4) (kSwV x2 x3 x4) (rotAV x0) (rotBV x1) (crossAV x0 x2 x3) (crossBV x1 x2 x3)
    (axialAV x0 x1 x2 x3 x4) (shearTV x0 x1 x2 x3 x4) (k0_pay33 (F := F))
/-- The block of forces on the edges' second nodes. -/
def blockB : Vec F S5000x3 .f32 :=
  k0_pay1 (cosV x2 x3) (sinV x2 x3) (axialBV x0 x1 x2 x3 x4) (shearBV x0 x1 x2 x3 x4) (momentBV x0 x1 x2 x3 x4)
    (forceB0V x0 x1 x2 x3 x4)
/-- The block of the two reported stiffnesses. -/
def blockK : Vec F S5000x2 .f32 := k0_pay2 (kAxV x2 x3 x4) (kBendV x2 x3 x4)

end Steps

/-! ## The body's triple -/

set_option maxHeartbeats 4000000 in
/-- The body on whole staging buffers, the five inputs at given contents and the three outputs at anything, runs to
    its end leaving the inputs as they were and the outputs at `blockA`, `blockB`, `blockK` of the inputs: each
    output is stored once, whole; what is stored is the named steps above. -/
theorem sound_kernel (c : Dev nD) (E : Set ℕ) (i : grid0.Coords) (arg1 : Memref sig .tc .vmem S5000x3 .f32) (harg1 : arg1.IsWhole) (arg2 : Memref sig .tc .vmem S5000x3 .f32) (harg2 : arg2.IsWhole) (arg3 : Memref sig .tc .vmem S5000x3 .f32) (harg3 : arg3.IsWhole) (arg4 : Memref sig .tc .vmem S5000x3 .f32) (harg4 : arg4.IsWhole) (arg5 : Memref sig .tc .vmem S5000x3 .f32) (harg5 : arg5.IsWhole) (arg6 : Memref sig .tc .vmem S5000x3 .f32) (harg6 : arg6.IsWhole) (arg7 : Memref sig .tc .vmem S5000x3 .f32) (harg7 : arg7.IsWhole) (arg8 : Memref sig .tc .vmem S5000x2 .f32) (harg8 : arg8.IsWhole)
    (x0 x1 x2 x3 x4 : Vec F S5000x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockA x0 x1 x2 x3 x4) ∗ owns (c : Thread nD τ) arg7 fullShare (blockB x0 x1 x2 x3 x4)
            ∗ owns (c : Thread nD τ) arg8 fullShare (blockK x2 x3 x4)) -∗ K ⟨⟩))
      ⊢ wp frame (wpE (defs₀ (F := F)) Variants.none c none) E (cc0__edge_force_kernel i arg1 harg1 arg2 harg2 arg3 harg3 arg4 harg4 arg5 harg5 arg6 harg6 arg7 harg7 arg8 harg8) K := by
  simp only [cc0__edge_force_kernel_eq_skeleton]; unfold cc0__edge_force_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton.mpr rfl, View.mem_set_unit_zero hz inb_S5000x3_S5000x3_0_0 y⟩),
      View.canon_unit_zero hz]
    sl_unfold_run_names
    simp only [View.readAt_eq_ld, View.ld_unit_zero (S := S5000x3) hz]
    rfl
  isplitl [H6]
  · iexists _; isplitr
    swap; · iexact H6
    ipureintro
    rw [View.read_writes_eq_canon _ _ _ (fun y => ⟨_, List.mem_singleton.mpr rfl, View.mem_set_unit_zero hz inb_S5000x3_S5000x3_0_0 y⟩),
      View.canon_unit_zero hz]
    sl_unfold_run_names
    simp only [View.readAt_eq_ld, View.ld_unit_zero (S := S5000x3) hz]
    rfl
  iexists _; isplitr
  swap; · iexact H7
  ipureintro
  rw [View.read_writes_eq_canon _ _ _ (fun y => ⟨_, List.mem_singleton.mpr rfl, View.mem_set_unit_zero hz inb_S5000x2_S5000x2_0_0 y⟩),
    View.canon_unit_zero hz]
  sl_unfold_run_names
  simp only [View.readAt_eq_ld, View.ld_unit_zero (S := S5000x3) hz]
  rfl

end Cert.Kernel.Edge

end
-- ==== Proof.EdgeRunBits.lean ====
import proofs.«101908_j42734924595228_2_alg».proof.Proof.Gen.Kernel.Launch
import proofs.«101908_j42734924595228_2_alg».proof.Proof.Gen.Kernel.Skeleton
import proofs.«101908_j42734924595228_2_alg».proof.Proof.Gen.Kernel.Points
import proofs.«101908_j42734924595228_2_alg».proof.Proof.EdgeHostBits
import proofs.«101908_j42734924595228_2_alg».proof.Proof.EdgeBodyBits
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the region reads

Window `w`'s block at grid point `t` is rows 5000·t … 5000·t + 4999 of its array, as the region finds the array. -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is fetched at every point and the body leaves it in place: its staging buffer holds its block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 is fetched at every point and the body leaves it in place: its staging buffer holds its block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 is fetched at every point and the body leaves it in place: its staging buffer holds its block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 is fetched at every point and the body leaves it in place: its staging buffer holds its block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 is fetched at every point and the body leaves it in place: its staging buffer holds its block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data of the one pipeline -/

/-- On core `c`: the arrays as the region finds them; after the body at point `t` each input's buffer still at its
    block and the three outputs' at the forces and stiffnesses of the point's five input blocks; nothing of the
    kernel's own is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockA (iblk m c 0 t) (iblk m c 1 t) (iblk m c 2 t) (iblk m c 3 t) (iblk m c 4 t)
    | ⟨6, _⟩ => blockB (iblk m c 0 t) (iblk m c 1 t) (iblk m c 2 t) (iblk m c 3 t) (iblk m c 4 t)
    | ⟨7, _⟩ => blockK (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_outA (c : Dev nD) (t : Fin cfg0.N) : (dats m 0 c).after 5 t
    = blockA (iblk m c 0 t) (iblk m c 1 t) (iblk m c 2 t) (iblk m c 3 t) (iblk m c 4 t) := by dsimp only [dats]
theorem after_outB (c : Dev nD) (t : Fin cfg0.N) : (dats m 0 c).after 6 t
    = blockB (iblk m c 0 t) (iblk m c 1 t) (iblk m c 2 t) (iblk m c 3 t) (iblk m c 4 t) := by dsimp only [dats]
theorem after_outK (c : Dev nD) (t : Fin cfg0.N) : (dats m 0 c).after 7 t
    = blockK (iblk m c 2 t) (iblk m c 3 t) (iblk m c 4 t) := by dsimp only [dats]

theorem before_in0 (c : Dev nD) (t : Fin cfg0.N) (d) : (dats m 0 c).before 0 t d = iblk m c 0 t :=
  before0_of m (dats m 0 c) (A_eq m c 0) (after_in0 m c) t d
theorem before_in1 (c : Dev nD) (t : Fin cfg0.N) (d) : (dats m 0 c).before 1 t d = iblk m c 1 t :=
  before1_of m (dats m 0 c) (A_eq m c 1) (after_in1 m c) t d
theorem before_in2 (c : Dev nD) (t : Fin cfg0.N) (d) : (dats m 0 c).before 2 t d = iblk m c 2 t :=
  before2_of m (dats m 0 c) (A_eq m c 2) (after_in2 m c) t d
theorem before_in3 (c : Dev nD) (t : Fin cfg0.N) (d) : (dats m 0 c).before 3 t d = iblk m c 3 t :=
  before3_of m (dats m 0 c) (A_eq m c 3) (after_in3 m c) t d
theorem before_in4 (c : Dev nD) (t : Fin cfg0.N) (d) : (dats m 0 c).before 4 t d = iblk m c 4 t :=
  before4_of m (dats m 0 c) (A_eq m c 4) (after_in4 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_outA, after_outB, after_outK]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- From any memory with zero counters every weakly fair execution of the program ends, with each of the region's
    arrays at what the points wrote back and every other lasting buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := hmain m Variants.none) (hA := A_eq m) (hΦ := fun _ _ => rfl)

/-- The argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_arg0 m (dats m) c),
    ((h c).2 main_arg1 (Pipeline.mem_restRefs_of main_arg1 (by decide) (by decide))).trans (W_arg1 m (dats m) c),
    ((h c).2 main_arg2 (Pipeline.mem_restRefs_of main_arg2 (by decide) (by decide))).trans (W_arg2 m (dats m) c),
    ((h c).2 main_arg3 (Pipeline.mem_restRefs_of main_arg3 (by decide) (by decide))).trans (W_arg3 m (dats m) c),
    ((h c).2 main_arg4 (Pipeline.mem_restRefs_of main_arg4 (by decide) (by decide))).trans (W_arg4 m (dats m) c),
    ((h c).2 main_arg5 (Pipeline.mem_restRefs_of main_arg5 (by decide) (by decide))).trans (W_arg5 m (dats m) c),
    ((h c).2 main_arg6 (Pipeline.mem_restRefs_of main_arg6 (by decide) (by decide))).trans (W_arg6 m (dats m) c),
    ((h c).2 main_arg7 (Pipeline.mem_restRefs_of main_arg7 (by decide) (by decide))).trans (W_arg7 m (dats m) c),
    ((h c).2 main_arg8 (Pipeline.mem_restRefs_of main_arg8 (by decide) (by decide))).trans (W_arg8 m (dats m) c)⟩) (run_main m ρ)

end Cert.Kernel.Edge

end
-- ==== Proof.EdgeHostIdeal.lean ====
/-
  The host program around the one region that computes the per-edge beam forces.

  The lines before the region build, from the node tables and the edge list, the five edge-indexed arrays the
  region reads: the displacement rows and the coordinate rows of each edge's two end nodes, and the three
  material properties of each edge side by side. The lines after it add the per-edge end forces into the
  node table, scale the node displacements, and take the extreme values of the two stiffness columns.
  None of these lines writes an argument array, and none of the later lines writes an array the region reads
  or writes: so every argument ends as it was launched, and the region's arrays are still what the region
  left when the later lines read them.
-/
import proofs.«101908_j42734924595228_2_alg».proof.Proof.Gen.KernelIdeal.Launch
import Idealize.ShloMosaic.Lib.Pipeline.FrameBody
import Idealize.ShloMosaic.Lib.Pipeline.FrameSuffix

set_option maxRecDepth 16384
set_option maxHeartbeats 4000000

noncomputable section

namespace Cert.KernelIdeal.Edge

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## The buffers as the region finds them -/

/-- The buffers of core `c` when the region is entered: the launch contents after the lines before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No line before the region allocates. -/
theorem prefix_fresh : (hostOps0 : List (HloOp τ sig (Elt F))).Forall fun op => op.fresh = ∅ := by
  simp only [List.Forall]; repeat' constructor
/-- No line after the region allocates. -/
theorem tail_fresh : (hostOps1 : List (HloOp τ sig (Elt F))).Forall fun op => op.fresh = ∅ := by
  simp only [List.Forall]; repeat' constructor

/-- The whole program is: the earlier lines, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-! ## The later lines and the region's arrays -/

/-- The later lines touch only buffers that outlive the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases List.mem_singleton.mp hops with rfl
  exact Pipeline.sub_ucRefs op ((List.forall_iff_forall_mem.mp hostOps1_sub) op hop)

/-- They allocate nothing. -/
theorem tail_alloc : ∀ ops ∈ ([hostOps1] : List (List (HloOp τ sig (Elt F)))), ∀ op ∈ ops, op.fresh = ∅ := by
  intro ops hops op hop
  rcases List.mem_singleton.mp hops with rfl
  exact (List.forall_iff_forall_mem.mp tail_fresh) op hop

/-- Each later line writes its own result buffer, and no result buffer is one of the region's eight arrays. -/
theorem tail_keeps_all : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))

theorem tail_keeps : ∀ ops ∈ ([hostOps1] : List (List (HloOp τ sig (Elt F)))), ∀ op ∈ ops,
    ∀ w, Proc.devRef .tc (Pipeline.arrRef spec0 w) ∉ op.writes := by
  intro ops hops op hop
  rcases List.mem_singleton.mp hops with rfl
  exact (List.forall_iff_forall_mem.mp tail_keeps_all) op hop

/-! ## The argument arrays are written by no line -/

/-- No line before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 0, and it is none of the region's arrays: it ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No line before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 1, and it is none of the region's arrays: it ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No line before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 2, and it is none of the region's arrays: it ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No line before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 3, and it is none of the region's arrays: it ends as launched. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-- No line before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 4, and it is none of the region's arrays: it ends as launched. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- No line before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 5, and it is none of the region's arrays: it ends as launched. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c

/-- No line before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 6, and it is none of the region's arrays: it ends as launched. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c

/-- No line before the region writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 7, and it is none of the region's arrays: it ends as launched. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_arg7 m c

/-- No line before the region writes argument 8: the region finds it as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 8, and it is none of the region's arrays: it ends as launched. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_arg8 m c

end Cert.KernelIdeal.Edge

end
-- ==== Proof.EdgeBodyIdeal.lean ====
import proofs.«101908_j42734924595228_2_alg».proof.Proof.Gen.KernelIdeal.Launch
import proofs.«101908_j42734924595228_2_alg».proof.Proof.Gen.KernelIdeal.Skeleton
import proofs.«101908_j42734924595228_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes

At a grid point the body is handed five blocks of 5000 edges — the displacement rows of the edges' first and second
end nodes, the coordinate rows of the two ends, and the three properties side by side — and stores three blocks: the
force on each edge's first node, the force on its second node, and the pair (axial, bending) of stiffnesses. Nothing
is kept from one point to the next. The steps of that arithmetic are the definitions below, in the order the quantities depend on one another. -/

theorem hz : (![0, 0] : Fin 2 → Nat) = fun _ => 0 := funext fun a => by fin_cases a <;> rfl

section Steps
variable (x0 x1 x2 x3 x4 : Vec F S5000x3 .f32)

/-- The edges' lengths. -/
def lenV : FVec F S5000 .f32 := k0_pay10 x2 x3
/-- Their direction cosines and sines. -/
def cosV : FVec F S5000 .f32 := k0_pay11 x2 x3
def sinV : FVec F S5000 .f32 := k0_pay12 x2 x3
/-- Modulus times second moment. -/
def eiV : FVec F S5000 .f32 := k0_pay14 x4
/-- The four stiffnesses. -/
def kAxV : FVec F S5000 .f32 := k0_pay15 x2 x3 x4
def kBendV : FVec F S5000 .f32 := k0_pay17 (lenV x2 x3) (eiV x4) (k0_pay16 (F := F))
def kSwV : FVec F S5000 .f32 := k0_pay18 (lenV x2 x3) (eiV x4)
def kTrV : FVec F S5000 .f32 := k0_pay19 (lenV x2 x3) (eiV x4)
/-- The end rotations. -/
def rotAV : FVec F S5000 .f32 := k0_pay22 (k0_pay3 x0)
def rotBV : FVec F S5000 .f32 := k0_pay25 (k0_pay4 x1)
/-- The end displacements across the edge. -/
def crossAV : FVec F S5000 .f32 := k0_pay27 (k0_pay3 x0) (cosV x2 x3) (sinV x2 x3)
def crossBV : FVec F S5000 .f32 := k0_pay29 (k0_pay4 x1) (cosV x2 x3) (sinV x2 x3)
/-- The axial end forces. -/
def axialAV : FVec F S5000 .f32 := k0_pay30 (k0_pay3 x0) (k0_pay4 x1) (cosV x2 x3) (sinV x2 x3) (kAxV x2 x3 x4)
def axialBV : FVec F S5000 .f32 := k0_pay31 (k0_pay3 x0) (k0_pay4 x1) (cosV x2 x3) (sinV x2 x3) (kAxV x2 x3 x4)
/-- The translational part of the first shear force. -/
def shearTV : FVec F S5000 .f32 := k0_pay32 (k0_pay3 x0) (k0_pay4 x1) (lenV x2 x3) (cosV x2 x3) (sinV x2 x3) (eiV x4)
/-- The second node's shear force and moment. -/
def shearBV : FVec F S5000 .f32 :=
  k0_pay34 (kSwV x2 x3 x4) (kTrV x2 x3 x4) (rotAV x0) (rotBV x1) (crossAV x0 x2 x3) (crossBV x1 x2 x3)
def momentBV : FVec F S5000 .f32 :=
  k0_pay35 (kBendV x2 x3 x4) (kSwV x2 x3 x4) (rotAV x0) (rotBV x1) (crossAV x0 x2 x3) (crossBV x1 x2 x3)
/-- The first global component of the second node's force. -/
def forceB0V : FVec F S5000 .f32 :=
  k0_pay37 (cosV x2 x3) (sinV x2 x3) (kSwV x2 x3 x4) (kTrV x2 x3 x4) (rotAV x0) (rotBV x1) (crossAV x0 x2 x3) (crossBV x1 x2 x3)
    (axialBV x0 x1 x2 x3 x4)

/-- The block of forces on the edges' first nodes. -/
def blockA : Vec F S5000x3 .f32 :=
  k0_pay36 (cosV x2 x3) (sinV x2 x3) (kBendV x2 x3 x4) (kSwV x2 x3 x4) (rotAV x0) (rotBV x1) (crossAV x0 x2 x3) (crossBV x1 x2 x3)
    (axialAV x0 x1 x2 x3 x4) (shearTV x0 x1 x2 x3 x4) (k0_pay33 (F := F))
/-- The block of forces on the edges' second nodes. -/
def blockB : Vec F S5000x3 .f32 :=
  k0_pay1 (cosV x2 x3) (sinV x2 x3) (axialBV x0 x1 x2 x3 x4) (shearBV x0 x1 x2 x3 x4) (momentBV x0 x1 x2 x3 x4)
    (forceB0V x0 x1 x2 x3 x4)
/-- The block of the two reported stiffnesses. -/
def blockK : Vec F S5000x2 .f32 := k0_pay2 (kAxV x2 x3 x4) (kBendV x2 x3 x4)

end Steps

/-! ## The body's triple -/

set_option maxHeartbeats 4000000 in
/-- The body on whole staging buffers, the five inputs at given contents and the three outputs at anything, runs to
    its end leaving the inputs as they were and the outputs at `blockA`, `blockB`, `blockK` of the inputs: each
    output is stored once, whole; what is stored is the named steps above. -/
theorem sound_kernel (c : Dev nD) (E : Set ℕ) (i : grid0.Coords) (arg1 : Memref sig .tc .vmem S5000x3 .f32) (harg1 : arg1.IsWhole) (arg2 : Memref sig .tc .vmem S5000x3 .f32) (harg2 : arg2.IsWhole) (arg3 : Memref sig .tc .vmem S5000x3 .f32) (harg3 : arg3.IsWhole) (arg4 : Memref sig .tc .vmem S5000x3 .f32) (harg4 : arg4.IsWhole) (arg5 : Memref sig .tc .vmem S5000x3 .f32) (harg5 : arg5.IsWhole) (arg6 : Memref sig .tc .vmem S5000x3 .f32) (harg6 : arg6.IsWhole) (arg7 : Memref sig .tc .vmem S5000x3 .f32) (harg7 : arg7.IsWhole) (arg8 : Memref sig .tc .vmem S5000x2 .f32) (harg8 : arg8.IsWhole)
    (x0 x1 x2 x3 x4 : Vec F S5000x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockA x0 x1 x2 x3 x4) ∗ owns (c : Thread nD τ) arg7 fullShare (blockB x0 x1 x2 x3 x4)
            ∗ owns (c : Thread nD τ) arg8 fullShare (blockK x2 x3 x4)) -∗ K ⟨⟩))
      ⊢ wp frame (wpE (defs₀ (F := F)) Variants.none c none) E (cc0__edge_force_kernel i arg1 harg1 arg2 harg2 arg3 harg3 arg4 harg4 arg5 harg5 arg6 harg6 arg7 harg7 arg8 harg8) K := by
  simp only [cc0__edge_force_kernel_eq_skeleton]; unfold cc0__edge_force_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton.mpr rfl, View.mem_set_unit_zero hz inb_S5000x3_S5000x3_0_0 y⟩),
      View.canon_unit_zero hz]
    sl_unfold_run_names
    simp only [View.readAt_eq_ld, View.ld_unit_zero (S := S5000x3) hz]
    rfl
  isplitl [H6]
  · iexists _; isplitr
    swap; · iexact H6
    ipureintro
    rw [View.read_writes_eq_canon _ _ _ (fun y => ⟨_, List.mem_singleton.mpr rfl, View.mem_set_unit_zero hz inb_S5000x3_S5000x3_0_0 y⟩),
      View.canon_unit_zero hz]
    sl_unfold_run_names
    simp only [View.readAt_eq_ld, View.ld_unit_zero (S := S5000x3) hz]
    rfl
  iexists _; isplitr
  swap; · iexact H7
  ipureintro
  rw [View.read_writes_eq_canon _ _ _ (fun y => ⟨_, List.mem_singleton.mpr rfl, View.mem_set_unit_zero hz inb_S5000x2_S5000x2_0_0 y⟩),
    View.canon_unit_zero hz]
  sl_unfold_run_names
  simp only [View.readAt_eq_ld, View.ld_unit_zero (S := S5000x3) hz]
  rfl

end Cert.KernelIdeal.Edge

end
-- ==== Proof.EdgeRunIdeal.lean ====
import proofs.«101908_j42734924595228_2_alg».proof.Proof.Gen.KernelIdeal.Launch
import proofs.«101908_j42734924595228_2_alg».proof.Proof.Gen.KernelIdeal.Skeleton
import proofs.«101908_j42734924595228_2_alg».proof.Proof.Gen.KernelIdeal.Points
import proofs.«101908_j42734924595228_2_alg».proof.Proof.EdgeHostIdeal
import proofs.«101908_j42734924595228_2_alg».proof.Proof.EdgeBodyIdeal
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the region reads

Window `w`'s block at grid point `t` is rows 5000·t … 5000·t + 4999 of its array, as the region finds the array. -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is fetched at every point and the body leaves it in place: its staging buffer holds its block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 is fetched at every point and the body leaves it in place: its staging buffer holds its block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 is fetched at every point and the body leaves it in place: its staging buffer holds its block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 is fetched at every point and the body leaves it in place: its staging buffer holds its block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 is fetched at every point and the body leaves it in place: its staging buffer holds its block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data of the one pipeline -/

/-- On core `c`: the arrays as the region finds them; after the body at point `t` each input's buffer still at its
    block and the three outputs' at the forces and stiffnesses of the point's five input blocks; nothing of the
    kernel's own is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockA (iblk m c 0 t) (iblk m c 1 t) (iblk m c 2 t) (iblk m c 3 t) (iblk m c 4 t)
    | ⟨6, _⟩ => blockB (iblk m c 0 t) (iblk m c 1 t) (iblk m c 2 t) (iblk m c 3 t) (iblk m c 4 t)
    | ⟨7, _⟩ => blockK (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_outA (c : Dev nD) (t : Fin cfg0.N) : (dats m 0 c).after 5 t
    = blockA (iblk m c 0 t) (iblk m c 1 t) (iblk m c 2 t) (iblk m c 3 t) (iblk m c 4 t) := by dsimp only [dats]
theorem after_outB (c : Dev nD) (t : Fin cfg0.N) : (dats m 0 c).after 6 t
    = blockB (iblk m c 0 t) (iblk m c 1 t) (iblk m c 2 t) (iblk m c 3 t) (iblk m c 4 t) := by dsimp only [dats]
theorem after_outK (c : Dev nD) (t : Fin cfg0.N) : (dats m 0 c).after 7 t
    = blockK (iblk m c 2 t) (iblk m c 3 t) (iblk m c 4 t) := by dsimp only [dats]

theorem before_in0 (c : Dev nD) (t : Fin cfg0.N) (d) : (dats m 0 c).before 0 t d = iblk m c 0 t :=
  before0_of m (dats m 0 c) (A_eq m c 0) (after_in0 m c) t d
theorem before_in1 (c : Dev nD) (t : Fin cfg0.N) (d) : (dats m 0 c).before 1 t d = iblk m c 1 t :=
  before1_of m (dats m 0 c) (A_eq m c 1) (after_in1 m c) t d
theorem before_in2 (c : Dev nD) (t : Fin cfg0.N) (d) : (dats m 0 c).before 2 t d = iblk m c 2 t :=
  before2_of m (dats m 0 c) (A_eq m c 2) (after_in2 m c) t d
theorem before_in3 (c : Dev nD) (t : Fin cfg0.N) (d) : (dats m 0 c).before 3 t d = iblk m c 3 t :=
  before3_of m (dats m 0 c) (A_eq m c 3) (after_in3 m c) t d
theorem before_in4 (c : Dev nD) (t : Fin cfg0.N) (d) : (dats m 0 c).before 4 t d = iblk m c 4 t :=
  before4_of m (dats m 0 c) (A_eq m c 4) (after_in4 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_outA, after_outB, after_outK]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- From any memory with zero counters every weakly fair execution of the program ends, with each of the region's
    arrays at what the points wrote back and every other lasting buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := hmain m Variants.none) (hA := A_eq m) (hΦ := fun _ _ => rfl)

/-- The argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_arg0 m (dats m) c),
    ((h c).2 main_arg1 (Pipeline.mem_restRefs_of main_arg1 (by decide) (by decide))).trans (W_arg1 m (dats m) c),
    ((h c).2 main_arg2 (Pipeline.mem_restRefs_of main_arg2 (by decide) (by decide))).trans (W_arg2 m (dats m) c),
    ((h c).2 main_arg3 (Pipeline.mem_restRefs_of main_arg3 (by decide) (by decide))).trans (W_arg3 m (dats m) c),
    ((h c).2 main_arg4 (Pipeline.mem_restRefs_of main_arg4 (by decide) (by decide))).trans (W_arg4 m (dats m) c),
    ((h c).2 main_arg5 (Pipeline.mem_restRefs_of main_arg5 (by decide) (by decide))).trans (W_arg5 m (dats m) c),
    ((h c).2 main_arg6 (Pipeline.mem_restRefs_of main_arg6 (by decide) (by decide))).trans (W_arg6 m (dats m) c),
    ((h c).2 main_arg7 (Pipeline.mem_restRefs_of main_arg7 (by decide) (by decide))).trans (W_arg7 m (dats m) c),
    ((h c).2 main_arg8 (Pipeline.mem_restRefs_of main_arg8 (by decide) (by decide))).trans (W_arg8 m (dats m) c)⟩) (run_main m ρ)

end Cert.KernelIdeal.Edge

end
-- ==== Proof.EdgeSpec.lean ====
/-
  One edge of a plane frame of beams: the end forces of a two-node beam element from its end displacements.

  An edge joins node A to node B. Its length is l = sqrt(dx² + dz² + ε) with (dx, dz) the difference of the end
  coordinates, and (c, s) = (dx, dz) / (l + ε) its direction. With E, A, I the edge's modulus, area and second moment,
  the stiffnesses are k_ax = EA / (l + ε), k_bend = EI / (l + ε), k_sw = EI / (l² + ε), k_tr = EI / (l³ + ε).
  Each end has a displacement (ux, uz) and a rotation θ = −(third component). In the edge's own frame the
  displacements are u = c·ux + s·uz along it and w = −s·ux + c·uz across it. The six local end forces f0 … f5 are
  the usual linear combinations of these with the stiffnesses, and the forces on the two nodes are the local
  forces turned back into the global frame: (c·f0 − s·f1, s·f0 + c·f1, f2) on A and (c·f3 − s·f4, s·f3 + c·f4, f5)
  on B. Everything is read on the extended reals, every operation the exact one; the float literals are kept as
  their words.
-/
import Idealize.ShloMosaic.PureOps.Ideal
import Idealize.ShloMosaic.PureOps.Ideal.Laws

noncomputable section

namespace Cert.BeamEdge

open Idealize.ShloMosaic

/-- The small constant added under the root and to every divisor. -/
def eps : EReal := Ideal.ofBits .f32 0x2EDBE6FF#32
def two : EReal := Ideal.ofBits .f32 0x40000000#32
def four : EReal := Ideal.ofBits .f32 0x40800000#32
def six : EReal := Ideal.ofBits .f32 0x40C00000#32
def twelve : EReal := Ideal.ofBits .f32 0x41400000#32

/-- What one edge is given: the displacement rows of its two end nodes, the x and z coordinates of the two
    ends, and its three material properties. -/
structure Edge where
  ua0 : EReal
  ua1 : EReal
  ua2 : EReal
  ub0 : EReal
  ub1 : EReal
  ub2 : EReal
  ax : EReal
  az : EReal
  bx : EReal
  bz : EReal
  E : EReal
  A : EReal
  I : EReal

namespace Edge

/-- The edge's length. -/
def l (d : Edge) : EReal :=
  Ideal.sqrt ((d.bx - d.ax) * (d.bx - d.ax) + (d.bz - d.az) * (d.bz - d.az) + eps)
/-- Its direction cosine. -/
def c (d : Edge) : EReal := Ideal.div (d.bx - d.ax) (d.l + eps)
/-- Its direction sine. -/
def s (d : Edge) : EReal := Ideal.div (d.bz - d.az) (d.l + eps)
/-- The axial stiffness EA / l. -/
def kAx (d : Edge) : EReal := Ideal.div (d.E * d.A) (d.l + eps)
/-- The bending stiffness EI / l. -/
def kBend (d : Edge) : EReal := Ideal.div (d.E * d.I) (d.l + eps)
/-- EI / l². -/
def kSw (d : Edge) : EReal := Ideal.div (d.E * d.I) (d.l * d.l + eps)
/-- EI / l³. -/
def kTr (d : Edge) : EReal := Ideal.div (d.E * d.I) (d.l * d.l * d.l + eps)
/-- The end rotations. -/
def ta (d : Edge) : EReal := -d.ua2
def tb (d : Edge) : EReal := -d.ub2
/-- The end displacements along and across the edge. -/
def ua (d : Edge) : EReal := d.c * d.ua0 + d.s * d.ua1
def wa (d : Edge) : EReal := -d.s * d.ua0 + d.c * d.ua1
def ub (d : Edge) : EReal := d.c * d.ub0 + d.s * d.ub1
def wb (d : Edge) : EReal := -d.s * d.ub0 + d.c * d.ub1
/-- The six local end forces. -/
def f0 (d : Edge) : EReal := d.kAx * (d.ua - d.ub)
def f3 (d : Edge) : EReal := d.kAx * (d.ub - d.ua)
def f1 (d : Edge) : EReal := twelve * d.kTr * (d.wa - d.wb) + six * d.kSw * (d.ta + d.tb)
def f4 (d : Edge) : EReal := twelve * d.kTr * (d.wb - d.wa) - six * d.kSw * (d.ta + d.tb)
def f2 (d : Edge) : EReal := six * d.kSw * (d.wa - d.wb) + d.kBend * (four * d.ta + two * d.tb)
def f5 (d : Edge) : EReal := six * d.kSw * (d.wa - d.wb) + d.kBend * (two * d.ta + four * d.tb)

/-- The force on node A, component by component. -/
def forceA (d : Edge) : Fin 3 → EReal
  | 0 => d.c * d.f0 - d.s * d.f1
  | 1 => d.s * d.f0 + d.c * d.f1
  | 2 => d.f2
/-- The force on node B. -/
def forceB (d : Edge) : Fin 3 → EReal
  | 0 => d.c * d.f3 - d.s * d.f4
  | 1 => d.s * d.f3 + d.c * d.f4
  | 2 => d.f5
/-- The two stiffnesses whose ranges are reported. -/
def stiff (d : Edge) : Fin 2 → EReal
  | 0 => d.kAx
  | 1 => d.kBend

end Edge

/-- Zero less x is the negative of x, on every extended real. -/
theorem zero_word_sub (x : EReal) : (Ideal.ofBits .f32 0x00000000#32 : EReal) - x = -x := by
  rw [Ideal.ofBits_zero_f32, zero_sub]

end Cert.BeamEdge

end
-- ==== Proof.LibColumns.lean ====
/-
  Columns of a two-axis array: laid side by side, and taken out again.

  Stacking k vectors of length a along a new last axis is, in the lowered programs, each vector kept as a column
  [a, 1] and the columns joined along axis 1 into [a, k]: entry (p, j) of the joined array is entry p of column j.
  Taking column j of an [a, c] array is a unit-stride slice [a, 1] at column offset j with the unit axis dropped:
  entry p of the result is entry (p, j) of the array. Here: the join of two and of three columns read at an entry,
  and a column taken out read at an entry.
-/
import Idealize.ShloMosaic.Lib.Pipeline.Value
import Idealize.ShloMosaic.Lib.ValueIdx

noncomputable section

namespace Cert.Columns

open Idealize.ShloMosaic Idealize.ShloMosaic.ValueIdx

variable {α : Type}

/-- Off the joining axis a column's index follows the joined array's index. -/
private theorem off_axis {a k : ℕ} (p : Fin a) (j : Fin k) :
    ∀ b : Fin (⟨2, ![a, 1]⟩ : Shape).rank, b.cast (rfl : (2 : ℕ) = 2) ≠ (1 : Fin 2) →
      ((ix2 p (0 : Fin 1) : (⟨2, ![a, 1]⟩ : Shape).Idx) b).val
        = ((ix2 p j : (⟨2, ![a, k]⟩ : Shape).Idx) (b.cast (rfl : (2 : ℕ) = 2))).val := fun b hb => by
  match b with
  | ⟨0, _⟩ => rfl
  | ⟨1, _⟩ => exact absurd rfl hb

/-- Three columns joined: entry (p, 0) is the first column's entry p. -/
theorem join3_apply0 {a : ℕ} (u0 u1 u2 : (⟨2, ![a, 1]⟩ : Shape).Idx → α)
    (h : Shape.Concatenates [⟨2, ![a, 1]⟩, ⟨2, ![a, 1]⟩, ⟨2, ![a, 1]⟩] ⟨2, ![a, 3]⟩ 1) (p : Fin a) :
    concatenate ⟨2, ![a, 3]⟩ 1 [⟨⟨2, ![a, 1]⟩, u0⟩, ⟨⟨2, ![a, 1]⟩, u1⟩, ⟨⟨2, ![a, 1]⟩, u2⟩] h (ix2 p (0 : Fin 3))
      = u0 (ix2 p (0 : Fin 1)) :=
  concatenate_apply_piece 1 [⟨⟨2, ![a, 1]⟩, u0⟩, ⟨⟨2, ![a, 1]⟩, u1⟩, ⟨⟨2, ![a, 1]⟩, u2⟩] h (ix2 p (0 : Fin 3)) 0 (by simp) _ u0 rfl rfl 0 rfl (ix2 p (0 : Fin 1))
    (off_axis p (0 : Fin 3)) rfl

/-- Three columns joined: entry (p, 1) is the second column's entry p. -/
theorem join3_apply1 {a : ℕ} (u0 u1 u2 : (⟨2, ![a, 1]⟩ : Shape).Idx → α)
    (h : Shape.Concatenates [⟨2, ![a, 1]⟩, ⟨2, ![a, 1]⟩, ⟨2, ![a, 1]⟩] ⟨2, ![a, 3]⟩ 1) (p : Fin a) :
    concatenate ⟨2, ![a, 3]⟩ 1 [⟨⟨2, ![a, 1]⟩, u0⟩, ⟨⟨2, ![a, 1]⟩, u1⟩, ⟨⟨2, ![a, 1]⟩, u2⟩] h (ix2 p (1 : Fin 3))
      = u1 (ix2 p (0 : Fin 1)) :=
  concatenate_apply_piece 1 [⟨⟨2, ![a, 1]⟩, u0⟩, ⟨⟨2, ![a, 1]⟩, u1⟩, ⟨⟨2, ![a, 1]⟩, u2⟩] h (ix2 p (1 : Fin 3)) 1 (by simp) _ u1 rfl rfl 1 rfl (ix2 p (0 : Fin 1))
    (off_axis p (1 : Fin 3)) rfl

/-- Three columns joined: entry (p, 2) is the third column's entry p. -/
theorem join3_apply2 {a : ℕ} (u0 u1 u2 : (⟨2, ![a, 1]⟩ : Shape).Idx → α)
    (h : Shape.Concatenates [⟨2, ![a, 1]⟩, ⟨2, ![a, 1]⟩, ⟨2, ![a, 1]⟩] ⟨2, ![a, 3]⟩ 1) (p : Fin a) :
    concatenate ⟨2, ![a, 3]⟩ 1 [⟨⟨2, ![a, 1]⟩, u0⟩, ⟨⟨2, ![a, 1]⟩, u1⟩, ⟨⟨2, ![a, 1]⟩, u2⟩] h (ix2 p (2 : Fin 3))
      = u2 (ix2 p (0 : Fin 1)) :=
  concatenate_apply_piece 1 [⟨⟨2, ![a, 1]⟩, u0⟩, ⟨⟨2, ![a, 1]⟩, u1⟩, ⟨⟨2, ![a, 1]⟩, u2⟩] h (ix2 p (2 : Fin 3)) 2 (by simp) _ u2 rfl rfl 2 rfl (ix2 p (0 : Fin 1))
    (off_axis p (2 : Fin 3)) rfl

/-- Two columns joined: entry (p, 0) is the first column's entry p. -/
theorem join2_apply0 {a : ℕ} (u0 u1 : (⟨2, ![a, 1]⟩ : Shape).Idx → α)
    (h : Shape.Concatenates [⟨2, ![a, 1]⟩, ⟨2, ![a, 1]⟩] ⟨2, ![a, 2]⟩ 1) (p : Fin a) :
    concatenate ⟨2, ![a, 2]⟩ 1 [⟨⟨2, ![a, 1]⟩, u0⟩, ⟨⟨2, ![a, 1]⟩, u1⟩] h (ix2 p (0 : Fin 2))
      = u0 (ix2 p (0 : Fin 1)) :=
  concatenate_apply_piece 1 [⟨⟨2, ![a, 1]⟩, u0⟩, ⟨⟨2, ![a, 1]⟩, u1⟩] h (ix2 p (0 : Fin 2)) 0 (by simp) _ u0 rfl rfl 0 rfl (ix2 p (0 : Fin 1))
    (off_axis p (0 : Fin 2)) rfl

/-- Two columns joined: entry (p, 1) is the second column's entry p. -/
theorem join2_apply1 {a : ℕ} (u0 u1 : (⟨2, ![a, 1]⟩ : Shape).Idx → α)
    (h : Shape.Concatenates [⟨2, ![a, 1]⟩, ⟨2, ![a, 1]⟩] ⟨2, ![a, 2]⟩ 1) (p : Fin a) :
    concatenate ⟨2, ![a, 2]⟩ 1 [⟨⟨2, ![a, 1]⟩, u0⟩, ⟨⟨2, ![a, 1]⟩, u1⟩] h (ix2 p (1 : Fin 2))
      = u1 (ix2 p (0 : Fin 1)) :=
  concatenate_apply_piece 1 [⟨⟨2, ![a, 1]⟩, u0⟩, ⟨⟨2, ![a, 1]⟩, u1⟩] h (ix2 p (1 : Fin 2)) 1 (by simp) _ u1 rfl rfl 1 rfl (ix2 p (0 : Fin 1))
    (off_axis p (1 : Fin 2)) rfl

/-- Column j of an [a, c] array, taken as a slice [a, 1] and flattened to [a]: entry p is the array's entry (p, j). -/
theorem column_apply {a c : ℕ} (x : (⟨2, ![a, c]⟩ : Shape).Idx → α) (j : ℕ) (hj : j < c)
    (hs : (⟨2, ![a, c]⟩ : Shape).Slices ![0, j] ⟨2, ![a, 1]⟩)
    (hc : (⟨2, ![a, 1]⟩ : Shape).ShapeCasts ⟨1, ![a]⟩) (p : Fin a) :
    shapeCast ⟨1, ![a]⟩ (extractStridedSlice ⟨2, ![a, 1]⟩ ![0, j] x hs) hc (ix1 p) = x (ix2 p ⟨j, hj⟩) := by
  refine (shapeCast_apply _ hc (ix1 p) (ix2 p (0 : Fin 1)) ?_).trans ?_
  · rw [Shape.rowMajor_val_one, Shape.rowMajor_val_two]
    show p.val * 1 + 0 = p.val
    omega
  · refine extractStridedSlice_apply _ x hs _ (ix2 p ⟨j, hj⟩) fun b => ?_
    match b with
    | ⟨0, _⟩ => show p.val = 0 + p.val; omega
    | ⟨1, _⟩ => show j = j + 0; omega

/-- The same for the whole column at once: column j of x, as a vector, is p ↦ x (p, j). -/
theorem column_eq {a c : ℕ} (x : (⟨2, ![a, c]⟩ : Shape).Idx → α) (j : ℕ) (hj : j < c)
    (hs : (⟨2, ![a, c]⟩ : Shape).Slices ![0, j] ⟨2, ![a, 1]⟩)
    (hc : (⟨2, ![a, 1]⟩ : Shape).ShapeCasts ⟨1, ![a]⟩) :
    shapeCast ⟨1, ![a]⟩ (extractStridedSlice ⟨2, ![a, 1]⟩ ![0, j] x hs) hc = fun i => x (ix2 (i 0) ⟨j, hj⟩) := by
  funext i
  rw [eq_ix1 i]
  exact column_apply x j hj hs hc (i 0)

end Cert.Columns

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.EdgeBlockValue.lean ====
/-
  One grid point's three output blocks, entry by entry.

  Row r of the five input blocks holds one edge: its end nodes' displacement rows, the ends' coordinate rows and its
  property triple. Each step the body takes is pointwise along the 5000 edges of the block, after the columns of the
  input blocks are taken out as vectors; so entry r of each step's vector is that step of the edge in row r, and entry
  (r, j) of an output block — three, resp. two, vectors laid side by side as columns — is component j of the edge's
  node force, resp. of its stiffness pair. The body writes the negative of x as 0 − x; on the extended reals the two
  are one number.
-/
import proofs.«101908_j42734924595228_2_alg».proof.Proof.EdgeBodyIdeal
import proofs.«101908_j42734924595228_2_alg».proof.Proof.EdgeSpec
import proofs.«101908_j42734924595228_2_alg».proof.Proof.LibColumns
import proofs.«101908_j42734924595228_2_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.EdgeValue

open Cert.KernelIdeal Cert.KernelIdeal.Gen Cert.KernelIdeal.Edge Cert.BeamEdge
open Idealize.ShloMosaic Idealize.ShloMosaic.ValueIdx

/-- The edge whose data sit in row e of five arrays of n rows and three columns: the displacement rows of its
    ends, the coordinate rows of its ends (x in column 0, z in column 2), its properties. -/
def rowsEdge {n : ℕ} (pA pB cA cB pr : (⟨2, ![n, 3]⟩ : Shape).Idx → EReal) (e : Fin n) : Edge where
  ua0 := pA (ix2 e (0 : Fin 3))
  ua1 := pA (ix2 e (1 : Fin 3))
  ua2 := pA (ix2 e (2 : Fin 3))
  ub0 := pB (ix2 e (0 : Fin 3))
  ub1 := pB (ix2 e (1 : Fin 3))
  ub2 := pB (ix2 e (2 : Fin 3))
  ax := cA (ix2 e (0 : Fin 3))
  az := cA (ix2 e (2 : Fin 3))
  bx := cB (ix2 e (0 : Fin 3))
  bz := cB (ix2 e (2 : Fin 3))
  E := pr (ix2 e (0 : Fin 3))
  A := pr (ix2 e (1 : Fin 3))
  I := pr (ix2 e (2 : Fin 3))

/-! ## The columns of a block, and the sign -/

theorem col0_eq (x : Vec Ideal S5000x3 .f32) (hs : S5000x3.Slices ![0, 0] S5000x1) (hc : S5000x1.ShapeCasts S5000) :
    shapeCast S5000 (extractStridedSlice S5000x1 ![0, 0] x hs) hc = fun i => x (ix2 (i 0) (0 : Fin 3)) :=
  Cert.Columns.column_eq x 0 (by omega) hs hc
theorem col1_eq (x : Vec Ideal S5000x3 .f32) (hs : S5000x3.Slices ![0, 1] S5000x1) (hc : S5000x1.ShapeCasts S5000) :
    shapeCast S5000 (extractStridedSlice S5000x1 ![0, 1] x hs) hc = fun i => x (ix2 (i 0) (1 : Fin 3)) :=
  Cert.Columns.column_eq x 1 (by omega) hs hc
theorem col2_eq (x : Vec Ideal S5000x3 .f32) (hs : S5000x3.Slices ![0, 2] S5000x1) (hc : S5000x1.ShapeCasts S5000) :
    shapeCast S5000 (extractStridedSlice S5000x1 ![0, 2] x hs) hc = fun i => x (ix2 (i 0) (2 : Fin 3)) :=
  Cert.Columns.column_eq x 2 (by omega) hs hc

/-- Zero less a vector is its negative, entry by entry. -/
theorem zero_sub_vec (v : FVec Ideal S5000 .f32) :
    subf (broadcast S5000 (Scalar.ofBits (F := Ideal) .f32 0x00000000#32)) v = negf v := by
  funext i
  exact zero_word_sub (v i)

section Entry
variable (x0 x1 x2 x3 x4 : Vec Ideal S5000x3 .f32) (r : Fin 5000)

theorem lenV_apply : lenV x2 x3 (ix1 r) = (rowsEdge x0 x1 x2 x3 x4 r).l := by
  unfold lenV k0_pay10 k0_pay8 k0_pay9 k0_pay5 k0_pay6
  try dsimp only
  try simp only [shapeCast_self]
  rw [col0_eq x3, col0_eq x2, col2_eq x3, col2_eq x2]
  try simp only [mulf_apply, addf_apply, subf_apply, divf_apply, negf_apply,
    broadcast_apply]
  rfl

theorem cosV_apply : cosV x2 x3 (ix1 r) = (rowsEdge x0 x1 x2 x3 x4 r).c := by
  unfold cosV k0_pay11 k0_pay10 k0_pay8 k0_pay9 k0_pay5 k0_pay6
  try dsimp only
  try simp only [shapeCast_self]
  rw [col0_eq x3, col0_eq x2, col2_eq x3, col2_eq x2]
  try simp only [mulf_apply, addf_apply, subf_apply, divf_apply, negf_apply,
    broadcast_apply]
  rfl

theorem sinV_apply : sinV x2 x3 (ix1 r) = (rowsEdge x0 x1 x2 x3 x4 r).s := by
  unfold sinV k0_pay12 k0_pay10 k0_pay8 k0_pay9 k0_pay5 k0_pay6
  try dsimp only
  try simp only [shapeCast_self]
  rw [col0_eq x3, col0_eq x2, col2_eq x3, col2_eq x2]
  try simp only [mulf_apply, addf_apply, subf_apply, divf_apply, negf_apply,
    broadcast_apply]
  rfl

theorem eiV_apply : eiV x4 (ix1 r) = (rowsEdge x0 x1 x2 x3 x4 r).E * (rowsEdge x0 x1 x2 x3 x4 r).I := by
  unfold eiV k0_pay14 k0_pay13 k0_pay7
  try dsimp only
  try simp only [shapeCast_self]
  rw [col0_eq x4, col2_eq x4]
  try simp only [mulf_apply, addf_apply, subf_apply, divf_apply, negf_apply,
    broadcast_apply]
  rfl

theorem kAxV_apply : kAxV x2 x3 x4 (ix1 r) = (rowsEdge x0 x1 x2 x3 x4 r).kAx := by
  unfold kAxV k0_pay15 k0_pay13 k0_pay10 k0_pay8 k0_pay9 k0_pay5 k0_pay6 k0_pay7
  try dsimp only
  try simp only [shapeCast_self]
  rw [col0_eq x4, col1_eq x4, col0_eq x3, col0_eq x2, col2_eq x3, col2_eq x2]
  try simp only [mulf_apply, addf_apply, subf_apply, divf_apply, negf_apply,
    broadcast_apply]
  rfl

theorem rotAV_apply : rotAV x0 (ix1 r) = (rowsEdge x0 x1 x2 x3 x4 r).ta := by
  unfold rotAV k0_pay22 k0_pay3
  try dsimp only
  try simp only [shapeCast_self]
  rw [col2_eq x0]
  rw [zero_sub_vec]
  try simp only [mulf_apply, addf_apply, subf_apply, divf_apply, negf_apply,
    broadcast_apply]
  rfl

theorem rotBV_apply : rotBV x1 (ix1 r) = (rowsEdge x0 x1 x2 x3 x4 r).tb := by
  unfold rotBV k0_pay25 k0_pay4
  try dsimp only
  try simp only [shapeCast_self]
  rw [col2_eq x1]
  rw [zero_sub_vec]
  try simp only [mulf_apply, addf_apply, subf_apply, divf_apply, negf_apply,
    broadcast_apply]
  rfl

theorem kBendV_apply : kBendV x2 x3 x4 (ix1 r) = (rowsEdge x0 x1 x2 x3 x4 r).kBend := by
  unfold kBendV k0_pay17 k0_pay16
  try dsimp only
  try simp only [shapeCast_self]
  try simp only [mulf_apply, addf_apply, subf_apply, divf_apply, negf_apply,
    broadcast_apply, lenV_apply x0 x1 x2 x3 x4 r, eiV_apply x0 x1 x2 x3 x4 r]
  rfl

theorem kSwV_apply : kSwV x2 x3 x4 (ix1 r) = (rowsEdge x0 x1 x2 x3 x4 r).kSw := by
  unfold kSwV k0_pay18
  try dsimp only
  try simp only [shapeCast_self]
  try simp only [mulf_apply, addf_apply, subf_apply, divf_apply, negf_apply,
    broadcast_apply, lenV_apply x0 x1 x2 x3 x4 r, eiV_apply x0 x1 x2 x3 x4 r]
  rfl

theorem kTrV_apply : kTrV x2 x3 x4 (ix1 r) = (rowsEdge x0 x1 x2 x3 x4 r).kTr := by
  unfold kTrV k0_pay19
  try dsimp only
  try simp only [shapeCast_self]
  try simp only [mulf_apply, addf_apply, subf_apply, divf_apply, negf_apply,
    broadcast_apply, lenV_apply x0 x1 x2 x3 x4 r, eiV_apply x0 x1 x2 x3 x4 r]
  rfl

theorem crossAV_apply : crossAV x0 x2 x3 (ix1 r) = (rowsEdge x0 x1 x2 x3 x4 r).wa := by
  unfold crossAV k0_pay27 k0_pay20 k0_pay21 k0_pay3
  try dsimp only
  try simp only [shapeCast_self]
  rw [col0_eq x0, col1_eq x0]
  rw [zero_sub_vec]
  try simp only [mulf_apply, addf_apply, subf_apply, divf_apply, negf_apply,
    broadcast_apply, cosV_apply x0 x1 x2 x3 x4 r, sinV_apply x0 x1 x2 x3 x4 r]
  rfl

theorem crossBV_apply : crossBV x1 x2 x3 (ix1 r) = (rowsEdge x0 x1 x2 x3 x4 r).wb := by
  unfold crossBV k0_pay29 k0_pay23 k0_pay24 k0_pay4
  try dsimp only
  try simp only [shapeCast_self]
  rw [col0_eq x1, col1_eq x1]
  rw [zero_sub_vec]
  try simp only [mulf_apply, addf_apply, subf_apply, divf_apply, negf_apply,
    broadcast_apply, cosV_apply x0 x1 x2 x3 x4 r, sinV_apply x0 x1 x2 x3 x4 r]
  rfl

theorem axialAV_apply : axialAV x0 x1 x2 x3 x4 (ix1 r) = (rowsEdge x0 x1 x2 x3 x4 r).f0 := by
  unfold axialAV k0_pay30 k0_pay26 k0_pay28 k0_pay20 k0_pay21 k0_pay23 k0_pay24 k0_pay3 k0_pay4
  try dsimp only
  try simp only [shapeCast_self]
  rw [col0_eq x0, col1_eq x0, col0_eq x1, col1_eq x1]
  try simp only [mulf_apply, addf_apply, subf_apply, divf_apply, negf_apply,
    broadcast_apply, cosV_apply x0 x1 x2 x3 x4 r, sinV_apply x0 x1 x2 x3 x4 r, kAxV_apply x0 x1 x2 x3 x4 r]
  rfl

theorem axialBV_apply : axialBV x0 x1 x2 x3 x4 (ix1 r) = (rowsEdge x0 x1 x2 x3 x4 r).f3 := by
  unfold axialBV k0_pay31 k0_pay26 k0_pay28 k0_pay20 k0_pay21 k0_pay23 k0_pay24 k0_pay3 k0_pay4
  try dsimp only
  try simp only [shapeCast_self]
  rw [col0_eq x0, col1_eq x0, col0_eq x1, col1_eq x1]
  try simp only [mulf_apply, addf_apply, subf_apply, divf_apply, negf_apply,
    broadcast_apply, cosV_apply x0 x1 x2 x3 x4 r, sinV_apply x0 x1 x2 x3 x4 r, kAxV_apply x0 x1 x2 x3 x4 r]
  rfl

theorem shearTV_apply : shearTV x0 x1 x2 x3 x4 (ix1 r) = twelve * (rowsEdge x0 x1 x2 x3 x4 r).kTr * ((rowsEdge x0 x1 x2 x3 x4 r).wa - (rowsEdge x0 x1 x2 x3 x4 r).wb) := by
  unfold shearTV k0_pay32 k0_pay19 k0_pay27 k0_pay29 k0_pay20 k0_pay21 k0_pay23 k0_pay24 k0_pay3 k0_pay4
  try dsimp only
  try simp only [shapeCast_self]
  rw [col0_eq x0, col1_eq x0, col0_eq x1, col1_eq x1]
  rw [zero_sub_vec]
  try simp only [mulf_apply, addf_apply, subf_apply, divf_apply, negf_apply,
    broadcast_apply, lenV_apply x0 x1 x2 x3 x4 r, cosV_apply x0 x1 x2 x3 x4 r, sinV_apply x0 x1 x2 x3 x4 r, eiV_apply x0 x1 x2 x3 x4 r]
  rfl

theorem shearBV_apply : shearBV x0 x1 x2 x3 x4 (ix1 r) = (rowsEdge x0 x1 x2 x3 x4 r).f4 := by
  unfold shearBV k0_pay34
  try dsimp only
  try simp only [shapeCast_self]
  try simp only [mulf_apply, addf_apply, subf_apply, divf_apply, negf_apply,
    broadcast_apply, kSwV_apply x0 x1 x2 x3 x4 r, kTrV_apply x0 x1 x2 x3 x4 r, rotAV_apply x0 x1 x2 x3 x4 r, rotBV_apply x0 x1 x2 x3 x4 r, crossAV_apply x0 x1 x2 x3 x4 r, crossBV_apply x0 x1 x2 x3 x4 r]
  rfl

theorem momentBV_apply : momentBV x0 x1 x2 x3 x4 (ix1 r) = (rowsEdge x0 x1 x2 x3 x4 r).f5 := by
  unfold momentBV k0_pay35
  try dsimp only
  try simp only [shapeCast_self]
  try simp only [mulf_apply, addf_apply, subf_apply, divf_apply, negf_apply,
    broadcast_apply, kBendV_apply x0 x1 x2 x3 x4 r, kSwV_apply x0 x1 x2 x3 x4 r, rotAV_apply x0 x1 x2 x3 x4 r, rotBV_apply x0 x1 x2 x3 x4 r, crossAV_apply x0 x1 x2 x3 x4 r, crossBV_apply x0 x1 x2 x3 x4 r]
  rfl

theorem forceB0V_apply : forceB0V x0 x1 x2 x3 x4 (ix1 r) = (rowsEdge x0 x1 x2 x3 x4 r).forceB 0 := by
  unfold forceB0V k0_pay37 k0_pay34
  try dsimp only
  try simp only [shapeCast_self]
  try simp only [mulf_apply, addf_apply, subf_apply, divf_apply, negf_apply,
    broadcast_apply, cosV_apply x0 x1 x2 x3 x4 r, sinV_apply x0 x1 x2 x3 x4 r, kSwV_apply x0 x1 x2 x3 x4 r, kTrV_apply x0 x1 x2 x3 x4 r, rotAV_apply x0 x1 x2 x3 x4 r, rotBV_apply x0 x1 x2 x3 x4 r, crossAV_apply x0 x1 x2 x3 x4 r, crossBV_apply x0 x1 x2 x3 x4 r, axialBV_apply x0 x1 x2 x3 x4 r]
  rfl

theorem blockA_apply0 : blockA x0 x1 x2 x3 x4 (ix2 r (0 : Fin 3)) = (rowsEdge x0 x1 x2 x3 x4 r).forceA 0 := by
  unfold blockA k0_pay36 k0_pay33
  try dsimp only
  rw [Cert.Columns.join3_apply0, Cert.Keepdims.column_cast_apply]
  simp only [mulf_apply, addf_apply, subf_apply, divf_apply, negf_apply,
    broadcast_apply, cosV_apply x0 x1 x2 x3 x4 r, sinV_apply x0 x1 x2 x3 x4 r, kBendV_apply x0 x1 x2 x3 x4 r, kSwV_apply x0 x1 x2 x3 x4 r, rotAV_apply x0 x1 x2 x3 x4 r, rotBV_apply x0 x1 x2 x3 x4 r, crossAV_apply x0 x1 x2 x3 x4 r, crossBV_apply x0 x1 x2 x3 x4 r, axialAV_apply x0 x1 x2 x3 x4 r, shearTV_apply x0 x1 x2 x3 x4 r]
  rfl

theorem blockA_apply1 : blockA x0 x1 x2 x3 x4 (ix2 r (1 : Fin 3)) = (rowsEdge x0 x1 x2 x3 x4 r).forceA 1 := by
  unfold blockA k0_pay36 k0_pay33
  try dsimp only
  rw [Cert.Columns.join3_apply1, Cert.Keepdims.column_cast_apply]
  simp only [mulf_apply, addf_apply, subf_apply, divf_apply, negf_apply,
    broadcast_apply, cosV_apply x0 x1 x2 x3 x4 r, sinV_apply x0 x1 x2 x3 x4 r, kBendV_apply x0 x1 x2 x3 x4 r, kSwV_apply x0 x1 x2 x3 x4 r, rotAV_apply x0 x1 x2 x3 x4 r, rotBV_apply x0 x1 x2 x3 x4 r, crossAV_apply x0 x1 x2 x3 x4 r, crossBV_apply x0 x1 x2 x3 x4 r, axialAV_apply x0 x1 x2 x3 x4 r, shearTV_apply x0 x1 x2 x3 x4 r]
  rfl

theorem blockA_apply2 : blockA x0 x1 x2 x3 x4 (ix2 r (2 : Fin 3)) = (rowsEdge x0 x1 x2 x3 x4 r).forceA 2 := by
  unfold blockA k0_pay36 k0_pay33
  try dsimp only
  rw [Cert.Columns.join3_apply2, Cert.Keepdims.column_cast_apply]
  simp only [mulf_apply, addf_apply, subf_apply, divf_apply, negf_apply,
    broadcast_apply, cosV_apply x0 x1 x2 x3 x4 r, sinV_apply x0 x1 x2 x3 x4 r, kBendV_apply x0 x1 x2 x3 x4 r, kSwV_apply x0 x1 x2 x3 x4 r, rotAV_apply x0 x1 x2 x3 x4 r, rotBV_apply x0 x1 x2 x3 x4 r, crossAV_apply x0 x1 x2 x3 x4 r, crossBV_apply x0 x1 x2 x3 x4 r, axialAV_apply x0 x1 x2 x3 x4 r, shearTV_apply x0 x1 x2 x3 x4 r]
  rfl

theorem blockB_apply0 : blockB x0 x1 x2 x3 x4 (ix2 r (0 : Fin 3)) = (rowsEdge x0 x1 x2 x3 x4 r).forceB 0 := by
  unfold blockB k0_pay1
  try dsimp only
  rw [Cert.Columns.join3_apply0, Cert.Keepdims.column_cast_apply]
  simp only [mulf_apply, addf_apply, subf_apply, divf_apply, negf_apply,
    broadcast_apply, cosV_apply x0 x1 x2 x3 x4 r, sinV_apply x0 x1 x2 x3 x4 r, axialBV_apply x0 x1 x2 x3 x4 r, shearBV_apply x0 x1 x2 x3 x4 r, momentBV_apply x0 x1 x2 x3 x4 r, forceB0V_apply x0 x1 x2 x3 x4 r]
  try rfl

theorem blockB_apply1 : blockB x0 x1 x2 x3 x4 (ix2 r (1 : Fin 3)) = (rowsEdge x0 x1 x2 x3 x4 r).forceB 1 := by
  unfold blockB k0_pay1
  try dsimp only
  rw [Cert.Columns.join3_apply1, Cert.Keepdims.column_cast_apply]
  simp only [mulf_apply, addf_apply, subf_apply, divf_apply, negf_apply,
    broadcast_apply, cosV_apply x0 x1 x2 x3 x4 r, sinV_apply x0 x1 x2 x3 x4 r, axialBV_apply x0 x1 x2 x3 x4 r, shearBV_apply x0 x1 x2 x3 x4 r, momentBV_apply x0 x1 x2 x3 x4 r, forceB0V_apply x0 x1 x2 x3 x4 r]
  try rfl

theorem blockB_apply2 : blockB x0 x1 x2 x3 x4 (ix2 r (2 : Fin 3)) = (rowsEdge x0 x1 x2 x3 x4 r).forceB 2 := by
  unfold blockB k0_pay1
  try dsimp only
  rw [Cert.Columns.join3_apply2, Cert.Keepdims.column_cast_apply]
  simp only [mulf_apply, addf_apply, subf_apply, divf_apply, negf_apply,
    broadcast_apply, cosV_apply x0 x1 x2 x3 x4 r, sinV_apply x0 x1 x2 x3 x4 r, axialBV_apply x0 x1 x2 x3 x4 r, shearBV_apply x0 x1 x2 x3 x4 r, momentBV_apply x0 x1 x2 x3 x4 r, forceB0V_apply x0 x1 x2 x3 x4 r]
  try rfl

theorem blockK_apply0 : blockK x2 x3 x4 (ix2 r (0 : Fin 2)) = (rowsEdge x0 x1 x2 x3 x4 r).stiff 0 := by
  unfold blockK k0_pay2
  try dsimp only
  rw [Cert.Columns.join2_apply0, Cert.Keepdims.column_cast_apply]
  simp only [mulf_apply, addf_apply, subf_apply, divf_apply, negf_apply,
    broadcast_apply, kAxV_apply x0 x1 x2 x3 x4 r, kBendV_apply x0 x1 x2 x3 x4 r]
  rfl

theorem blockK_apply1 : blockK x2 x3 x4 (ix2 r (1 : Fin 2)) = (rowsEdge x0 x1 x2 x3 x4 r).stiff 1 := by
  unfold blockK k0_pay2
  try dsimp only
  rw [Cert.Columns.join2_apply1, Cert.Keepdims.column_cast_apply]
  simp only [mulf_apply, addf_apply, subf_apply, divf_apply, negf_apply,
    broadcast_apply, kAxV_apply x0 x1 x2 x3 x4 r, kBendV_apply x0 x1 x2 x3 x4 r]
  rfl

/-- Entry (r, j) of the first output block: component j of the force on the first node of the edge in row r. -/
theorem blockA_apply (j : Fin 3) : blockA x0 x1 x2 x3 x4 (ix2 r j) = (rowsEdge x0 x1 x2 x3 x4 r).forceA j :=
  match j with
  | ⟨0, _⟩ => blockA_apply0 x0 x1 x2 x3 x4 r
  | ⟨1, _⟩ => blockA_apply1 x0 x1 x2 x3 x4 r
  | ⟨2, _⟩ => blockA_apply2 x0 x1 x2 x3 x4 r

/-- Entry (r, j) of the second output block: component j of the force on the edge's second node. -/
theorem blockB_apply (j : Fin 3) : blockB x0 x1 x2 x3 x4 (ix2 r j) = (rowsEdge x0 x1 x2 x3 x4 r).forceB j :=
  match j with
  | ⟨0, _⟩ => blockB_apply0 x0 x1 x2 x3 x4 r
  | ⟨1, _⟩ => blockB_apply1 x0 x1 x2 x3 x4 r
  | ⟨2, _⟩ => blockB_apply2 x0 x1 x2 x3 x4 r

/-- Entry (r, j) of the third output block: the edge's axial (j = 0) or bending (j = 1) stiffness. -/
theorem blockK_apply (j : Fin 2) : blockK x2 x3 x4 (ix2 r j) = (rowsEdge x0 x1 x2 x3 x4 r).stiff j :=
  match j with
  | ⟨0, _⟩ => blockK_apply0 x0 x1 x2 x3 x4 r
  | ⟨1, _⟩ => blockK_apply1 x0 x1 x2 x3 x4 r

end Entry

end Cert.KernelIdeal.EdgeValue

end
-- ==== Proof.EdgeArrays.lean ====
/-
  From blocks to arrays: what the three result arrays of the region hold when it has run.

  Grid point t works on edges 5000·t … 5000·t + 4999: every window's block at t is those rows of its array, all
  columns. So row r of the point's input blocks is edge 5000·t + r of the five input arrays, and what the point writes
  back into rows 5000·t … of each result array is, entry by entry, the force (or stiffness) of that edge. The 800
  points' blocks tile the 4000000 rows: edge e is written by point e / 5000, and by no other. Hence each result
  array ends holding, at (e, j), component j of edge e's force (stiffness) computed from row e of the input arrays.
-/
import proofs.«101908_j42734924595228_2_alg».proof.Proof.EdgeRunIdeal
import proofs.«101908_j42734924595228_2_alg».proof.Proof.EdgeBlockValue

set_option maxRecDepth 16384
set_option maxHeartbeats 4000000

noncomputable section

namespace Cert.KernelIdeal.EdgeValue

open Cert.KernelIdeal Cert.KernelIdeal.Gen Cert.KernelIdeal.Edge Cert.BeamEdge
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Every window's block at grid point t starts at row block t and column block 0. -/
theorem blocks_at : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_3.index t (0 : Fin 2) = t.val ∧ win0_3.index t (1 : Fin 2) = 0 ∧
    win0_4.index t (0 : Fin 2) = t.val ∧ win0_4.index t (1 : Fin 2) = 0 ∧
    win0_5.index t (0 : Fin 2) = t.val ∧ win0_5.index t (1 : Fin 2) = 0 ∧
    win0_6.index t (0 : Fin 2) = t.val ∧ win0_6.index t (1 : Fin 2) = 0 ∧
    win0_7.index t (0 : Fin 2) = t.val ∧ win0_7.index t (1 : Fin 2) = 0 :=
  (by decide +kernel : ∀ t : Fin grid0.N, _)

theorem points : cfg0.N = 800 := N_0

/-- Two rows of arrays hold the same edge when they agree entry by entry. -/
theorem rowsEdge_congr {n n' : ℕ} (pA pB cA cB pr : (⟨2, ![n, 3]⟩ : Shape).Idx → EReal)
    (pA' pB' cA' cB' pr' : (⟨2, ![n', 3]⟩ : Shape).Idx → EReal) (r : Fin n) (e : Fin n')
    (hA : ∀ k, pA (ix2 r k) = pA' (ix2 e k)) (hB : ∀ k, pB (ix2 r k) = pB' (ix2 e k))
    (hCA : ∀ k, cA (ix2 r k) = cA' (ix2 e k)) (hCB : ∀ k, cB (ix2 r k) = cB' (ix2 e k))
    (hP : ∀ k, pr (ix2 r k) = pr' (ix2 e k)) :
    rowsEdge pA pB cA cB pr r = rowsEdge pA' pB' cA' cB' pr' e := by
  unfold rowsEdge
  rw [hA 0, hA 1, hA 2, hB 0, hB 1, hB 2, hCA 0, hCA 2, hCB 0, hCB 2, hP 0, hP 1, hP 2]

/-- Row r of input window 0's block at point t is row 5000·t + r of its array. -/
theorem iblk0_apply (c : Dev nD) (t : Fin cfg0.N) (r : Fin 5000) (k : Fin 3) (e : Fin 4000000)
    (he : e.val = t.val * 5000 + r.val) :
    iblk m c 0 t (ix2 r k) = V m c main_v10 (ix2 e k) := by
  obtain ⟨r0, z0, r1, z1, r2, z2, r3, z3, r4, z4, r5, z5, r6, z6, r7, z7⟩ := blocks_at t
  show V m c main_v10 (((cfg0.win 0).blk t).view.emb (ix2 r k)) = _
  refine congrArg (V m c main_v10) (funext fun a => Fin.ext ?_)
  match a with
  | ⟨0, _⟩ => show win0_0.index t (0 : Fin 2) * 5000 + 1 * r.val = e.val; omega
  | ⟨1, _⟩ => show win0_0.index t (1 : Fin 2) * 3 + 1 * k.val = k.val; omega

/-- Row r of input window 1's block at point t is row 5000·t + r of its array. -/
theorem iblk1_apply (c : Dev nD) (t : Fin cfg0.N) (r : Fin 5000) (k : Fin 3) (e : Fin 4000000)
    (he : e.val = t.val * 5000 + r.val) :
    iblk m c 1 t (ix2 r k) = V m c main_v17 (ix2 e k) := by
  obtain ⟨r0, z0, r1, z1, r2, z2, r3, z3, r4, z4, r5, z5, r6, z6, r7, z7⟩ := blocks_at t
  show V m c main_v17 (((cfg0.win 1).blk t).view.emb (ix2 r k)) = _
  refine congrArg (V m c main_v17) (funext fun a => Fin.ext ?_)
  match a with
  | ⟨0, _⟩ => show win0_1.index t (0 : Fin 2) * 5000 + 1 * r.val = e.val; omega
  | ⟨1, _⟩ => show win0_1.index t (1 : Fin 2) * 3 + 1 * k.val = k.val; omega

/-- Row r of input window 2's block at point t is row 5000·t + r of its array. -/
theorem iblk2_apply (c : Dev nD) (t : Fin cfg0.N) (r : Fin 5000) (k : Fin 3) (e : Fin 4000000)
    (he : e.val = t.val * 5000 + r.val) :
    iblk m c 2 t (ix2 r k) = V m c main_v24 (ix2 e k) := by
  obtain ⟨r0, z0, r1, z1, r2, z2, r3, z3, r4, z4, r5, z5, r6, z6, r7, z7⟩ := blocks_at t
  show V m c main_v24 (((cfg0.win 2).blk t).view.emb (ix2 r k)) = _
  refine congrArg (V m c main_v24) (funext fun a => Fin.ext ?_)
  match a with
  | ⟨0, _⟩ => show win0_2.index t (0 : Fin 2) * 5000 + 1 * r.val = e.val; omega
  | ⟨1, _⟩ => show win0_2.index t (1 : Fin 2) * 3 + 1 * k.val = k.val; omega

/-- Row r of input window 3's block at point t is row 5000·t + r of its array. -/
theorem iblk3_apply (c : Dev nD) (t : Fin cfg0.N) (r : Fin 5000) (k : Fin 3) (e : Fin 4000000)
    (he : e.val = t.val * 5000 + r.val) :
    iblk m c 3 t (ix2 r k) = V m c main_v31 (ix2 e k) := by
  obtain ⟨r0, z0, r1, z1, r2, z2, r3, z3, r4, z4, r5, z5, r6, z6, r7, z7⟩ := blocks_at t
  show V m c main_v31 (((cfg0.win 3).blk t).view.emb (ix2 r k)) = _
  refine congrArg (V m c main_v31) (funext fun a => Fin.ext ?_)
  match a with
  | ⟨0, _⟩ => show win0_3.index t (0 : Fin 2) * 5000 + 1 * r.val = e.val; omega
  | ⟨1, _⟩ => show win0_3.index t (1 : Fin 2) * 3 + 1 * k.val = k.val; omega

/-- Row r of input window 4's block at point t is row 5000·t + r of its array. -/
theorem iblk4_apply (c : Dev nD) (t : Fin cfg0.N) (r : Fin 5000) (k : Fin 3) (e : Fin 4000000)
    (he : e.val = t.val * 5000 + r.val) :
    iblk m c 4 t (ix2 r k) = V m c main_v35 (ix2 e k) := by
  obtain ⟨r0, z0, r1, z1, r2, z2, r3, z3, r4, z4, r5, z5, r6, z6, r7, z7⟩ := blocks_at t
  show V m c main_v35 (((cfg0.win 4).blk t).view.emb (ix2 r k)) = _
  refine congrArg (V m c main_v35) (funext fun a => Fin.ext ?_)
  match a with
  | ⟨0, _⟩ => show win0_4.index t (0 : Fin 2) * 5000 + 1 * r.val = e.val; omega
  | ⟨1, _⟩ => show win0_4.index t (1 : Fin 2) * 3 + 1 * k.val = k.val; omega

/-! ## Result window 5 -/

/-- What the array ends holding: at (e, j) component j of edge e's `forceA`, the edge read off row e of the input arrays. -/
def GA (c : Dev nD) : S4000000x3.Idx → EReal := fun i =>
  (rowsEdge (n := 4000000) (V m c main_v10) (V m c main_v17) (V m c main_v24) (V m c main_v31) (V m c main_v35) (i 0)).forceA (i 1)

/-- What point t writes back is block t of that array. -/
theorem flushedA_eq (c : Dev nD) (t : Fin cfg0.N) :
    (dats m 0 c).flushed 5 t = ((cfg0.win 5).blk t).view.read (Elt Ideal) (GA m c) := by
  show (cfg0.win 5).cut (grid0.coords t) ((dats m 0 c).after 5 t) = _
  rw [after_outA]
  obtain ⟨r0, z0, r1, z1, r2, z2, r3, z3, r4, z4, r5, z5, r6, z6, r7, z7⟩ := blocks_at t
  funext j
  have hj0 : (j 0).val < 5000 := (j 0).isLt
  have hj1 : (j 1).val < 3 := (j 1).isLt
  have hN : t.val < 800 := by have := t.isLt; have h := points; omega
  have hj : (j : S5000x3.Idx) = ix2 (j 0) (j 1) := eq_ix2 j
  show blockA (iblk m c 0 t) (iblk m c 1 t) (iblk m c 2 t) (iblk m c 3 t) (iblk m c 4 t) j = GA m c (((cfg0.win 5).blk t).view.emb j)
  refine (congrArg (blockA (iblk m c 0 t) (iblk m c 1 t) (iblk m c 2 t) (iblk m c 3 t) (iblk m c 4 t)) hj).trans ?_
  refine (blockA_apply _ _ _ _ _ (j 0) (j 1)).trans ?_
  have he0 : ((((cfg0.win 5).blk t).view.emb j) 0).val = t.val * 5000 + (j 0).val := by
    show win0_5.index t (0 : Fin 2) * 5000 + 1 * (j 0).val = _; omega
  have he1 : (((cfg0.win 5).blk t).view.emb j) 1 = j 1 := Fin.ext (by
    show win0_5.index t (1 : Fin 2) * 3 + 1 * (j 1).val = _; omega)
  unfold GA
  dsimp only
  rw [he1]
  refine congrArg (fun d : Edge => d.forceA (j 1)) ?_
  exact rowsEdge_congr _ _ _ _ _ _ _ _ _ _ (j 0) _
    (fun k => iblk0_apply m c t (j 0) k _ he0) (fun k => iblk1_apply m c t (j 0) k _ he0)
    (fun k => iblk2_apply m c t (j 0) k _ he0) (fun k => iblk3_apply m c t (j 0) k _ he0)
    (fun k => iblk4_apply m c t (j 0) k _ he0)

/-- An index of the array is in point t's block iff each coordinate is in the block's range. -/
theorem mem_blkA (t : Fin cfg0.N) (i : S4000000x3.Idx) :
    i ∈ ((cfg0.win 5).blk t).view.set ↔ ∀ a : Fin 2, win0_5.index t a * S5000x3.size a ≤ (i a).val ∧ (i a).val < win0_5.index t a * S5000x3.size a + S5000x3.size a := by
  show i ∈ ((View.whole main_v36_0).slice (win0_5.rect t)).set ↔ _
  rw [View.set_slice_whole, Rect.mem_set_unit]
  exact Iff.rfl

/-- Every entry is in the block of the point its row falls to. -/
theorem coverA (i : S4000000x3.Idx) :
    ∃ t : Fin cfg0.N, (cfg0.win 5).flush t = true ∧ i ∈ ((cfg0.win 5).blk t).view.set := by
  have hi0 : (i 0).val < 4000000 := (i 0).isLt
  have hi1 : (i 1).val < 3 := (i 1).isLt
  have hp := points
  refine ⟨⟨(i 0).val / 5000, by omega⟩, flush0_5 _, ?_⟩
  obtain ⟨r0, z0, r1, z1, r2, z2, r3, z3, r4, z4, r5, z5, r6, z6, r7, z7⟩ := blocks_at ⟨(i 0).val / 5000, by omega⟩
  rw [mem_blkA]
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [r5]
    show (i 0).val / 5000 * 5000 ≤ (i 0).val ∧ (i 0).val < (i 0).val / 5000 * 5000 + 5000
    omega
  | ⟨1, _⟩ =>
    show win0_5.index ⟨(i 0).val / 5000, _⟩ (1 : Fin 2) * 3 ≤ (i 1).val ∧ (i 1).val < win0_5.index ⟨(i 0).val / 5000, _⟩ (1 : Fin 2) * 3 + 3
    rw [z5]
    omega

/-- The array after the run. -/
theorem finalA (c : Dev nD) : (dats m 0 c).arrAt 5 cfg0.N = GA m c :=
  (dats m 0 c).arrAt_eq_of_cover 5 (GA m c) (fun t _ => flushedA_eq m c t) coverA

/-! ## Result window 6 -/

/-- What the array ends holding: at (e, j) component j of edge e's `forceB`, the edge read off row e of the input arrays. -/
def GB (c : Dev nD) : S4000000x3.Idx → EReal := fun i =>
  (rowsEdge (n := 4000000) (V m c main_v10) (V m c main_v17) (V m c main_v24) (V m c main_v31) (V m c main_v35) (i 0)).forceB (i 1)

/-- What point t writes back is block t of that array. -/
theorem flushedB_eq (c : Dev nD) (t : Fin cfg0.N) :
    (dats m 0 c).flushed 6 t = ((cfg0.win 6).blk t).view.read (Elt Ideal) (GB m c) := by
  show (cfg0.win 6).cut (grid0.coords t) ((dats m 0 c).after 6 t) = _
  rw [after_outB]
  obtain ⟨r0, z0, r1, z1, r2, z2, r3, z3, r4, z4, r5, z5, r6, z6, r7, z7⟩ := blocks_at t
  funext j
  have hj0 : (j 0).val < 5000 := (j 0).isLt
  have hj1 : (j 1).val < 3 := (j 1).isLt
  have hN : t.val < 800 := by have := t.isLt; have h := points; omega
  have hj : (j : S5000x3.Idx) = ix2 (j 0) (j 1) := eq_ix2 j
  show blockB (iblk m c 0 t) (iblk m c 1 t) (iblk m c 2 t) (iblk m c 3 t) (iblk m c 4 t) j = GB m c (((cfg0.win 6).blk t).view.emb j)
  refine (congrArg (blockB (iblk m c 0 t) (iblk m c 1 t) (iblk m c 2 t) (iblk m c 3 t) (iblk m c 4 t)) hj).trans ?_
  refine (blockB_apply _ _ _ _ _ (j 0) (j 1)).trans ?_
  have he0 : ((((cfg0.win 6).blk t).view.emb j) 0).val = t.val * 5000 + (j 0).val := by
    show win0_6.index t (0 : Fin 2) * 5000 + 1 * (j 0).val = _; omega
  have he1 : (((cfg0.win 6).blk t).view.emb j) 1 = j 1 := Fin.ext (by
    show win0_6.index t (1 : Fin 2) * 3 + 1 * (j 1).val = _; omega)
  unfold GB
  dsimp only
  rw [he1]
  refine congrArg (fun d : Edge => d.forceB (j 1)) ?_
  exact rowsEdge_congr _ _ _ _ _ _ _ _ _ _ (j 0) _
    (fun k => iblk0_apply m c t (j 0) k _ he0) (fun k => iblk1_apply m c t (j 0) k _ he0)
    (fun k => iblk2_apply m c t (j 0) k _ he0) (fun k => iblk3_apply m c t (j 0) k _ he0)
    (fun k => iblk4_apply m c t (j 0) k _ he0)

/-- An index of the array is in point t's block iff each coordinate is in the block's range. -/
theorem mem_blkB (t : Fin cfg0.N) (i : S4000000x3.Idx) :
    i ∈ ((cfg0.win 6).blk t).view.set ↔ ∀ a : Fin 2, win0_6.index t a * S5000x3.size a ≤ (i a).val ∧ (i a).val < win0_6.index t a * S5000x3.size a + S5000x3.size a := by
  show i ∈ ((View.whole main_v36_1).slice (win0_6.rect t)).set ↔ _
  rw [View.set_slice_whole, Rect.mem_set_unit]
  exact Iff.rfl

/-- Every entry is in the block of the point its row falls to. -/
theorem coverB (i : S4000000x3.Idx) :
    ∃ t : Fin cfg0.N, (cfg0.win 6).flush t = true ∧ i ∈ ((cfg0.win 6).blk t).view.set := by
  have hi0 : (i 0).val < 4000000 := (i 0).isLt
  have hi1 : (i 1).val < 3 := (i 1).isLt
  have hp := points
  refine ⟨⟨(i 0).val / 5000, by omega⟩, flush0_6 _, ?_⟩
  obtain ⟨r0, z0, r1, z1, r2, z2, r3, z3, r4, z4, r5, z5, r6, z6, r7, z7⟩ := blocks_at ⟨(i 0).val / 5000, by omega⟩
  rw [mem_blkB]
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [r6]
    show (i 0).val / 5000 * 5000 ≤ (i 0).val ∧ (i 0).val < (i 0).val / 5000 * 5000 + 5000
    omega
  | ⟨1, _⟩ =>
    show win0_6.index ⟨(i 0).val / 5000, _⟩ (1 : Fin 2) * 3 ≤ (i 1).val ∧ (i 1).val < win0_6.index ⟨(i 0).val / 5000, _⟩ (1 : Fin 2) * 3 + 3
    rw [z6]
    omega

/-- The array after the run. -/
theorem finalB (c : Dev nD) : (dats m 0 c).arrAt 6 cfg0.N = GB m c :=
  (dats m 0 c).arrAt_eq_of_cover 6 (GB m c) (fun t _ => flushedB_eq m c t) coverB

/-! ## Result window 7 -/

/-- What the array ends holding: at (e, j) component j of edge e's `stiff`, the edge read off row e of the input arrays. -/
def GK (c : Dev nD) : S4000000x2.Idx → EReal := fun i =>
  (rowsEdge (n := 4000000) (V m c main_v10) (V m c main_v17) (V m c main_v24) (V m c main_v31) (V m c main_v35) (i 0)).stiff (i 1)

/-- What point t writes back is block t of that array. -/
theorem flushedK_eq (c : Dev nD) (t : Fin cfg0.N) :
    (dats m 0 c).flushed 7 t = ((cfg0.win 7).blk t).view.read (Elt Ideal) (GK m c) := by
  show (cfg0.win 7).cut (grid0.coords t) ((dats m 0 c).after 7 t) = _
  rw [after_outK]
  obtain ⟨r0, z0, r1, z1, r2, z2, r3, z3, r4, z4, r5, z5, r6, z6, r7, z7⟩ := blocks_at t
  funext j
  have hj0 : (j 0).val < 5000 := (j 0).isLt
  have hj1 : (j 1).val < 2 := (j 1).isLt
  have hN : t.val < 800 := by have := t.isLt; have h := points; omega
  have hj : (j : S5000x2.Idx) = ix2 (j 0) (j 1) := eq_ix2 j
  show blockK (iblk m c 2 t) (iblk m c 3 t) (iblk m c 4 t) j = GK m c (((cfg0.win 7).blk t).view.emb j)
  refine (congrArg (blockK (iblk m c 2 t) (iblk m c 3 t) (iblk m c 4 t)) hj).trans ?_
  refine (blockK_apply (iblk m c 0 t) (iblk m c 1 t) _ _ _ (j 0) (j 1)).trans ?_
  have he0 : ((((cfg0.win 7).blk t).view.emb j) 0).val = t.val * 5000 + (j 0).val := by
    show win0_7.index t (0 : Fin 2) * 5000 + 1 * (j 0).val = _; omega
  have he1 : (((cfg0.win 7).blk t).view.emb j) 1 = j 1 := Fin.ext (by
    show win0_7.index t (1 : Fin 2) * 2 + 1 * (j 1).val = _; omega)
  unfold GK
  dsimp only
  rw [he1]
  refine congrArg (fun d : Edge => d.stiff (j 1)) ?_
  exact rowsEdge_congr _ _ _ _ _ _ _ _ _ _ (j 0) _
    (fun k => iblk0_apply m c t (j 0) k _ he0) (fun k => iblk1_apply m c t (j 0) k _ he0)
    (fun k => iblk2_apply m c t (j 0) k _ he0) (fun k => iblk3_apply m c t (j 0) k _ he0)
    (fun k => iblk4_apply m c t (j 0) k _ he0)

/-- An index of the array is in point t's block iff each coordinate is in the block's range. -/
theorem mem_blkK (t : Fin cfg0.N) (i : S4000000x2.Idx) :
    i ∈ ((cfg0.win 7).blk t).view.set ↔ ∀ a : Fin 2, win0_7.index t a * S5000x2.size a ≤ (i a).val ∧ (i a).val < win0_7.index t a * S5000x2.size a + S5000x2.size a := by
  show i ∈ ((View.whole main_v36_2).slice (win0_7.rect t)).set ↔ _
  rw [View.set_slice_whole, Rect.mem_set_unit]
  exact Iff.rfl

/-- Every entry is in the block of the point its row falls to. -/
theorem coverK (i : S4000000x2.Idx) :
    ∃ t : Fin cfg0.N, (cfg0.win 7).flush t = true ∧ i ∈ ((cfg0.win 7).blk t).view.set := by
  have hi0 : (i 0).val < 4000000 := (i 0).isLt
  have hi1 : (i 1).val < 2 := (i 1).isLt
  have hp := points
  refine ⟨⟨(i 0).val / 5000, by omega⟩, flush0_7 _, ?_⟩
  obtain ⟨r0, z0, r1, z1, r2, z2, r3, z3, r4, z4, r5, z5, r6, z6, r7, z7⟩ := blocks_at ⟨(i 0).val / 5000, by omega⟩
  rw [mem_blkK]
  intro a
  match a with
  | ⟨0, _⟩ =>
    show win0_7.index ⟨(i 0).val / 5000, _⟩ (0 : Fin 2) * 5000 ≤ (i 0).val ∧ (i 0).val < win0_7.index ⟨(i 0).val / 5000, _⟩ (0 : Fin 2) * 5000 + 5000
    rw [r7]
    show (i 0).val / 5000 * 5000 ≤ (i 0).val ∧ (i 0).val < (i 0).val / 5000 * 5000 + 5000
    omega
  | ⟨1, _⟩ =>
    show win0_7.index ⟨(i 0).val / 5000, _⟩ (1 : Fin 2) * 2 ≤ (i 1).val ∧ (i 1).val < win0_7.index ⟨(i 0).val / 5000, _⟩ (1 : Fin 2) * 2 + 2
    rw [z7]
    omega

/-- The array after the run. -/
theorem finalK (c : Dev nD) : (dats m 0 c).arrAt 7 cfg0.N = GK m c :=
  (dats m 0 c).arrAt_eq_of_cover 7 (GK m c) (fun t _ => flushedK_eq m c t) coverK

end Cert.KernelIdeal.EdgeValue

end
-- ==== Proof.EdgeIndex.lean ====
/-
  Which two nodes an edge joins, and the edge's data read off the node tables.

  The edge list is an array of pairs of 32-bit words. A word names a node of the table of 500000 nodes: a negative
  word counts from the end of the table (500000 is added to it), and reading a row of a table at a word clamps the
  word, read as a signed integer, into the table. The edge e then has: the displacement rows of its two nodes, the
  x and z coordinates of its two nodes, and its own three properties, listed per edge.
-/
import proofs.«101908_j42734924595228_2_alg».proof.Proof.EdgeSpec
import Idealize.ShloMosaic.Lib.ValueIdx

noncomputable section

namespace Cert.BeamEdge

open Idealize.ShloMosaic Idealize.ShloMosaic.ValueIdx

/-- A word with 500000 added when it is negative. -/
def wrapWord (w : BitVec 32) : BitVec 32 :=
  Scalar.select (IntOp.cmpi .slt w 0#32) (IntOp.addi w 500000#32) w

/-- The node a word names: wrapped, read signed, clamped into [0, 499999]. -/
def nodeOfWord (w : BitVec 32) : Fin 500000 := ⟨min (wrapWord w).toInt.toNat (500000 - 1), by omega⟩

/-- Column j of a three-column row, j given as a word: read signed and clamped into [0, 2]. -/
def colOfWord (w : BitVec 32) : Fin 3 := ⟨min w.toInt.toNat (3 - 1), by omega⟩

theorem colOfWord_zero : colOfWord 0#32 = (0 : Fin 3) := by decide
theorem colOfWord_one : colOfWord 1#32 = (1 : Fin 3) := by decide
theorem colOfWord_two : colOfWord 2#32 = (2 : Fin 3) := by decide

/-- Edge e's data, from the displacement table, the coordinate table, the three property lists and the edge list. -/
def argsEdge (disp coord : (⟨2, ![500000, 3]⟩ : Shape).Idx → EReal)
    (pE pA pI : (⟨1, ![4000000]⟩ : Shape).Idx → EReal) (conn : IVec ⟨2, ![4000000, 2]⟩ 32) (e : Fin 4000000) : Edge where
  ua0 := disp (ix2 (nodeOfWord (conn (ix2 e (0 : Fin 2)))) (0 : Fin 3))
  ua1 := disp (ix2 (nodeOfWord (conn (ix2 e (0 : Fin 2)))) (1 : Fin 3))
  ua2 := disp (ix2 (nodeOfWord (conn (ix2 e (0 : Fin 2)))) (2 : Fin 3))
  ub0 := disp (ix2 (nodeOfWord (conn (ix2 e (1 : Fin 2)))) (0 : Fin 3))
  ub1 := disp (ix2 (nodeOfWord (conn (ix2 e (1 : Fin 2)))) (1 : Fin 3))
  ub2 := disp (ix2 (nodeOfWord (conn (ix2 e (1 : Fin 2)))) (2 : Fin 3))
  ax := coord (ix2 (nodeOfWord (conn (ix2 e (0 : Fin 2)))) (0 : Fin 3))
  az := coord (ix2 (nodeOfWord (conn (ix2 e (0 : Fin 2)))) (2 : Fin 3))
  bx := coord (ix2 (nodeOfWord (conn (ix2 e (1 : Fin 2)))) (0 : Fin 3))
  bz := coord (ix2 (nodeOfWord (conn (ix2 e (1 : Fin 2)))) (2 : Fin 3))
  E := pE (ix1 e)
  A := pA (ix1 e)
  I := pI (ix1 e)

/-- The forces on the edges' first nodes, edge by edge and component by component. -/
def forcesA (disp coord : (⟨2, ![500000, 3]⟩ : Shape).Idx → EReal)
    (pE pA pI : (⟨1, ![4000000]⟩ : Shape).Idx → EReal) (conn : IVec ⟨2, ![4000000, 2]⟩ 32) : (⟨2, ![4000000, 3]⟩ : Shape).Idx → EReal :=
  fun i => (argsEdge disp coord pE pA pI conn (i 0)).forceA (i 1)
/-- The forces on the edges' second nodes. -/
def forcesB (disp coord : (⟨2, ![500000, 3]⟩ : Shape).Idx → EReal)
    (pE pA pI : (⟨1, ![4000000]⟩ : Shape).Idx → EReal) (conn : IVec ⟨2, ![4000000, 2]⟩ 32) : (⟨2, ![4000000, 3]⟩ : Shape).Idx → EReal :=
  fun i => (argsEdge disp coord pE pA pI conn (i 0)).forceB (i 1)
/-- The edges' axial stiffnesses. -/
def stiffAx (disp coord : (⟨2, ![500000, 3]⟩ : Shape).Idx → EReal)
    (pE pA pI : (⟨1, ![4000000]⟩ : Shape).Idx → EReal) (conn : IVec ⟨2, ![4000000, 2]⟩ 32) : (⟨1, ![4000000]⟩ : Shape).Idx → EReal :=
  fun i => (argsEdge disp coord pE pA pI conn (i 0)).kAx
/-- The edges' bending stiffnesses. -/
def stiffBend (disp coord : (⟨2, ![500000, 3]⟩ : Shape).Idx → EReal)
    (pE pA pI : (⟨1, ![4000000]⟩ : Shape).Idx → EReal) (conn : IVec ⟨2, ![4000000, 2]⟩ 32) : (⟨1, ![4000000]⟩ : Shape).Idx → EReal :=
  fun i => (argsEdge disp coord pE pA pI conn (i 0)).kBend

end Cert.BeamEdge

end
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.EdgeInputs.lean ====
/-
  The five arrays the region reads, from the program's arguments.

  Before the region the program takes, for each edge, the displacement row and the coordinate row of each of its two
  end nodes out of the node tables (a row gather at the edge list's first, resp. second, column), and lays the three
  property lists side by side. So row e of those five arrays is exactly the data of edge e: the rows of the node its
  first word names, of the node its second word names, and the edge's own three properties.
-/
import proofs.«101908_j42734924595228_2_alg».proof.Proof.EdgeHostIdeal
import proofs.«101908_j42734924595228_2_alg».proof.Proof.EdgeBlockValue
import proofs.«101908_j42734924595228_2_alg».proof.Proof.EdgeIndex
import proofs.«101908_j42734924595228_2_alg».proof.Proof.LibRowTakeAdd
import proofs.«101908_j42734924595228_2_alg».proof.Proof.LibKeepdims
import proofs.«101908_j42734924595228_2_alg».proof.Proof.LibColumns
import Idealize.ShloMosaic.Lib.StableHlo.Run
import Idealize.ShloMosaic.Lib.ValueIdx

set_option maxRecDepth 16384
set_option maxHeartbeats 4000000

noncomputable section

namespace Cert.KernelIdeal.EdgeValue

open Cert.KernelIdeal Cert.KernelIdeal.Gen Cert.KernelIdeal.Edge Cert.BeamEdge
open Idealize.ShloMosaic Idealize.ShloMosaic.TcCoe Idealize.ShloMosaic.ValueIdx Idealize.ShloMosaic.StableHlo
open Idealize.SL Idealize.SL.Sem

/-- Column j of the edge list as a vector of words. -/
def endWords (conn : IVec S4000000x2 32) (j : ℕ) (hs : S4000000x2.Slices ![0, j] S4000000x1) : IVec S4000000 32 :=
  shapeCast S4000000 (extractStridedSlice S4000000x1 ![0, j] conn hs) shapeCasts_S4000000x1_S4000000

/-- A vector of words, negative ones wrapped, kept as a column: the index column a gather or a scatter of rows takes. -/
def idxColW (v : IVec S4000000 32) : IVec S4000000x1 32 :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 500000#32))) v)

/-- The index column of the edge list's column j. -/
def idxCol (conn : IVec S4000000x2 32) (j : ℕ) (hs : S4000000x2.Slices ![0, j] S4000000x1) : IVec S4000000x1 32 :=
  idxColW (endWords conn j hs)

/-- Entry (e, ·) of the index column is edge e's word j, wrapped. -/
theorem idxCol_apply (conn : IVec S4000000x2 32) (j : ℕ) (hj : j < 2) (hs : S4000000x2.Slices ![0, j] S4000000x1)
    (e : Fin 4000000) (z : Fin 1) : idxCol conn j hs (ix2 e z) = wrapWord (conn (ix2 e ⟨j, hj⟩)) := by
  unfold idxCol idxColW
  refine (Cert.Keepdims.host_column_apply _ _ e z).trans ?_
  unfold endWords
  rw [Cert.Columns.column_eq conn j hj]
  rfl

/-- A row gather of a node table at that index column: row e is the row of the node edge e's word j names. -/
theorem take_rows_apply (tab : S500000x3.Idx → EReal) (conn : IVec S4000000x2 32) (j : ℕ) (hj : j < 2)
    (hs : S4000000x2.Slices ![0, j] S4000000x1) (e : Fin 4000000) (k : Fin 3) :
    Host.gather gather_S500000x3_S4000000x1_S4000000x3_1_0_n_n_0_1_13 tab (idxCol conn j hs) (ix2 e k)
      = tab (ix2 (nodeOfWord (conn (ix2 e ⟨j, hj⟩))) k) := by
  refine (Cert.RowTakeAdd.gather_rows_apply (N := 500000) (R := 4000000) (C := 3) (by omega)
    gather_S500000x3_S4000000x1_S4000000x3_1_0_n_n_0_1_13_wf tab (idxCol conn j hs) e k).trans ?_
  refine congrArg (fun p : Fin 500000 => tab (ix2 p k)) (Fin.ext ?_)
  show min (idxCol conn j hs (ix2 e (0 : Fin 1))).toInt.toNat (500000 - 1) = min (wrapWord (conn (ix2 e ⟨j, hj⟩))).toInt.toNat (500000 - 1)
  rw [idxCol_apply conn j hj hs e 0]

variable (m : (ℓ : Loc nD τ sig) → Buf (Elt Ideal) ℓ)

/-! ## The arrays as the region finds them -/

theorem V_words0 (c : Dev nD) : (V m c main_v1 : S4000000.Idx → BitVec 32)
    = endWords (m ((c : Thread nD τ).loc main_arg5)) 0 slices_S4000000x2_S4000000x1_0_0 := by
  show StableHlo.after hostOps0 (fun b => m (c, b)) (Proc.devRef .tc main_v1) = _
  after_results; rfl

theorem V_words1 (c : Dev nD) : (V m c main_v3 : S4000000.Idx → BitVec 32)
    = endWords (m ((c : Thread nD τ).loc main_arg5)) 1 slices_S4000000x2_S4000000x1_0_1 := by
  show StableHlo.after hostOps0 (fun b => m (c, b)) (Proc.devRef .tc main_v3) = _
  after_results; rfl

theorem V_main_v10 (c : Dev nD) : (V m c main_v10 : S4000000x3.Idx → EReal)
    = Host.gather gather_S500000x3_S4000000x1_S4000000x3_1_0_n_n_0_1_13 (m ((c : Thread nD τ).loc main_arg0))
        (idxCol (m ((c : Thread nD τ).loc main_arg5)) 0 slices_S4000000x2_S4000000x1_0_0) := by
  show StableHlo.after hostOps0 (fun b => m (c, b)) (Proc.devRef .tc main_v10) = _
  after_results; rfl

theorem V_main_v10_apply (c : Dev nD) (e : Fin 4000000) (k : Fin 3) :
    V m c main_v10 (ix2 e k) = (m ((c : Thread nD τ).loc main_arg0)) (ix2 (nodeOfWord ((m ((c : Thread nD τ).loc main_arg5)) (ix2 e (0 : Fin 2)))) k) := by
  rw [V_main_v10]
  exact take_rows_apply _ _ 0 (by omega) _ e k

theorem V_main_v17 (c : Dev nD) : (V m c main_v17 : S4000000x3.Idx → EReal)
    = Host.gather gather_S500000x3_S4000000x1_S4000000x3_1_0_n_n_0_1_13 (m ((c : Thread nD τ).loc main_arg0))
        (idxCol (m ((c : Thread nD τ).loc main_arg5)) 1 slices_S4000000x2_S4000000x1_0_1) := by
  show StableHlo.after hostOps0 (fun b => m (c, b)) (Proc.devRef .tc main_v17) = _
  after_results; rfl

theorem V_main_v17_apply (c : Dev nD) (e : Fin 4000000) (k : Fin 3) :
    V m c main_v17 (ix2 e k) = (m ((c : Thread nD τ).loc main_arg0)) (ix2 (nodeOfWord ((m ((c : Thread nD τ).loc main_arg5)) (ix2 e (1 : Fin 2)))) k) := by
  rw [V_main_v17]
  exact take_rows_apply _ _ 1 (by omega) _ e k

theorem V_main_v24 (c : Dev nD) : (V m c main_v24 : S4000000x3.Idx → EReal)
    = Host.gather gather_S500000x3_S4000000x1_S4000000x3_1_0_n_n_0_1_13 (m ((c : Thread nD τ).loc main_arg1))
        (idxCol (m ((c : Thread nD τ).loc main_arg5)) 0 slices_S4000000x2_S4000000x1_0_0) := by
  show StableHlo.after hostOps0 (fun b => m (c, b)) (Proc.devRef .tc main_v24) = _
  after_results; rfl

theorem V_main_v24_apply (c : Dev nD) (e : Fin 4000000) (k : Fin 3) :
    V m c main_v24 (ix2 e k) = (m ((c : Thread nD τ).loc main_arg1)) (ix2 (nodeOfWord ((m ((c : Thread nD τ).loc main_arg5)) (ix2 e (0 : Fin 2)))) k) := by
  rw [V_main_v24]
  exact take_rows_apply _ _ 0 (by omega) _ e k

theorem V_main_v31 (c : Dev nD) : (V m c main_v31 : S4000000x3.Idx → EReal)
    = Host.gather gather_S500000x3_S4000000x1_S4000000x3_1_0_n_n_0_1_13 (m ((c : Thread nD τ).loc main_arg1))
        (idxCol (m ((c : Thread nD τ).loc main_arg5)) 1 slices_S4000000x2_S4000000x1_0_1) := by
  show StableHlo.after hostOps0 (fun b => m (c, b)) (Proc.devRef .tc main_v31) = _
  after_results; rfl

theorem V_main_v31_apply (c : Dev nD) (e : Fin 4000000) (k : Fin 3) :
    V m c main_v31 (ix2 e k) = (m ((c : Thread nD τ).loc main_arg1)) (ix2 (nodeOfWord ((m ((c : Thread nD τ).loc main_arg5)) (ix2 e (1 : Fin 2)))) k) := by
  rw [V_main_v31]
  exact take_rows_apply _ _ 1 (by omega) _ e k

theorem V_main_v35 (c : Dev nD) : (V m c main_v35 : S4000000x3.Idx → EReal)
    = concatenate S4000000x3 1 [⟨S4000000x1, broadcastInDim S4000000x1 ![0] bcast_S4000000_S4000000x1_0 (m ((c : Thread nD τ).loc main_arg2))⟩,
        ⟨S4000000x1, broadcastInDim S4000000x1 ![0] bcast_S4000000_S4000000x1_0 (m ((c : Thread nD τ).loc main_arg3))⟩,
        ⟨S4000000x1, broadcastInDim S4000000x1 ![0] bcast_S4000000_S4000000x1_0 (m ((c : Thread nD τ).loc main_arg4))⟩]
        concatenates_S4000000x1_S4000000x1_S4000000x1_S4000000x3_d1 := by
  show StableHlo.after hostOps0 (fun b => m (c, b)) (Proc.devRef .tc main_v35) = _
  after_results; rfl

theorem V_props_apply0 (c : Dev nD) (e : Fin 4000000) : V m c main_v35 (ix2 e (0 : Fin 3)) = (m ((c : Thread nD τ).loc main_arg2)) (ix1 e) := by
  rw [V_main_v35, Cert.Columns.join3_apply0, Cert.Keepdims.host_column_apply]
theorem V_props_apply1 (c : Dev nD) (e : Fin 4000000) : V m c main_v35 (ix2 e (1 : Fin 3)) = (m ((c : Thread nD τ).loc main_arg3)) (ix1 e) := by
  rw [V_main_v35, Cert.Columns.join3_apply1, Cert.Keepdims.host_column_apply]
theorem V_props_apply2 (c : Dev nD) (e : Fin 4000000) : V m c main_v35 (ix2 e (2 : Fin 3)) = (m ((c : Thread nD τ).loc main_arg4)) (ix1 e) := by
  rw [V_main_v35, Cert.Columns.join3_apply2, Cert.Keepdims.host_column_apply]

/-- Row e of the region's five input arrays is edge e, read off the argument tables. -/
theorem inputs_edge (c : Dev nD) (e : Fin 4000000) :
    rowsEdge (n := 4000000) (V m c main_v10) (V m c main_v17) (V m c main_v24) (V m c main_v31) (V m c main_v35) e
      = argsEdge (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) e := by
  unfold rowsEdge argsEdge
  rw [V_main_v10_apply, V_main_v10_apply, V_main_v10_apply, V_main_v17_apply, V_main_v17_apply, V_main_v17_apply,
    V_main_v24_apply, V_main_v24_apply, V_main_v31_apply, V_main_v31_apply, V_props_apply0, V_props_apply1, V_props_apply2]

end Cert.KernelIdeal.EdgeValue

end
-- ==== Proof.EdgeTail.lean ====
/-
  The lines after the region, as functions of what the region left.

  After the region the program adds the per-edge forces into a table of node forces (zero to begin with): row e of
  the first result array into the row of the node edge e's first word names, row e of the second result array into
  the row of the node its second word names; a word that names no row adds nothing. It scales the node
  displacements: columns 0 and 1 by one factor, column 2 by another. And it reports the least and the greatest entry
  of each column of the stiffness array. Each of the five results is one of these functions applied to the region's
  result arrays and the arguments; the sixth argument is returned as it came.
-/
import proofs.«101908_j42734924595228_2_alg».proof.Proof.EdgeRunIdeal
import proofs.«101908_j42734924595228_2_alg».proof.Proof.EdgeArrays
import proofs.«101908_j42734924595228_2_alg».proof.Proof.EdgeInputs

set_option maxRecDepth 16384
set_option maxHeartbeats 4000000

noncomputable section

namespace Cert.KernelIdeal.EdgeValue

open Cert.KernelIdeal Cert.KernelIdeal.Gen Cert.KernelIdeal.Edge Cert.BeamEdge
open Idealize.ShloMosaic Idealize.ShloMosaic.TcCoe Idealize.ShloMosaic.ValueIdx Idealize.ShloMosaic.StableHlo
open Idealize.SL Idealize.SL.Sem
open Idealize.ShloMosaic.Pipeline (Dat Cfg Window)

/-- The node forces: the two arrays of per-edge forces added, row by row, into a zero table at the rows the edges'
    first, resp. second, words name. -/
def nodeForces (w1 w3 : IVec S4000000 32) (FA FB : FVec Ideal S4000000x3 .f32) : FVec Ideal S500000x3 .f32 :=
  Host.scatterAdd scatter_S500000x3_S4000000x1_S4000000x3_1_0_0_1
    (Host.scatterAdd scatter_S500000x3_S4000000x1_S4000000x3_1_0_0_1
      (broadcastInDim S500000x3 ![] bcast_S_S500000x3 (constant (F := Ideal) S_ .f32 0x00000000#32))
      (idxColW w1) FA)
    (idxColW w3) FB

/-- The scaled displacements: columns 0 and 1 of the table times the first factor, column 2 times the second. -/
def scaledDisp (a0 : FVec Ideal S500000x3 .f32) (a7 a8 : FVec Ideal S1 .f32) : FVec Ideal S500000x3 .f32 :=
  concatenate S500000x3 1
    [⟨S500000x1, broadcastInDim S500000x1 ![0] bcast_S500000_S500000x1_0
        (mulf (shapeCast S500000 (extractStridedSlice S500000x1 ![0, 0] a0 slices_S500000x3_S500000x1_0_0) shapeCasts_S500000x1_S500000)
          (broadcastInDim S500000 ![] bcast_S_S500000 (shapeCast S_ a7 shapeCasts_S1_S_)))⟩,
     ⟨S500000x1, broadcastInDim S500000x1 ![0] bcast_S500000_S500000x1_0
        (mulf (shapeCast S500000 (extractStridedSlice S500000x1 ![0, 1] a0 slices_S500000x3_S500000x1_0_1) shapeCasts_S500000x1_S500000)
          (broadcastInDim S500000 ![] bcast_S_S500000 (shapeCast S_ a7 shapeCasts_S1_S_)))⟩,
     ⟨S500000x1, broadcastInDim S500000x1 ![0] bcast_S500000_S500000x1_0
        (mulf (shapeCast S500000 (extractStridedSlice S500000x1 ![0, 2] a0 slices_S500000x3_S500000x1_0_2) shapeCasts_S500000x1_S500000)
          (broadcastInDim S500000 ![] bcast_S_S500000 (shapeCast S_ a8 shapeCasts_S1_S_)))⟩]
    concatenates_S500000x1_S500000x1_S500000x1_S500000x3_d1

/-- The least and the greatest entry of a vector, as a pair. -/
def extremes (x : FVec Ideal S4000000 .f32) : FVec Ideal S2 .f32 :=
  concatenate S2 0
    [⟨S1, broadcastInDim S1 ![] bcast_S_S1 (Host.reduce FloatOps.minimumf x (constant (F := Ideal) S_ .f32 0x7F800000#32) reducesTo_S4000000_S_d0 h_S_)⟩,
     ⟨S1, broadcastInDim S1 ![] bcast_S_S1 (Host.reduce FloatOps.maximumf x (constant (F := Ideal) S_ .f32 0xFF800000#32) reducesTo_S4000000_S_d0 h_S_)⟩]
    concatenates_S1_S1_S2_d0

/-- Column j of the stiffness array as a vector. -/
def stiffCol (K : FVec Ideal S4000000x2 .f32) (j : ℕ) (hs : S4000000x2.Slices ![0, j] S4000000x1) : FVec Ideal S4000000 .f32 :=
  shapeCast S4000000 (extractStridedSlice S4000000x1 ![0, j] K hs) shapeCasts_S4000000x1_S4000000

/-! ## The later lines run from any contents -/

theorem tail_forces (Wv : Valuation τ sig (Elt Ideal)) :
    StableHlo.after (hostOps1 (F := Ideal)) Wv (Proc.devRef .tc main_v51)
      = nodeForces (Wv (Proc.devRef .tc main_v1)) (Wv (Proc.devRef .tc main_v3))
          (Wv (Proc.devRef .tc main_v36_0)) (Wv (Proc.devRef .tc main_v36_1)) := by
  after_results; rfl

theorem tail_disp (Wv : Valuation τ sig (Elt Ideal)) :
    StableHlo.after (hostOps1 (F := Ideal)) Wv (Proc.devRef .tc main_v70)
      = scaledDisp (Wv (Proc.devRef .tc main_arg0)) (Wv (Proc.devRef .tc main_arg7)) (Wv (Proc.devRef .tc main_arg8)) := by
  after_results; rfl

theorem tail_range0 (Wv : Valuation τ sig (Elt Ideal)) :
    StableHlo.after (hostOps1 (F := Ideal)) Wv (Proc.devRef .tc main_v79)
      = extremes (stiffCol (Wv (Proc.devRef .tc main_v36_2)) 0 slices_S4000000x2_S4000000x1_0_0) := by
  after_results; rfl

theorem tail_range1 (Wv : Valuation τ sig (Elt Ideal)) :
    StableHlo.after (hostOps1 (F := Ideal)) Wv (Proc.devRef .tc main_v84)
      = extremes (stiffCol (Wv (Proc.devRef .tc main_v36_2)) 1 slices_S4000000x2_S4000000x1_0_1) := by
  after_results; rfl

variable (m : (ℓ : Loc nD τ sig) → Buf (Elt Ideal) ℓ) (ρ : Dev nD → PrngReg)

/-! ## What the later lines find -/

section Found
variable (c : Dev nD)

theorem found_A : (Pipeline.withArrays (cfgs 0).spec c (V0 m c) fun w => (dats m 0 c).arrAt w (cfgs 0).N) (Proc.devRef .tc main_v36_0) = GA m c :=
  (Pipeline.withArrays_arr spec0 launch0.win.arr_inj c _ _ 5).trans (finalA m c)
theorem found_B : (Pipeline.withArrays (cfgs 0).spec c (V0 m c) fun w => (dats m 0 c).arrAt w (cfgs 0).N) (Proc.devRef .tc main_v36_1) = GB m c :=
  (Pipeline.withArrays_arr spec0 launch0.win.arr_inj c _ _ 6).trans (finalB m c)
theorem found_K : (Pipeline.withArrays (cfgs 0).spec c (V0 m c) fun w => (dats m 0 c).arrAt w (cfgs 0).N) (Proc.devRef .tc main_v36_2) = GK m c :=
  (Pipeline.withArrays_arr spec0 launch0.win.arr_inj c _ _ 7).trans (finalK m c)
theorem found_w1 : (Pipeline.withArrays (cfgs 0).spec c (V0 m c) fun w => (dats m 0 c).arrAt w (cfgs 0).N) (Proc.devRef .tc main_v1) = endWords (m ((c : Thread nD τ).loc main_arg5)) 0 slices_S4000000x2_S4000000x1_0_0 :=
  (Pipeline.withArrays_of_ne _ c (V0 m c) _ main_v1 (by exact (by decide : ∀ w, Pipeline.arrRef spec0 w ≠ main_v1))).trans (V_words0 m c)
theorem found_w3 : (Pipeline.withArrays (cfgs 0).spec c (V0 m c) fun w => (dats m 0 c).arrAt w (cfgs 0).N) (Proc.devRef .tc main_v3) = endWords (m ((c : Thread nD τ).loc main_arg5)) 1 slices_S4000000x2_S4000000x1_0_1 :=
  (Pipeline.withArrays_of_ne _ c (V0 m c) _ main_v3 (by exact (by decide : ∀ w, Pipeline.arrRef spec0 w ≠ main_v3))).trans (V_words1 m c)
theorem found_arg0 : (Pipeline.withArrays (cfgs 0).spec c (V0 m c) fun w => (dats m 0 c).arrAt w (cfgs 0).N) (Proc.devRef .tc main_arg0) = (m ((c : Thread nD τ).loc main_arg0)) :=
  (Pipeline.withArrays_of_ne _ c (V0 m c) _ main_arg0 (by exact (by decide : ∀ w, Pipeline.arrRef spec0 w ≠ main_arg0))).trans (V_arg0 m c)
theorem found_arg7 : (Pipeline.withArrays (cfgs 0).spec c (V0 m c) fun w => (dats m 0 c).arrAt w (cfgs 0).N) (Proc.devRef .tc main_arg7) = (m ((c : Thread nD τ).loc main_arg7)) :=
  (Pipeline.withArrays_of_ne _ c (V0 m c) _ main_arg7 (by exact (by decide : ∀ w, Pipeline.arrRef spec0 w ≠ main_arg7))).trans (V_arg7 m c)
theorem found_arg8 : (Pipeline.withArrays (cfgs 0).spec c (V0 m c) fun w => (dats m 0 c).arrAt w (cfgs 0).N) (Proc.devRef .tc main_arg8) = (m ((c : Thread nD τ).loc main_arg8)) :=
  (Pipeline.withArrays_of_ne _ c (V0 m c) _ main_arg8 (by exact (by decide : ∀ w, Pipeline.arrRef spec0 w ≠ main_arg8))).trans (V_arg8 m c)

end Found

/-! ## The five results -/

theorem result_forces (c : Dev nD) : Pipeline.afterTail₀ cfgs (dats m) 0 (V0 m) [hostOps1] c main_v51
    = nodeForces (endWords (m ((c : Thread nD τ).loc main_arg5)) 0 slices_S4000000x2_S4000000x1_0_0)
        (endWords (m ((c : Thread nD τ).loc main_arg5)) 1 slices_S4000000x2_S4000000x1_0_1) (GA m c) (GB m c) := by
  unfold Pipeline.afterTail₀
  show StableHlo.after hostOps1 (Pipeline.withArrays (cfgs 0).spec c (V0 m c) fun w => (dats m 0 c).arrAt w (cfgs 0).N) (Proc.devRef .tc main_v51) = _
  rw [tail_forces, found_w1, found_w3, found_A, found_B]

theorem result_disp (c : Dev nD) : Pipeline.afterTail₀ cfgs (dats m) 0 (V0 m) [hostOps1] c main_v70
    = scaledDisp (m ((c : Thread nD τ).loc main_arg0)) (m ((c : Thread nD τ).loc main_arg7)) (m ((c : Thread nD τ).loc main_arg8)) := by
  unfold Pipeline.afterTail₀
  show StableHlo.after hostOps1 (Pipeline.withArrays (cfgs 0).spec c (V0 m c) fun w => (dats m 0 c).arrAt w (cfgs 0).N) (Proc.devRef .tc main_v70) = _
  rw [tail_disp, found_arg0, found_arg7, found_arg8]

theorem result_range0 (c : Dev nD) : Pipeline.afterTail₀ cfgs (dats m) 0 (V0 m) [hostOps1] c main_v79
    = extremes (stiffCol (GK m c) 0 slices_S4000000x2_S4000000x1_0_0) := by
  unfold Pipeline.afterTail₀
  show StableHlo.after hostOps1 (Pipeline.withArrays (cfgs 0).spec c (V0 m c) fun w => (dats m 0 c).arrAt w (cfgs 0).N) (Proc.devRef .tc main_v79) = _
  rw [tail_range0, found_K]

theorem result_range1 (c : Dev nD) : Pipeline.afterTail₀ cfgs (dats m) 0 (V0 m) [hostOps1] c main_v84
    = extremes (stiffCol (GK m c) 1 slices_S4000000x2_S4000000x1_0_1) := by
  unfold Pipeline.afterTail₀
  show StableHlo.after hostOps1 (Pipeline.withArrays (cfgs 0).spec c (V0 m c) fun w => (dats m 0 c).arrAt w (cfgs 0).N) (Proc.devRef .tc main_v84) = _
  rw [tail_range1, found_K]

end Cert.KernelIdeal.EdgeValue

end
-- ==== Proof.LibGatherCell.lean ====
/-
  A gather of single cells of a two-axis array by pairs of indices, read at an entry.

  What x[rows, j] of an array x : [N, C] at an integer vector rows : [R] and one column number j lowers to: the pairs
  (rows[e], j) laid along a last axis of extent 2 ([R, 2]), both axes of the operand collapsed (slice sizes [1, 1]),
  no offset axis: the result is a vector [R]. Its entry e is x at the row the pair's first component names and the
  column its second component names, each component read as a signed integer and clamped into its axis, as the
  gather clamps every start index.
-/
import Idealize.ShloMosaic.Lib.ValueIdx

open Idealize.ShloMosaic Idealize.ShloMosaic.ValueIdx

namespace Cert.GatherCell

variable {α : Type}

/-- Those dimension numbers for an operand [N, C], start indices [R, 2] and result [R]. -/
abbrev cellDims (N C R : Nat)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE GATHER READ AT e: the operand at the pair's two components, each read signed and clamped into its axis. -/
theorem gather_cell_apply {N C R w : Nat} (hN : 0 < N) (hC : 0 < C)
    (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (e : Fin R) :
    Host.gather (cellDims N C R wf) x idx (ix1 e)
      = x (ix2 ⟨min (idx (ix2 e (0 : Fin 2))).toInt.toNat (N - 1), by omega⟩
               ⟨min (idx (ix2 e (1 : Fin 2))).toInt.toNat (C - 1), by omega⟩) := by
  unfold Host.gather
  refine congrArg x ?_
  funext a
  refine Fin.ext ?_
  have h0 : (0 : Fin 2) ∈ (cellDims N C R wf).startIndexMap := List.mem_cons_self
  have h1 : (1 : Fin 2) ∈ (cellDims N C R wf).startIndexMap := List.mem_cons_of_mem _ List.mem_cons_self
  match a with
  | ⟨0, _⟩ =>
    show (cellDims N C R wf).start (ix1 e) idx 0 + (cellDims N C R wf).batchCoord (ix1 e) 0
      + (cellDims N C R wf).offCoord (ix1 e) 0 = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos h0]
    have hsi : (cellDims N C R wf).siIdx (ix1 e) ⟨List.idxOf (0 : Fin 2) (cellDims N C R wf).startIndexMap,
        List.idxOf_lt_length_iff.2 h0⟩ = ix2 e (0 : Fin 2) := by
      funext b; refine Fin.ext ?_
      match b with
      | ⟨0, _⟩ => rfl
      | ⟨1, _⟩ => rfl
    rw [hsi]
    rfl
  | ⟨1, _⟩ =>
    show (cellDims N C R wf).start (ix1 e) idx 1 + (cellDims N C R wf).batchCoord (ix1 e) 1
      + (cellDims N C R wf).offCoord (ix1 e) 1 = _
    rw [GatherDims.batchCoord_eq_zero _ _ _ List.not_mem_nil,
      GatherDims.offCoord_eq_zero _ _ _ (fun h => ((GatherDims.mem_sKept _ _).mp h).1
        (List.mem_cons_of_mem _ List.mem_cons_self))]
    simp only [Nat.add_zero]
    unfold GatherDims.start
    rw [dif_pos h1]
    have hsi : (cellDims N C R wf).siIdx (ix1 e) ⟨List.idxOf (1 : Fin 2) (cellDims N C R wf).startIndexMap,
        List.idxOf_lt_length_iff.2 h1⟩ = ix2 e (1 : Fin 2) := by
      funext b; refine Fin.ext ?_
      match b with
      | ⟨0, _⟩ => rfl
      | ⟨1, _⟩ => rfl
    rw [hsi]
    rfl

end Cert.GatherCell
-- ==== Proof.EdgeRef.lean ====
/-
  The reference program, edge by edge.

  The reference reads each edge's data one number at a time: entry (node, j) of a node table by a gather of single cells
  at the pairs (the edge's word, wrapped; j). Entry e of each of its intermediate vectors is the corresponding
  quantity of edge e — its length, direction, stiffnesses, end displacements in its own frame, local end forces — and
  row e of the two arrays of per-edge forces it builds (three vectors kept as columns and joined) holds the forces on
  the edge's two nodes. It writes the negative of x as −x.
-/
import proofs.«101908_j42734924595228_2_alg».proof.Proof.Gen.ReferenceIdeal.Run
import proofs.«101908_j42734924595228_2_alg».proof.Proof.EdgeIndex
import proofs.«101908_j42734924595228_2_alg».proof.Proof.LibGatherCell
import proofs.«101908_j42734924595228_2_alg».proof.Proof.LibKeepdims
import proofs.«101908_j42734924595228_2_alg».proof.Proof.LibColumns
import Idealize.ShloMosaic.Lib.ValueIdx
import Idealize.ShloMosaic.Lib.IdealHost

set_option maxRecDepth 16384
set_option maxHeartbeats 4000000

noncomputable section

namespace Cert.ReferenceIdeal.EdgeValue

open Cert.ReferenceIdeal Cert.ReferenceIdeal.Gen Cert.ReferenceIdeal.Value Cert.BeamEdge
open Idealize.ShloMosaic Idealize.ShloMosaic.TcCoe Idealize.ShloMosaic.ValueIdx Idealize.ShloMosaic.StableHlo
open Idealize.SL Idealize.SL.Sem

/-! ## Entry by entry -/

theorem sqrt_at (x : FVec Ideal S4000000 .f32) (i : S4000000.Idx) : Host.sqrt x i = Ideal.sqrt (x i) := rfl
theorem neg_at (x : FVec Ideal S4000000 .f32) (i : S4000000.Idx) : Host.negf x i = -(x i) := rfl
theorem div_at (x y : FVec Ideal S4000000 .f32) (i : S4000000.Idx) : Host.divf x y i = Ideal.div (x i) (y i) := rfl
theorem lit_at (w : BitVec 32) (i : S4000000.Idx) :
    broadcastInDim S4000000 ![] bcast_S_S4000000 (constant (F := Ideal) S_ .f32 w) i = Ideal.ofBits .f32 w := rfl

/-! ## Reading one cell of a node table -/

/-- Column j of the edge list as a vector of words. -/
def endWordsR (conn : IVec S4000000x2 32) (j : ℕ) (hs : S4000000x2.Slices ![0, j] S4000000x1) : IVec S4000000 32 :=
  shapeCast S4000000 (extractStridedSlice S4000000x1 ![0, j] conn hs) shapeCasts_S4000000x1_S4000000

/-- The pairs (word, wrapped; k) for a vector of words and one column number. -/
def pairIdx (W : IVec S4000000 32) (k : BitVec 32) : IVec S4000000x2 32 :=
  concatenate S4000000x2 1
    [⟨S4000000x1, broadcastInDim S4000000x1 ![0] bcast_S4000000_S4000000x1_0
        (select (cmpi .slt W (broadcastInDim S4000000 ![] bcast_S_S4000000 (constantI S_ 32 0#32)))
          (addi W (broadcastInDim S4000000 ![] bcast_S_S4000000 (constantI S_ 32 500000#32))) W)⟩,
     ⟨S4000000x1, broadcastInDim S4000000x1 ![0] bcast_S4000000_S4000000x1_0
        (id (broadcastInDim S4000000 ![] bcast_S_S4000000 (constantI S_ 32 k)))⟩]
    concatenates_S4000000x1_S4000000x1_S4000000x2_d1

/-- The gather of single cells at those pairs: entry e is the table at the node edge e's word j names and column k. -/
theorem take_cell_apply (tab : FVec Ideal S500000x3 .f32) (conn : IVec S4000000x2 32) (j : ℕ) (hj : j < 2)
    (hs : S4000000x2.Slices ![0, j] S4000000x1) (k : BitVec 32) (e : Fin 4000000) :
    Host.gather gather_S500000x3_S4000000x2_S4000000_n_01_n_n_01_1_11 tab (pairIdx (endWordsR conn j hs) k) (ix1 e)
      = tab (ix2 (nodeOfWord (conn (ix2 e ⟨j, hj⟩))) (colOfWord k)) := by
  refine (Cert.GatherCell.gather_cell_apply (N := 500000) (C := 3) (R := 4000000) (by omega) (by omega)
    gather_S500000x3_S4000000x2_S4000000_n_01_n_n_01_1_11_wf tab _ e).trans ?_
  have h0 : pairIdx (endWordsR conn j hs) k (ix2 e (0 : Fin 2)) = wrapWord (conn (ix2 e ⟨j, hj⟩)) := by
    unfold pairIdx
    rw [Cert.Columns.join2_apply0, Cert.Keepdims.host_column_apply]
    unfold endWordsR
    rw [Cert.Columns.column_eq conn j hj]
    rfl
  have h1 : pairIdx (endWordsR conn j hs) k (ix2 e (1 : Fin 2)) = k := by
    unfold pairIdx
    rw [Cert.Columns.join2_apply1, Cert.Keepdims.host_column_apply]
    rfl
  refine congrArg₂ (fun (p : Fin 500000) (q : Fin 3) => tab (ix2 p q)) (Fin.ext ?_) (Fin.ext ?_)
  · show min (pairIdx (endWordsR conn j hs) k (ix2 e (0 : Fin 2))).toInt.toNat (500000 - 1) = min (wrapWord (conn (ix2 e ⟨j, hj⟩))).toInt.toNat (500000 - 1)
    rw [h0]
  · show min (pairIdx (endWordsR conn j hs) k (ix2 e (1 : Fin 2))).toInt.toNat (3 - 1) = min k.toInt.toNat (3 - 1)
    rw [h1]

variable (V0 : Valuation τ sig (Elt Ideal)) (e : Fin 4000000)

/-- Edge e, read off the program's arguments. -/
def edgeAt : Edge :=
  argsEdge (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) e

/-! ## The intermediate vectors at edge e -/

theorem ref_ua0 : res_main_v89 V0 (ix1 e) = (edgeAt V0 e).ua0 := by
  unfold res_main_v89
  refine (take_cell_apply _ _ 0 (by omega) _ 0#32 e).trans ?_
  rw [colOfWord_zero]
  rfl

theorem ref_ua1 : res_main_v100 V0 (ix1 e) = (edgeAt V0 e).ua1 := by
  unfold res_main_v100
  refine (take_cell_apply _ _ 0 (by omega) _ 1#32 e).trans ?_
  rw [colOfWord_one]
  rfl

theorem ref_ta : res_main_v112 V0 (ix1 e) = (edgeAt V0 e).ta := by
  unfold res_main_v112
  show (-((Host.gather gather_S500000x3_S4000000x2_S4000000_n_01_n_n_01_1_11 (V0 (Proc.devRef .tc main_arg0)) (pairIdx (endWordsR (V0 (Proc.devRef .tc main_arg5)) 0 slices_S4000000x2_S4000000x1_0_0) 2#32) (ix1 e)) : EReal)) = _
  rw [take_cell_apply _ _ 0 (by omega) _ 2#32 e, colOfWord_two]
  rfl

theorem ref_ub0 : res_main_v123 V0 (ix1 e) = (edgeAt V0 e).ub0 := by
  unfold res_main_v123
  refine (take_cell_apply _ _ 1 (by omega) _ 0#32 e).trans ?_
  rw [colOfWord_zero]
  rfl

theorem ref_ub1 : res_main_v134 V0 (ix1 e) = (edgeAt V0 e).ub1 := by
  unfold res_main_v134
  refine (take_cell_apply _ _ 1 (by omega) _ 1#32 e).trans ?_
  rw [colOfWord_one]
  rfl

theorem ref_tb : res_main_v146 V0 (ix1 e) = (edgeAt V0 e).tb := by
  unfold res_main_v146
  show (-((Host.gather gather_S500000x3_S4000000x2_S4000000_n_01_n_n_01_1_11 (V0 (Proc.devRef .tc main_arg0)) (pairIdx (endWordsR (V0 (Proc.devRef .tc main_arg5)) 1 slices_S4000000x2_S4000000x1_0_1) 2#32) (ix1 e)) : EReal)) = _
  rw [take_cell_apply _ _ 1 (by omega) _ 2#32 e, colOfWord_two]
  rfl

theorem ref_dx : res_main_v26 V0 (ix1 e) = (edgeAt V0 e).bx - (edgeAt V0 e).ax := by
  unfold res_main_v26
  show ((Host.gather gather_S500000x3_S4000000x2_S4000000_n_01_n_n_01_1_11 (V0 (Proc.devRef .tc main_arg1)) (pairIdx (endWordsR (V0 (Proc.devRef .tc main_arg5)) 1 slices_S4000000x2_S4000000x1_0_1) 0#32) (ix1 e) : EReal)
    - (Host.gather gather_S500000x3_S4000000x2_S4000000_n_01_n_n_01_1_11 (V0 (Proc.devRef .tc main_arg1)) (pairIdx (endWordsR (V0 (Proc.devRef .tc main_arg5)) 0 slices_S4000000x2_S4000000x1_0_0) 0#32) (ix1 e) : EReal)) = _
  rw [take_cell_apply _ _ 1 (by omega) _ 0#32 e, take_cell_apply _ _ 0 (by omega) _ 0#32 e, colOfWord_zero]
  rfl

theorem ref_dz : res_main_v49 V0 (ix1 e) = (edgeAt V0 e).bz - (edgeAt V0 e).az := by
  unfold res_main_v49
  show ((Host.gather gather_S500000x3_S4000000x2_S4000000_n_01_n_n_01_1_11 (V0 (Proc.devRef .tc main_arg1)) (pairIdx (endWordsR (V0 (Proc.devRef .tc main_arg5)) 1 slices_S4000000x2_S4000000x1_0_1) 2#32) (ix1 e) : EReal)
    - (Host.gather gather_S500000x3_S4000000x2_S4000000_n_01_n_n_01_1_11 (V0 (Proc.devRef .tc main_arg1)) (pairIdx (endWordsR (V0 (Proc.devRef .tc main_arg5)) 0 slices_S4000000x2_S4000000x1_0_0) 2#32) (ix1 e) : EReal)) = _
  rw [take_cell_apply _ _ 1 (by omega) _ 2#32 e, take_cell_apply _ _ 0 (by omega) _ 2#32 e, colOfWord_two]
  rfl

theorem ref_ei : res_main_v63 V0 (ix1 e) = (edgeAt V0 e).E * (edgeAt V0 e).I := rfl

theorem ref_l : res_main_v55 V0 (ix1 e) = (edgeAt V0 e).l := by
  unfold res_main_v55
  simp only [mulf_apply, addf_apply, subf_apply, sqrt_at, neg_at, div_at, lit_at, ref_dx V0 e, ref_dz V0 e]
  try rfl

theorem ref_c : res_main_v58 V0 (ix1 e) = (edgeAt V0 e).c := by
  unfold res_main_v58
  simp only [mulf_apply, addf_apply, subf_apply, sqrt_at, neg_at, div_at, lit_at, ref_dx V0 e, ref_l V0 e]
  try rfl

theorem ref_s : res_main_v61 V0 (ix1 e) = (edgeAt V0 e).s := by
  unfold res_main_v61
  simp only [mulf_apply, addf_apply, subf_apply, sqrt_at, neg_at, div_at, lit_at, ref_dz V0 e, ref_l V0 e]
  try rfl

theorem ref_kax : res_main_v66 V0 (ix1 e) = (edgeAt V0 e).kAx := by
  unfold res_main_v66
  simp only [mulf_apply, addf_apply, subf_apply, sqrt_at, neg_at, div_at, lit_at, ref_l V0 e]
  try rfl

theorem ref_kbend : res_main_v69 V0 (ix1 e) = (edgeAt V0 e).kBend := by
  unfold res_main_v69
  simp only [mulf_apply, addf_apply, subf_apply, sqrt_at, neg_at, div_at, lit_at, ref_ei V0 e, ref_l V0 e]
  try rfl

theorem ref_ksw : res_main_v73 V0 (ix1 e) = (edgeAt V0 e).kSw := by
  unfold res_main_v73
  simp only [mulf_apply, addf_apply, subf_apply, sqrt_at, neg_at, div_at, lit_at, ref_ei V0 e, ref_l V0 e]
  try rfl

theorem ref_ktr : res_main_v78 V0 (ix1 e) = (edgeAt V0 e).kTr := by
  unfold res_main_v78
  simp only [mulf_apply, addf_apply, subf_apply, sqrt_at, neg_at, div_at, lit_at, ref_ei V0 e, ref_l V0 e]
  try rfl

theorem ref_ua : res_main_v149 V0 (ix1 e) = (edgeAt V0 e).ua := by
  unfold res_main_v149
  simp only [mulf_apply, addf_apply, subf_apply, sqrt_at, neg_at, div_at, lit_at, ref_c V0 e, ref_s V0 e, ref_ua0 V0 e, ref_ua1 V0 e]
  try rfl

theorem ref_wa : res_main_v153 V0 (ix1 e) = (edgeAt V0 e).wa := by
  unfold res_main_v153
  simp only [mulf_apply, addf_apply, subf_apply, sqrt_at, neg_at, div_at, lit_at, ref_c V0 e, ref_s V0 e, ref_ua0 V0 e, ref_ua1 V0 e]
  try rfl

theorem ref_ub : res_main_v156 V0 (ix1 e) = (edgeAt V0 e).ub := by
  unfold res_main_v156
  simp only [mulf_apply, addf_apply, subf_apply, sqrt_at, neg_at, div_at, lit_at, ref_c V0 e, ref_s V0 e, ref_ub0 V0 e, ref_ub1 V0 e]
  try rfl

theorem ref_wb : res_main_v160 V0 (ix1 e) = (edgeAt V0 e).wb := by
  unfold res_main_v160
  simp only [mulf_apply, addf_apply, subf_apply, sqrt_at, neg_at, div_at, lit_at, ref_c V0 e, ref_s V0 e, ref_ub0 V0 e, ref_ub1 V0 e]
  try rfl

theorem ref_f0 : res_main_v162 V0 (ix1 e) = (edgeAt V0 e).f0 := by
  unfold res_main_v162
  simp only [mulf_apply, addf_apply, subf_apply, sqrt_at, neg_at, div_at, lit_at, ref_kax V0 e, ref_ua V0 e, ref_ub V0 e]
  try rfl

theorem ref_f3 : res_main_v164 V0 (ix1 e) = (edgeAt V0 e).f3 := by
  unfold res_main_v164
  simp only [mulf_apply, addf_apply, subf_apply, sqrt_at, neg_at, div_at, lit_at, ref_kax V0 e, ref_ua V0 e, ref_ub V0 e]
  try rfl

theorem ref_f1 : res_main_v173 V0 (ix1 e) = (edgeAt V0 e).f1 := by
  unfold res_main_v173
  simp only [mulf_apply, addf_apply, subf_apply, sqrt_at, neg_at, div_at, lit_at, ref_ktr V0 e, ref_ksw V0 e, ref_wa V0 e, ref_wb V0 e, ref_ta V0 e, ref_tb V0 e]
  try rfl

theorem ref_f4 : res_main_v182 V0 (ix1 e) = (edgeAt V0 e).f4 := by
  unfold res_main_v182
  simp only [mulf_apply, addf_apply, subf_apply, sqrt_at, neg_at, div_at, lit_at, ref_ktr V0 e, ref_ksw V0 e, ref_wa V0 e, ref_wb V0 e, ref_ta V0 e, ref_tb V0 e]
  try rfl

/-! ## The two arrays of per-edge forces -/

/-- The forces on the edges' first nodes, as the reference lays them out. -/
def refFA : FVec Ideal S4000000x3 .f32 :=
  concatenate S4000000x3 1 [⟨S4000000x1, (broadcastInDim S4000000x1 ![0] bcast_S4000000_S4000000x1_0 (subf (mulf (res_main_v58 V0) (res_main_v162 V0)) (mulf (res_main_v61 V0) (res_main_v173 V0))))⟩, ⟨S4000000x1, (broadcastInDim S4000000x1 ![0] bcast_S4000000_S4000000x1_0 (addf (mulf (res_main_v61 V0) (res_main_v162 V0)) (mulf (res_main_v58 V0) (res_main_v173 V0))))⟩, ⟨S4000000x1, (broadcastInDim S4000000x1 ![0] bcast_S4000000_S4000000x1_0 (addf (mulf (mulf (broadcastInDim S4000000 ![] bcast_S_S4000000 (constant S_ .f32 0x40C00000#32)) (res_main_v73 V0)) (subf (res_main_v153 V0) (res_main_v160 V0))) (mulf (res_main_v69 V0) (addf (mulf (broadcastInDim S4000000 ![] bcast_S_S4000000 (constant S_ .f32 0x40800000#32)) (res_main_v112 V0)) (mulf (broadcastInDim S4000000 ![] bcast_S_S4000000 (constant S_ .f32 0x40000000#32)) (res_main_v146 V0))))))⟩] concatenates_S4000000x1_S4000000x1_S4000000x1_S4000000x3_d1

/-- The forces on the edges' second nodes. -/
def refFB : FVec Ideal S4000000x3 .f32 :=
  concatenate S4000000x3 1 [⟨S4000000x1, (broadcastInDim S4000000x1 ![0] bcast_S4000000_S4000000x1_0 (subf (mulf (res_main_v58 V0) (res_main_v164 V0)) (mulf (res_main_v61 V0) (res_main_v182 V0))))⟩, ⟨S4000000x1, (broadcastInDim S4000000x1 ![0] bcast_S4000000_S4000000x1_0 (addf (mulf (res_main_v61 V0) (res_main_v164 V0)) (mulf (res_main_v58 V0) (res_main_v182 V0))))⟩, ⟨S4000000x1, (broadcastInDim S4000000x1 ![0] bcast_S4000000_S4000000x1_0 (addf (mulf (mulf (broadcastInDim S4000000 ![] bcast_S_S4000000 (constant S_ .f32 0x40C00000#32)) (res_main_v73 V0)) (subf (res_main_v153 V0) (res_main_v160 V0))) (mulf (res_main_v69 V0) (addf (mulf (broadcastInDim S4000000 ![] bcast_S_S4000000 (constant S_ .f32 0x40000000#32)) (res_main_v112 V0)) (mulf (broadcastInDim S4000000 ![] bcast_S_S4000000 (constant S_ .f32 0x40800000#32)) (res_main_v146 V0))))))⟩] concatenates_S4000000x1_S4000000x1_S4000000x1_S4000000x3_d1

theorem refFA_apply0 : refFA V0 (ix2 e (0 : Fin 3)) = (edgeAt V0 e).forceA 0 := by
  unfold refFA
  rw [Cert.Columns.join3_apply0, Cert.Keepdims.host_column_apply]
  simp only [mulf_apply, addf_apply, subf_apply, sqrt_at, neg_at, div_at, lit_at, ref_c V0 e, ref_s V0 e, ref_f0 V0 e, ref_f1 V0 e, ref_ksw V0 e, ref_kbend V0 e, ref_wa V0 e, ref_wb V0 e, ref_ta V0 e, ref_tb V0 e]
  try rfl

theorem refFB_apply0 : refFB V0 (ix2 e (0 : Fin 3)) = (edgeAt V0 e).forceB 0 := by
  unfold refFB
  rw [Cert.Columns.join3_apply0, Cert.Keepdims.host_column_apply]
  simp only [mulf_apply, addf_apply, subf_apply, sqrt_at, neg_at, div_at, lit_at, ref_c V0 e, ref_s V0 e, ref_f3 V0 e, ref_f4 V0 e, ref_ksw V0 e, ref_kbend V0 e, ref_wa V0 e, ref_wb V0 e, ref_ta V0 e, ref_tb V0 e]
  try rfl

theorem refFA_apply1 : refFA V0 (ix2 e (1 : Fin 3)) = (edgeAt V0 e).forceA 1 := by
  unfold refFA
  rw [Cert.Columns.join3_apply1, Cert.Keepdims.host_column_apply]
  simp only [mulf_apply, addf_apply, subf_apply, sqrt_at, neg_at, div_at, lit_at, ref_c V0 e, ref_s V0 e, ref_f0 V0 e, ref_f1 V0 e, ref_ksw V0 e, ref_kbend V0 e, ref_wa V0 e, ref_wb V0 e, ref_ta V0 e, ref_tb V0 e]
  try rfl

theorem refFB_apply1 : refFB V0 (ix2 e (1 : Fin 3)) = (edgeAt V0 e).forceB 1 := by
  unfold refFB
  rw [Cert.Columns.join3_apply1, Cert.Keepdims.host_column_apply]
  simp only [mulf_apply, addf_apply, subf_apply, sqrt_at, neg_at, div_at, lit_at, ref_c V0 e, ref_s V0 e, ref_f3 V0 e, ref_f4 V0 e, ref_ksw V0 e, ref_kbend V0 e, ref_wa V0 e, ref_wb V0 e, ref_ta V0 e, ref_tb V0 e]
  try rfl

theorem refFA_apply2 : refFA V0 (ix2 e (2 : Fin 3)) = (edgeAt V0 e).forceA 2 := by
  unfold refFA
  rw [Cert.Columns.join3_apply2, Cert.Keepdims.host_column_apply]
  simp only [mulf_apply, addf_apply, subf_apply, sqrt_at, neg_at, div_at, lit_at, ref_c V0 e, ref_s V0 e, ref_f0 V0 e, ref_f1 V0 e, ref_ksw V0 e, ref_kbend V0 e, ref_wa V0 e, ref_wb V0 e, ref_ta V0 e, ref_tb V0 e]
  try rfl

theorem refFB_apply2 : refFB V0 (ix2 e (2 : Fin 3)) = (edgeAt V0 e).forceB 2 := by
  unfold refFB
  rw [Cert.Columns.join3_apply2, Cert.Keepdims.host_column_apply]
  simp only [mulf_apply, addf_apply, subf_apply, sqrt_at, neg_at, div_at, lit_at, ref_c V0 e, ref_s V0 e, ref_f3 V0 e, ref_f4 V0 e, ref_ksw V0 e, ref_kbend V0 e, ref_wa V0 e, ref_wb V0 e, ref_ta V0 e, ref_tb V0 e]
  try rfl

/-- The first array is, entry by entry, the forces on the edges' first nodes. -/
theorem refFA_eq : refFA V0 = forcesA (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  funext i
  rw [eq_ix2 i]
  show refFA V0 (ix2 (i 0) (i 1)) = (edgeAt V0 (i 0)).forceA (i 1)
  match (i 1) with
  | ⟨0, _⟩ => exact refFA_apply0 V0 (i 0)
  | ⟨1, _⟩ => exact refFA_apply1 V0 (i 0)
  | ⟨2, _⟩ => exact refFA_apply2 V0 (i 0)

theorem refFB_eq : refFB V0 = forcesB (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  funext i
  rw [eq_ix2 i]
  show refFB V0 (ix2 (i 0) (i 1)) = (edgeAt V0 (i 0)).forceB (i 1)
  match (i 1) with
  | ⟨0, _⟩ => exact refFB_apply0 V0 (i 0)
  | ⟨1, _⟩ => exact refFB_apply1 V0 (i 0)
  | ⟨2, _⟩ => exact refFB_apply2 V0 (i 0)

/-- The vector of axial stiffnesses, and of bending stiffnesses. -/
theorem ref_kax_eq : res_main_v66 V0 = stiffAx (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  funext i
  rw [eq_ix1 i]
  exact ref_kax V0 (i 0)

theorem ref_kbend_eq : res_main_v69 V0 = stiffBend (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  funext i
  rw [eq_ix1 i]
  exact ref_kbend V0 (i 0)

/-- The reference's table of node forces, with its two arrays of per-edge forces named. -/
theorem forces_named : val6 V0 (Proc.devRef .tc main_v239)
    = Host.scatterAdd scatter_S500000x3_S4000000x1_S4000000x3_1_0_0_1
        (Host.scatterAdd scatter_S500000x3_S4000000x1_S4000000x3_1_0_0_1
          (broadcastInDim S500000x3 ![] bcast_S_S500000x3 (constant (F := Ideal) S_ .f32 0x00000000#32))
          (broadcastInDim S4000000x1 ![0] bcast_S4000000_S4000000x1_0 (select (cmpi .slt (res_main_v1 V0) (broadcastInDim S4000000 ![] bcast_S_S4000000 (constantI S_ 32 0#32))) (addi (res_main_v1 V0) (broadcastInDim S4000000 ![] bcast_S_S4000000 (constantI S_ 32 500000#32))) (res_main_v1 V0)))
          (refFA V0))
        (broadcastInDim S4000000x1 ![0] bcast_S4000000_S4000000x1_0 (select (cmpi .slt (res_main_v3 V0) (broadcastInDim S4000000 ![] bcast_S_S4000000 (constantI S_ 32 0#32))) (addi (res_main_v3 V0) (broadcastInDim S4000000 ![] bcast_S_S4000000 (constantI S_ 32 500000#32))) (res_main_v3 V0)))
        (refFB V0) :=
  val6_main_v239 V0

end Cert.ReferenceIdeal.EdgeValue

end
-- ==== Proof.EdgeBridge.lean ====
/-
  The two programs end with the same five results.

  Both programs' results are the same functions — the node forces added up from two arrays of per-edge forces at the
  rows the edge list names, the scaled displacements, the extremes of the two stiffness vectors — applied to
  arrays that are, entry by entry, the same quantities of the same edges: on the kernel's side what the 800 grid
  points wrote back from whole rows taken out of the node tables, on the reference's side vectors built one cell at a
  time. The only differences in the arithmetic are the spelling of a negative (0 − x against −x) and of a row's entry
  (a row taken whole and its column read off, against the cell read directly); neither changes a value on the
  extended reals, so no finiteness of the inputs is used.
-/
import proofs.«101908_j42734924595228_2_alg».proof.Proof.EdgeTail
import proofs.«101908_j42734924595228_2_alg».proof.Proof.EdgeRef

set_option maxRecDepth 16384
set_option maxHeartbeats 4000000

noncomputable section

namespace Cert.KernelIdeal.EdgeValue

open Cert.KernelIdeal Cert.KernelIdeal.Gen Cert.KernelIdeal.Edge Cert.BeamEdge
open Idealize.ShloMosaic Idealize.ShloMosaic.TcCoe Idealize.ShloMosaic.ValueIdx
open Idealize.SL Idealize.SL.Sem

variable (m : (ℓ : Loc nD τ sig) → Buf (Elt Ideal) ℓ)

/-! ## The kernel's results from the arguments -/

theorem GA_eq (c : Dev nD) : GA m c = forcesA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  exact congrArg (fun d : Edge => d.forceA (i 1)) (inputs_edge m c (i 0))

theorem GB_eq (c : Dev nD) : GB m c = forcesB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  exact congrArg (fun d : Edge => d.forceB (i 1)) (inputs_edge m c (i 0))

theorem GK_col0 (c : Dev nD) : stiffCol (GK m c) 0 slices_S4000000x2_S4000000x1_0_0 = stiffAx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  rw [eq_ix1 i]
  unfold stiffCol
  refine (Cert.Columns.column_apply (GK m c) 0 (by omega) _ _ (i 0)).trans ?_
  exact congrArg (fun d : Edge => d.kAx) (inputs_edge m c (i 0))

theorem GK_col1 (c : Dev nD) : stiffCol (GK m c) 1 slices_S4000000x2_S4000000x1_0_1 = stiffBend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  rw [eq_ix1 i]
  unfold stiffCol
  refine (Cert.Columns.column_apply (GK m c) 1 (by omega) _ _ (i 0)).trans ?_
  exact congrArg (fun d : Edge => d.kBend) (inputs_edge m c (i 0))

/-- The five results, on core c, as functions of the arguments. -/
def outForces (c : Dev nD) : FVec Ideal S500000x3 .f32 :=
  nodeForces (endWords (m ((c : Thread nD τ).loc main_arg5)) 0 slices_S4000000x2_S4000000x1_0_0)
    (endWords (m ((c : Thread nD τ).loc main_arg5)) 1 slices_S4000000x2_S4000000x1_0_1) (forcesA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (forcesB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
def outDisp (c : Dev nD) : FVec Ideal S500000x3 .f32 := scaledDisp (m ((c : Thread nD τ).loc main_arg0)) (m ((c : Thread nD τ).loc main_arg7)) (m ((c : Thread nD τ).loc main_arg8))
def outAx (c : Dev nD) : FVec Ideal S2 .f32 := extremes (stiffAx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
def outBend (c : Dev nD) : FVec Ideal S2 .f32 := extremes (stiffBend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

theorem kernel_forces (c : Dev nD) : Pipeline.afterTail₀ cfgs (dats m) 0 (V0 m) [hostOps1] c main_v51 = outForces m c := by
  rw [result_forces, GA_eq, GB_eq]; rfl
theorem kernel_disp (c : Dev nD) : Pipeline.afterTail₀ cfgs (dats m) 0 (V0 m) [hostOps1] c main_v70 = outDisp m c :=
  result_disp m c
theorem kernel_ax (c : Dev nD) : Pipeline.afterTail₀ cfgs (dats m) 0 (V0 m) [hostOps1] c main_v79 = outAx m c := by
  rw [result_range0, GK_col0]; rfl
theorem kernel_bend (c : Dev nD) : Pipeline.afterTail₀ cfgs (dats m) 0 (V0 m) [hostOps1] c main_v84 = outBend m c := by
  rw [result_range1, GK_col1]; rfl

end Cert.KernelIdeal.EdgeValue

namespace Cert.ReferenceIdeal.EdgeValue

open Cert.ReferenceIdeal Cert.ReferenceIdeal.Gen Cert.ReferenceIdeal.Value Cert.BeamEdge
open Idealize.ShloMosaic Idealize.ShloMosaic.TcCoe Idealize.ShloMosaic.ValueIdx Idealize.ShloMosaic.StableHlo
open Idealize.SL Idealize.SL.Sem

variable (V0 : Valuation τ sig (Elt Ideal))

/-! ## The reference's results in the same words -/

theorem ref_forces_final : val6 V0 (Proc.devRef .tc main_v239)
    = Cert.KernelIdeal.EdgeValue.nodeForces (Cert.KernelIdeal.EdgeValue.endWords (V0 (Proc.devRef .tc main_arg5)) 0 Cert.KernelIdeal.Facts₀.slices_S4000000x2_S4000000x1_0_0)
        (Cert.KernelIdeal.EdgeValue.endWords (V0 (Proc.devRef .tc main_arg5)) 1 Cert.KernelIdeal.Facts₀.slices_S4000000x2_S4000000x1_0_1)
        (forcesA (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (forcesB (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) := by
  rw [forces_named, refFA_eq, refFB_eq]
  rfl

theorem ref_disp_final : val6 V0 (Proc.devRef .tc main_v258) = Cert.KernelIdeal.EdgeValue.scaledDisp (V0 (Proc.devRef .tc main_arg0)) (V0 (Proc.devRef .tc main_arg7)) (V0 (Proc.devRef .tc main_arg8)) :=
  (val6_main_v258 V0).trans rfl

theorem ref_ax_final : val6 V0 (Proc.devRef .tc main_v263) = Cert.KernelIdeal.EdgeValue.extremes (stiffAx (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) := by
  rw [val6_main_v263, ref_kax_eq]
  rfl

theorem ref_bend_final : val6 V0 (Proc.devRef .tc main_v268) = Cert.KernelIdeal.EdgeValue.extremes (stiffBend (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) := by
  rw [val6_main_v268, ref_kbend_eq]
  rfl

end Cert.ReferenceIdeal.EdgeValue

end
-- ==== Proof.lean ====
/-
  Nodal forces of a plane frame of two-node beams: a blocked per-edge kernel against the plain formula.

  For each of four million edges the program takes the displacement and coordinate rows of the edge's two end nodes
  out of tables of half a million nodes, computes the element's end forces from them and from the edge's three
  material properties, and adds the forces into a table of node forces; it also scales the node displacements and
  reports the extreme axial and bending stiffnesses. One program does the per-edge arithmetic in a kernel over
  blocks of 5000 edges, fed by whole-row gathers; the other is the formula written out over whole vectors, reading
  the tables one cell at a time. On the extended reals, every operation exact, the two compute the same numbers:
  entry by entry the kernel's result arrays and the reference's vectors are the same quantities of the same
  edges, and the remaining lines of the two programs are the same functions. The three frames: each program runs to
  the end and leaves its arguments alone — the kernel programs because every grid point reads its five input
  blocks, stores its three output blocks whole, and touches nothing else; the reference because it has no kernel.
-/
import proofs.«101908_j42734924595228_2_alg».proof.Defs
import proofs.«101908_j42734924595228_2_alg».proof.Proof.Gen.Kernel
import proofs.«101908_j42734924595228_2_alg».proof.Proof.Gen.KernelIdeal
import proofs.«101908_j42734924595228_2_alg».proof.Proof.Gen.ReferenceIdeal
import proofs.«101908_j42734924595228_2_alg».proof.Proof.Gen.ReferenceIdeal.Run
import proofs.«101908_j42734924595228_2_alg».proof.Proof.Gen.Pre_finite_inputs
import proofs.«101908_j42734924595228_2_alg».proof.Proof.EdgeRunBits
import proofs.«101908_j42734924595228_2_alg».proof.Proof.EdgeRunIdeal
import proofs.«101908_j42734924595228_2_alg».proof.Proof.EdgeBridge
import Idealize.ShloMosaic.Adequacy
import Idealize.ShloMosaic.Init

set_option maxRecDepth 16384
set_option maxHeartbeats 4000000

noncomputable section

namespace Cert.Proof

open Idealize.ShloMosaic Idealize.ShloMosaic.TcCoe Idealize.SL.Sem Cert.BeamEdge

theorem frame_k : Cert.frame_Kernel := fun m ρ _ => Cert.Kernel.Edge.frame m ρ
theorem frame_ki : Cert.frame_KernelIdeal := fun m ρ _ => Cert.KernelIdeal.Edge.frame m ρ
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote nothing: there is nothing to preserve. -/
theorem preserves : Cert.preserves_Kernel_KernelIdeal := trivial

/-- Run from memories that agree on the arguments, both programs end with the node forces, the returned argument,
    the scaled displacements and the two pairs of extremes at the same values: those of `outForces`, …, `outBend` of
    the arguments. -/
theorem algebraic : Cert.algebraic_KernelIdeal_ReferenceIdeal := by
  intro m ρ m' ρ' _ hagree
  refine ⟨fun c => Cert.KernelIdeal.EdgeValue.outForces m c, fun c => (m ((c.tc : Thread Cert.KernelIdeal.nD Cert.KernelIdeal.τ).loc Cert.KernelIdeal.main_arg6)),
    fun c => Cert.KernelIdeal.EdgeValue.outDisp m c, fun c => Cert.KernelIdeal.EdgeValue.outAx m c, fun c => Cert.KernelIdeal.EdgeValue.outBend m c, ?_, ?_⟩
  · refine (θ_run Cert.KernelIdeal.defs _ _).mono (fun r h c => ?_) (Cert.KernelIdeal.Edge.run_main m ρ)
    exact ⟨((h c).2 Cert.KernelIdeal.main_v51 (Pipeline.mem_restRefs_of Cert.KernelIdeal.main_v51 (by decide) (by decide))).trans (Cert.KernelIdeal.EdgeValue.kernel_forces m c),
      ((h c).2 Cert.KernelIdeal.main_arg6 (Pipeline.mem_restRefs_of Cert.KernelIdeal.main_arg6 (by decide) (by decide))).trans (Cert.KernelIdeal.Edge.W_arg6 m (Cert.KernelIdeal.Edge.dats m) c),
      ((h c).2 Cert.KernelIdeal.main_v70 (Pipeline.mem_restRefs_of Cert.KernelIdeal.main_v70 (by decide) (by decide))).trans (Cert.KernelIdeal.EdgeValue.kernel_disp m c),
      ((h c).2 Cert.KernelIdeal.main_v79 (Pipeline.mem_restRefs_of Cert.KernelIdeal.main_v79 (by decide) (by decide))).trans (Cert.KernelIdeal.EdgeValue.kernel_ax m c),
      ((h c).2 Cert.KernelIdeal.main_v84 (Pipeline.mem_restRefs_of Cert.KernelIdeal.main_v84 (by decide) (by decide))).trans (Cert.KernelIdeal.EdgeValue.kernel_bend m c),
      ((h c).2 Cert.KernelIdeal.main_arg0 (Pipeline.mem_restRefs_of Cert.KernelIdeal.main_arg0 (by decide) (by decide))).trans (Cert.KernelIdeal.Edge.W_arg0 m (Cert.KernelIdeal.Edge.dats m) c),
      ((h c).2 Cert.KernelIdeal.main_arg1 (Pipeline.mem_restRefs_of Cert.KernelIdeal.main_arg1 (by decide) (by decide))).trans (Cert.KernelIdeal.Edge.W_arg1 m (Cert.KernelIdeal.Edge.dats m) c),
      ((h c).2 Cert.KernelIdeal.main_arg2 (Pipeline.mem_restRefs_of Cert.KernelIdeal.main_arg2 (by decide) (by decide))).trans (Cert.KernelIdeal.Edge.W_arg2 m (Cert.KernelIdeal.Edge.dats m) c),
      ((h c).2 Cert.KernelIdeal.main_arg3 (Pipeline.mem_restRefs_of Cert.KernelIdeal.main_arg3 (by decide) (by decide))).trans (Cert.KernelIdeal.Edge.W_arg3 m (Cert.KernelIdeal.Edge.dats m) c),
      ((h c).2 Cert.KernelIdeal.main_arg4 (Pipeline.mem_restRefs_of Cert.KernelIdeal.main_arg4 (by decide) (by decide))).trans (Cert.KernelIdeal.Edge.W_arg4 m (Cert.KernelIdeal.Edge.dats m) c),
      ((h c).2 Cert.KernelIdeal.main_arg5 (Pipeline.mem_restRefs_of Cert.KernelIdeal.main_arg5 (by decide) (by decide))).trans (Cert.KernelIdeal.Edge.W_arg5 m (Cert.KernelIdeal.Edge.dats m) c),
      ((h c).2 Cert.KernelIdeal.main_arg6 (Pipeline.mem_restRefs_of Cert.KernelIdeal.main_arg6 (by decide) (by decide))).trans (Cert.KernelIdeal.Edge.W_arg6 m (Cert.KernelIdeal.Edge.dats m) c),
      ((h c).2 Cert.KernelIdeal.main_arg7 (Pipeline.mem_restRefs_of Cert.KernelIdeal.main_arg7 (by decide) (by decide))).trans (Cert.KernelIdeal.Edge.W_arg7 m (Cert.KernelIdeal.Edge.dats m) c),
      ((h c).2 Cert.KernelIdeal.main_arg8 (Pipeline.mem_restRefs_of Cert.KernelIdeal.main_arg8 (by decide) (by decide))).trans (Cert.KernelIdeal.Edge.W_arg8 m (Cert.KernelIdeal.Edge.dats m) c)⟩
  · refine (θ_run Cert.ReferenceIdeal.defs _ _).mono (fun r h c => ?_) (Cert.ReferenceIdeal.Value.run (F := Ideal) m' ρ')
    obtain ⟨h0, h1, h2, h3, h4, hargs⟩ := h c
    obtain ⟨g0, g1, g2, g3, g4, g5, g6, g7, g8⟩ := hagree c
    have e0 : StableHlo.launchContents m' c (Proc.devRef .tc Cert.ReferenceIdeal.main_arg0) = (m ((c.tc : Thread Cert.KernelIdeal.nD Cert.KernelIdeal.τ).loc Cert.KernelIdeal.main_arg0)) := g0
    have e1 : StableHlo.launchContents m' c (Proc.devRef .tc Cert.ReferenceIdeal.main_arg1) = (m ((c.tc : Thread Cert.KernelIdeal.nD Cert.KernelIdeal.τ).loc Cert.KernelIdeal.main_arg1)) := g1
    have e2 : StableHlo.launchContents m' c (Proc.devRef .tc Cert.ReferenceIdeal.main_arg2) = (m ((c.tc : Thread Cert.KernelIdeal.nD Cert.KernelIdeal.τ).loc Cert.KernelIdeal.main_arg2)) := g2
    have e3 : StableHlo.launchContents m' c (Proc.devRef .tc Cert.ReferenceIdeal.main_arg3) = (m ((c.tc : Thread Cert.KernelIdeal.nD Cert.KernelIdeal.τ).loc Cert.KernelIdeal.main_arg3)) := g3
    have e4 : StableHlo.launchContents m' c (Proc.devRef .tc Cert.ReferenceIdeal.main_arg4) = (m ((c.tc : Thread Cert.KernelIdeal.nD Cert.KernelIdeal.τ).loc Cert.KernelIdeal.main_arg4)) := g4
    have e5 : StableHlo.launchContents m' c (Proc.devRef .tc Cert.ReferenceIdeal.main_arg5) = (m ((c.tc : Thread Cert.KernelIdeal.nD Cert.KernelIdeal.τ).loc Cert.KernelIdeal.main_arg5)) := g5
    have e6 : StableHlo.launchContents m' c (Proc.devRef .tc Cert.ReferenceIdeal.main_arg6) = (m ((c.tc : Thread Cert.KernelIdeal.nD Cert.KernelIdeal.τ).loc Cert.KernelIdeal.main_arg6)) := g6
    have e7 : StableHlo.launchContents m' c (Proc.devRef .tc Cert.ReferenceIdeal.main_arg7) = (m ((c.tc : Thread Cert.KernelIdeal.nD Cert.KernelIdeal.τ).loc Cert.KernelIdeal.main_arg7)) := g7
    have e8 : StableHlo.launchContents m' c (Proc.devRef .tc Cert.ReferenceIdeal.main_arg8) = (m ((c.tc : Thread Cert.KernelIdeal.nD Cert.KernelIdeal.τ).loc Cert.KernelIdeal.main_arg8)) := g8
    refine ⟨h0.trans ?_, h1.trans e6, h2.trans ?_, h3.trans ?_, h4.trans ?_, hargs⟩
    · refine (Cert.ReferenceIdeal.Value.val6_main_v239 (StableHlo.launchContents m' c)).symm.trans
        ((Cert.ReferenceIdeal.EdgeValue.ref_forces_final (StableHlo.launchContents m' c)).trans ?_)
      rw [e0, e1, e2, e3, e4, e5]
      rfl
    · refine (Cert.ReferenceIdeal.Value.val6_main_v258 (StableHlo.launchContents m' c)).symm.trans
        ((Cert.ReferenceIdeal.EdgeValue.ref_disp_final (StableHlo.launchContents m' c)).trans ?_)
      rw [e0, e7, e8]
      rfl
    · refine (Cert.ReferenceIdeal.Value.val6_main_v263 (StableHlo.launchContents m' c)).symm.trans
        ((Cert.ReferenceIdeal.EdgeValue.ref_ax_final (StableHlo.launchContents m' c)).trans ?_)
      rw [e0, e1, e2, e3, e4, e5]
      rfl
    · refine (Cert.ReferenceIdeal.Value.val6_main_v268 (StableHlo.launchContents m' c)).symm.trans
        ((Cert.ReferenceIdeal.EdgeValue.ref_bend_final (StableHlo.launchContents m' c)).trans ?_)
      rw [e0, e1, e2, e3, e4, e5]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
